-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S4000x128 : Shape := ⟨2, ![4000, 128]⟩
abbrev S1x128 : Shape := ⟨2, ![1, 128]⟩
abbrev S1600000x128 : Shape := ⟨2, ![1600000, 128]⟩
abbrev S4000 : Shape := ⟨1, ![4000]⟩
abbrev S4000x1 : Shape := ⟨2, ![4000, 1]⟩
abbrev S100000x1 : Shape := ⟨2, ![100000, 1]⟩
abbrev S4000x64 : Shape := ⟨2, ![4000, 64]⟩
abbrev S1x64 : Shape := ⟨2, ![1, 64]⟩
abbrev S1x1 : Shape := ⟨2, ![1, 1]⟩

abbrev nBuf : Space → Nat
  | .hbm => 94
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x1, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x1, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x1, .f32⟩
  | .hbm, ⟨93, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S128x64, .f32⟩
  | .local _ .vmem, ⟨29, _⟩ => ⟨S64, .f32⟩
  | .local _ .vmem, ⟨30, _⟩ => ⟨S64x1, .f32⟩
  | .local _ .vmem, ⟨31, _⟩ => ⟨S1, .f32⟩
  | .local _ .vmem, ⟨32, _⟩ => ⟨S4000x1, .f32⟩
  | .local _ .vmem, ⟨33, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_c_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x1.size a ≤ S100000x1.size a
  hwx3_9 : ∀ i : grid3.Coords, EltTy.bits .f32 = 32 ∨ (Rect.block (s := S100000x1) S4000x1.size (cc3_transform_9 i) (hinb3_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S4000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg15) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v58) S4000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S100000, .f32⟩
  | 35 => ⟨S100000, .i1⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S100000x128, .f32⟩
  | 62 => ⟨S1x128, .f32⟩
  | 63 => ⟨S100000x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S100000x128, .f32⟩
  | 94 => ⟨S_, .f32⟩
  | 95 => ⟨S100000, .f32⟩
  | 96 => ⟨S100000x1, .f32⟩
  | 97 => ⟨S_, .f32⟩
  | 98 => ⟨S100000x1, .f32⟩
  | 99 => ⟨S100000x1, .f32⟩
  | 100 => ⟨S100000x128, .f32⟩
  | 101 => ⟨S100000x128, .f32⟩
  | 102 => ⟨S_, .f32⟩
  | 103 => ⟨S100000x1, .f32⟩
  | 104 => ⟨S100000x1, .f32⟩
  | 105 => ⟨S100000x1, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S1600000x1, .f32⟩
  | _ => ⟨S100000x128, .f32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x128, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S_, .f32⟩
  | 27 => ⟨S100000x1, .f32⟩
  | 28 => ⟨S100000x1, .f32⟩
  | 29 => ⟨S100000x1, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x1, .f32⟩
  | 50 => ⟨S1x1, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000x1, .f32⟩
  | 57 => ⟨S100000x1, .f32⟩
  | 58 => ⟨S100000x1, .i1⟩
  | 59 => ⟨S100000x1, .f32⟩
  | 60 => ⟨S100000x1, .f32⟩
  | 61 => ⟨S100000x1, .f32⟩
  | 62 => ⟨S100000x1, .f32⟩
  | 63 => ⟨S100000x1, .f32⟩
  | 64 => ⟨S100000x1, .f32⟩
  | 65 => ⟨S100000x1, .f32⟩
  | 66 => ⟨S100000x1, .f32⟩
  | 67 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call1_cst : Ref sig .tc := ⟨.hbm, 114, rfl⟩
abbrev main_call1_v0 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call2_cst : Ref sig .tc := ⟨.hbm, 166, rfl⟩
abbrev main_call2_v0 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_call3_cst : Ref sig .tc := ⟨.hbm, 174, rfl⟩
abbrev main_call3_v0 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_v6 : Ref sig .tc := ⟨.hbm, 188, rfl⟩
abbrev main_call4_v7 : Ref sig .tc := ⟨.hbm, 189, rfl⟩
abbrev main_call4_v8 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_v131 : Ref sig .tc := ⟨.hbm, 194, rfl⟩
abbrev main_v132 : Ref sig .tc := ⟨.hbm, 195, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RunAll.lean ====
/-
  The kernel program's run with EVERY host-visible buffer named.

  The program is four pipelined regions among stretches of host operations.  The buffer contents at each
  boundary form a fold from the launch memory: a stretch of host operations applies its operations' pure
  functions, a region replaces its windows' arrays by what the write-backs of its grid points leave.  The
  run ends with every unscoped buffer at the last valuation of that fold; the value proof reads the result
  buffer there, and the argument buffers are read back to the launch memory.
-/
import proofs.«111997_j21251498181391_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every
    core ends at the last valuation of the boundary fold. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.Whole

end
-- ==== Proof.KHost.lean ====
/-
  The kernel program's host stretches, one at a time, from any buffer contents `V`.

  A stretch is a line of host operations.  A buffer no operation of the stretch writes keeps its contents;
  a buffer a stretch computes holds the operations' composed function of the contents the stretch starts from.
  The stretches around the four regions compute the edge normalisation (in-degrees by a scatter-add of ones,
  their reciprocal square roots where positive, gathered at both edge ends and multiplied) and, twice, the
  aggregation of a dense array along the edges (rows gathered at the source ends, scaled, scatter-added at the
  target ends).  They are the reference's own operations; the one difference is that the reference multiplies
  the reciprocal root by the 0/1 value of "degree positive" before selecting on that same condition, which
  changes nothing: where the condition holds the factor is one.
-/
import proofs.«111997_j21251498181391_1_alg».proof.Proof.Gen.KernelIdeal.Frame
import proofs.«111997_j21251498181391_1_alg».proof.Proof.RefVals
import Idealize.ShloMosaic.Lib.StableHlo.Run
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.ShloMosaic.StableHlo
open Idealize.ShloMosaic.ValueIdx

/-- A buffer that no operation of the stretch writes keeps its contents. -/
macro "keep_stretch " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (V : Valuation τ sig (Elt Ideal))

/-! ## Buffers a stretch does not write -/

theorem k0_main_arg0 : after (hostOps0 (F := Ideal)) V (Proc.devRef .tc main_arg0) = V (Proc.devRef .tc main_arg0) := by keep_stretch hostOps0
theorem k0_main_arg2 : after (hostOps0 (F := Ideal)) V (Proc.devRef .tc main_arg2) = V (Proc.devRef .tc main_arg2) := by keep_stretch hostOps0
theorem k0_main_arg3 : after (hostOps0 (F := Ideal)) V (Proc.devRef .tc main_arg3) = V (Proc.devRef .tc main_arg3) := by keep_stretch hostOps0
theorem k0_main_arg4 : after (hostOps0 (F := Ideal)) V (Proc.devRef .tc main_arg4) = V (Proc.devRef .tc main_arg4) := by keep_stretch hostOps0
theorem k0_main_arg5 : after (hostOps0 (F := Ideal)) V (Proc.devRef .tc main_arg5) = V (Proc.devRef .tc main_arg5) := by keep_stretch hostOps0
theorem k0_main_arg6 : after (hostOps0 (F := Ideal)) V (Proc.devRef .tc main_arg6) = V (Proc.devRef .tc main_arg6) := by keep_stretch hostOps0
theorem k0_main_arg7 : after (hostOps0 (F := Ideal)) V (Proc.devRef .tc main_arg7) = V (Proc.devRef .tc main_arg7) := by keep_stretch hostOps0
theorem k0_main_arg8 : after (hostOps0 (F := Ideal)) V (Proc.devRef .tc main_arg8) = V (Proc.devRef .tc main_arg8) := by keep_stretch hostOps0
theorem k0_main_arg9 : after (hostOps0 (F := Ideal)) V (Proc.devRef .tc main_arg9) = V (Proc.devRef .tc main_arg9) := by keep_stretch hostOps0
theorem k0_main_arg10 : after (hostOps0 (F := Ideal)) V (Proc.devRef .tc main_arg10) = V (Proc.devRef .tc main_arg10) := by keep_stretch hostOps0
theorem k0_main_arg11 : after (hostOps0 (F := Ideal)) V (Proc.devRef .tc main_arg11) = V (Proc.devRef .tc main_arg11) := by keep_stretch hostOps0
theorem k0_main_arg12 : after (hostOps0 (F := Ideal)) V (Proc.devRef .tc main_arg12) = V (Proc.devRef .tc main_arg12) := by keep_stretch hostOps0
theorem k0_main_arg13 : after (hostOps0 (F := Ideal)) V (Proc.devRef .tc main_arg13) = V (Proc.devRef .tc main_arg13) := by keep_stretch hostOps0
theorem k0_main_arg14 : after (hostOps0 (F := Ideal)) V (Proc.devRef .tc main_arg14) = V (Proc.devRef .tc main_arg14) := by keep_stretch hostOps0
theorem k0_main_arg15 : after (hostOps0 (F := Ideal)) V (Proc.devRef .tc main_arg15) = V (Proc.devRef .tc main_arg15) := by keep_stretch hostOps0

theorem k01_main_arg0 : after (hostOps0_1 (F := Ideal)) V (Proc.devRef .tc main_arg0) = V (Proc.devRef .tc main_arg0) := by keep_stretch hostOps0_1
theorem k01_main_arg2 : after (hostOps0_1 (F := Ideal)) V (Proc.devRef .tc main_arg2) = V (Proc.devRef .tc main_arg2) := by keep_stretch hostOps0_1
theorem k01_main_arg3 : after (hostOps0_1 (F := Ideal)) V (Proc.devRef .tc main_arg3) = V (Proc.devRef .tc main_arg3) := by keep_stretch hostOps0_1
theorem k01_main_arg4 : after (hostOps0_1 (F := Ideal)) V (Proc.devRef .tc main_arg4) = V (Proc.devRef .tc main_arg4) := by keep_stretch hostOps0_1
theorem k01_main_arg5 : after (hostOps0_1 (F := Ideal)) V (Proc.devRef .tc main_arg5) = V (Proc.devRef .tc main_arg5) := by keep_stretch hostOps0_1
theorem k01_main_arg6 : after (hostOps0_1 (F := Ideal)) V (Proc.devRef .tc main_arg6) = V (Proc.devRef .tc main_arg6) := by keep_stretch hostOps0_1
theorem k01_main_arg7 : after (hostOps0_1 (F := Ideal)) V (Proc.devRef .tc main_arg7) = V (Proc.devRef .tc main_arg7) := by keep_stretch hostOps0_1
theorem k01_main_arg8 : after (hostOps0_1 (F := Ideal)) V (Proc.devRef .tc main_arg8) = V (Proc.devRef .tc main_arg8) := by keep_stretch hostOps0_1
theorem k01_main_arg9 : after (hostOps0_1 (F := Ideal)) V (Proc.devRef .tc main_arg9) = V (Proc.devRef .tc main_arg9) := by keep_stretch hostOps0_1
theorem k01_main_arg10 : after (hostOps0_1 (F := Ideal)) V (Proc.devRef .tc main_arg10) = V (Proc.devRef .tc main_arg10) := by keep_stretch hostOps0_1
theorem k01_main_arg11 : after (hostOps0_1 (F := Ideal)) V (Proc.devRef .tc main_arg11) = V (Proc.devRef .tc main_arg11) := by keep_stretch hostOps0_1
theorem k01_main_arg12 : after (hostOps0_1 (F := Ideal)) V (Proc.devRef .tc main_arg12) = V (Proc.devRef .tc main_arg12) := by keep_stretch hostOps0_1
theorem k01_main_arg13 : after (hostOps0_1 (F := Ideal)) V (Proc.devRef .tc main_arg13) = V (Proc.devRef .tc main_arg13) := by keep_stretch hostOps0_1
theorem k01_main_arg14 : after (hostOps0_1 (F := Ideal)) V (Proc.devRef .tc main_arg14) = V (Proc.devRef .tc main_arg14) := by keep_stretch hostOps0_1
theorem k01_main_arg15 : after (hostOps0_1 (F := Ideal)) V (Proc.devRef .tc main_arg15) = V (Proc.devRef .tc main_arg15) := by keep_stretch hostOps0_1
theorem k01_main_v1 : after (hostOps0_1 (F := Ideal)) V (Proc.devRef .tc main_v1) = V (Proc.devRef .tc main_v1) := by keep_stretch hostOps0_1
theorem k01_main_v3 : after (hostOps0_1 (F := Ideal)) V (Proc.devRef .tc main_v3) = V (Proc.devRef .tc main_v3) := by keep_stretch hostOps0_1

theorem k02_main_arg0 : after (hostOps0_2 (F := Ideal)) V (Proc.devRef .tc main_arg0) = V (Proc.devRef .tc main_arg0) := by keep_stretch hostOps0_2
theorem k02_main_arg2 : after (hostOps0_2 (F := Ideal)) V (Proc.devRef .tc main_arg2) = V (Proc.devRef .tc main_arg2) := by keep_stretch hostOps0_2
theorem k02_main_arg3 : after (hostOps0_2 (F := Ideal)) V (Proc.devRef .tc main_arg3) = V (Proc.devRef .tc main_arg3) := by keep_stretch hostOps0_2
theorem k02_main_arg4 : after (hostOps0_2 (F := Ideal)) V (Proc.devRef .tc main_arg4) = V (Proc.devRef .tc main_arg4) := by keep_stretch hostOps0_2
theorem k02_main_arg5 : after (hostOps0_2 (F := Ideal)) V (Proc.devRef .tc main_arg5) = V (Proc.devRef .tc main_arg5) := by keep_stretch hostOps0_2
theorem k02_main_arg6 : after (hostOps0_2 (F := Ideal)) V (Proc.devRef .tc main_arg6) = V (Proc.devRef .tc main_arg6) := by keep_stretch hostOps0_2
theorem k02_main_arg7 : after (hostOps0_2 (F := Ideal)) V (Proc.devRef .tc main_arg7) = V (Proc.devRef .tc main_arg7) := by keep_stretch hostOps0_2
theorem k02_main_arg8 : after (hostOps0_2 (F := Ideal)) V (Proc.devRef .tc main_arg8) = V (Proc.devRef .tc main_arg8) := by keep_stretch hostOps0_2
theorem k02_main_arg9 : after (hostOps0_2 (F := Ideal)) V (Proc.devRef .tc main_arg9) = V (Proc.devRef .tc main_arg9) := by keep_stretch hostOps0_2
theorem k02_main_arg10 : after (hostOps0_2 (F := Ideal)) V (Proc.devRef .tc main_arg10) = V (Proc.devRef .tc main_arg10) := by keep_stretch hostOps0_2
theorem k02_main_arg11 : after (hostOps0_2 (F := Ideal)) V (Proc.devRef .tc main_arg11) = V (Proc.devRef .tc main_arg11) := by keep_stretch hostOps0_2
theorem k02_main_arg12 : after (hostOps0_2 (F := Ideal)) V (Proc.devRef .tc main_arg12) = V (Proc.devRef .tc main_arg12) := by keep_stretch hostOps0_2
theorem k02_main_arg13 : after (hostOps0_2 (F := Ideal)) V (Proc.devRef .tc main_arg13) = V (Proc.devRef .tc main_arg13) := by keep_stretch hostOps0_2
theorem k02_main_arg14 : after (hostOps0_2 (F := Ideal)) V (Proc.devRef .tc main_arg14) = V (Proc.devRef .tc main_arg14) := by keep_stretch hostOps0_2
theorem k02_main_arg15 : after (hostOps0_2 (F := Ideal)) V (Proc.devRef .tc main_arg15) = V (Proc.devRef .tc main_arg15) := by keep_stretch hostOps0_2
theorem k02_main_v1 : after (hostOps0_2 (F := Ideal)) V (Proc.devRef .tc main_v1) = V (Proc.devRef .tc main_v1) := by keep_stretch hostOps0_2
theorem k02_main_v3 : after (hostOps0_2 (F := Ideal)) V (Proc.devRef .tc main_v3) = V (Proc.devRef .tc main_v3) := by keep_stretch hostOps0_2

theorem k1_main_arg3 : after (hostOps1 (F := Ideal)) V (Proc.devRef .tc main_arg3) = V (Proc.devRef .tc main_arg3) := by keep_stretch hostOps1
theorem k1_main_arg4 : after (hostOps1 (F := Ideal)) V (Proc.devRef .tc main_arg4) = V (Proc.devRef .tc main_arg4) := by keep_stretch hostOps1
theorem k1_main_arg5 : after (hostOps1 (F := Ideal)) V (Proc.devRef .tc main_arg5) = V (Proc.devRef .tc main_arg5) := by keep_stretch hostOps1
theorem k1_main_arg6 : after (hostOps1 (F := Ideal)) V (Proc.devRef .tc main_arg6) = V (Proc.devRef .tc main_arg6) := by keep_stretch hostOps1
theorem k1_main_arg7 : after (hostOps1 (F := Ideal)) V (Proc.devRef .tc main_arg7) = V (Proc.devRef .tc main_arg7) := by keep_stretch hostOps1
theorem k1_main_arg8 : after (hostOps1 (F := Ideal)) V (Proc.devRef .tc main_arg8) = V (Proc.devRef .tc main_arg8) := by keep_stretch hostOps1
theorem k1_main_arg9 : after (hostOps1 (F := Ideal)) V (Proc.devRef .tc main_arg9) = V (Proc.devRef .tc main_arg9) := by keep_stretch hostOps1
theorem k1_main_arg12 : after (hostOps1 (F := Ideal)) V (Proc.devRef .tc main_arg12) = V (Proc.devRef .tc main_arg12) := by keep_stretch hostOps1
theorem k1_main_arg13 : after (hostOps1 (F := Ideal)) V (Proc.devRef .tc main_arg13) = V (Proc.devRef .tc main_arg13) := by keep_stretch hostOps1
theorem k1_main_arg14 : after (hostOps1 (F := Ideal)) V (Proc.devRef .tc main_arg14) = V (Proc.devRef .tc main_arg14) := by keep_stretch hostOps1
theorem k1_main_arg15 : after (hostOps1 (F := Ideal)) V (Proc.devRef .tc main_arg15) = V (Proc.devRef .tc main_arg15) := by keep_stretch hostOps1
theorem k1_main_v1 : after (hostOps1 (F := Ideal)) V (Proc.devRef .tc main_v1) = V (Proc.devRef .tc main_v1) := by keep_stretch hostOps1
theorem k1_main_v3 : after (hostOps1 (F := Ideal)) V (Proc.devRef .tc main_v3) = V (Proc.devRef .tc main_v3) := by keep_stretch hostOps1
theorem k1_main_v28 : after (hostOps1 (F := Ideal)) V (Proc.devRef .tc main_v28) = V (Proc.devRef .tc main_v28) := by keep_stretch hostOps1
theorem k1_main_v29_1 : after (hostOps1 (F := Ideal)) V (Proc.devRef .tc main_v29_1) = V (Proc.devRef .tc main_v29_1) := by keep_stretch hostOps1

theorem k3_main_arg7 : after (hostOps3 (F := Ideal)) V (Proc.devRef .tc main_arg7) = V (Proc.devRef .tc main_arg7) := by keep_stretch hostOps3
theorem k3_main_arg8 : after (hostOps3 (F := Ideal)) V (Proc.devRef .tc main_arg8) = V (Proc.devRef .tc main_arg8) := by keep_stretch hostOps3
theorem k3_main_arg9 : after (hostOps3 (F := Ideal)) V (Proc.devRef .tc main_arg9) = V (Proc.devRef .tc main_arg9) := by keep_stretch hostOps3
theorem k3_main_arg12 : after (hostOps3 (F := Ideal)) V (Proc.devRef .tc main_arg12) = V (Proc.devRef .tc main_arg12) := by keep_stretch hostOps3
theorem k3_main_arg13 : after (hostOps3 (F := Ideal)) V (Proc.devRef .tc main_arg13) = V (Proc.devRef .tc main_arg13) := by keep_stretch hostOps3
theorem k3_main_arg14 : after (hostOps3 (F := Ideal)) V (Proc.devRef .tc main_arg14) = V (Proc.devRef .tc main_arg14) := by keep_stretch hostOps3
theorem k3_main_arg15 : after (hostOps3 (F := Ideal)) V (Proc.devRef .tc main_arg15) = V (Proc.devRef .tc main_arg15) := by keep_stretch hostOps3
theorem k3_main_v29_1 : after (hostOps3 (F := Ideal)) V (Proc.devRef .tc main_v29_1) = V (Proc.devRef .tc main_v29_1) := by keep_stretch hostOps3

/-! ## What the stretches compute -/

theorem s0_v1 : after (hostOps0 (F := Ideal)) V (Proc.devRef .tc main_v1) = Cert.ReferenceIdeal.ReadP.val_main_v1 (F := Ideal) (V (Proc.devRef .tc main_arg1)) := by
  dsimp only [hostOps0]; after_results_simp; rfl
theorem s0_v3 : after (hostOps0 (F := Ideal)) V (Proc.devRef .tc main_v3) = Cert.ReferenceIdeal.ReadP.val_main_v3 (F := Ideal) (V (Proc.devRef .tc main_arg1)) := by
  dsimp only [hostOps0]; after_results_simp; rfl
theorem s0_v9 : after (hostOps0 (F := Ideal)) V (Proc.devRef .tc main_v9) = Cert.ReferenceIdeal.ReadP.val_main_v9 (F := Ideal) (V (Proc.devRef .tc main_arg1)) := by
  dsimp only [hostOps0]; after_results_simp; rfl
theorem s0_v12 : after (hostOps0 (F := Ideal)) V (Proc.devRef .tc main_v12) = Cert.ReferenceIdeal.ReadP.val_main_v12 (F := Ideal) (V (Proc.devRef .tc main_arg1)) := by
  dsimp only [hostOps0]; after_results_simp; rfl
theorem s0_cst3 : after (hostOps0 (F := Ideal)) V (Proc.devRef .tc main_cst_3) = constant (F := Ideal) S_ .f32 0x00000000#32 := by
  dsimp only [hostOps0]; after_results_simp

/-- Selecting on a bit between `x` and `y` is selecting between `x` times the bit's 0/1 value and `y`. -/
theorem select_mul_bit (b : BitVec 1) (x y : EReal) :
    Scalar.select b x y = Scalar.select b (x * (FloatOps.uitofp (F := Ideal) .f32 b : EReal)) y := by
  by_cases h : b = 1#1
  · subst h
    rw [select_one, select_one]
    have h1 : (FloatOps.uitofp (F := Ideal) .f32 (1#1 : BitVec 1) : EReal) = 1 := by
      show ((((1#1 : BitVec 1).toNat : ℕ) : ℝ) : EReal) = 1
      rw [show (1#1 : BitVec 1).toNat = 1 from rfl, Nat.cast_one, EReal.coe_one]
    rw [h1, mul_one]
  · have h0 := eq_zero_of_ne_one h
    subst h0
    rw [select_zero, select_zero]

/-- The same for whole vectors, element by element. -/
theorem select_mul_bits (A : IVec S100000 1) (B C : FVec Ideal S100000 .f32) :
    select A B C = select A (mulf B (uitofp .f32 A)) C := by
  funext i
  exact select_mul_bit (A i) (B i) (C i)

/-- The per-node factor as the stretch computes it: a selection on "in-degree positive". -/
theorem s01_raw : after (hostOps0_1 (F := Ideal)) V (Proc.devRef .tc main_v13)
    = select (V (Proc.devRef .tc main_v9)) (V (Proc.devRef .tc main_v12))
        (broadcastInDim S100000 ![] bcast_S_S100000 (id (V (Proc.devRef .tc main_cst_3)))) := by
  dsimp only [hostOps0_1]; after_results_simp; rfl

/-- The per-node factor: the reciprocal root of the in-degree where it is positive, zero elsewhere. -/
theorem s01_v13 (x1 : (⟨Cert.ReferenceIdeal.S2x1600000, .i32⟩ : BufTy).Contents (Elt Ideal))
    (h9 : V (Proc.devRef .tc main_v9) = Cert.ReferenceIdeal.ReadP.val_main_v9 (F := Ideal) x1)
    (h12 : V (Proc.devRef .tc main_v12) = Cert.ReferenceIdeal.ReadP.val_main_v12 (F := Ideal) x1)
    (hc : V (Proc.devRef .tc main_cst_3) = constant (F := Ideal) S_ .f32 0x00000000#32) :
    after (hostOps0_1 (F := Ideal)) V (Proc.devRef .tc main_v13) = Cert.ReferenceIdeal.ReadP.val_main_v17 (F := Ideal) x1 := by
  have key : Cert.ReferenceIdeal.ReadP.val_main_v17 (F := Ideal) x1
      = select (Cert.ReferenceIdeal.ReadP.val_main_v9 (F := Ideal) x1)
          (mulf (Cert.ReferenceIdeal.ReadP.val_main_v12 (F := Ideal) x1) (uitofp .f32 (Cert.ReferenceIdeal.ReadP.val_main_v9 (F := Ideal) x1)))
          (broadcastInDim S100000 ![] bcast_S_S100000 (id (constant (F := Ideal) S_ .f32 0x00000000#32))) := by
    simp only [Cert.ReferenceIdeal.ReadP.val_main_v17, Cert.ReferenceIdeal.ReadP.val_main_v16, Cert.ReferenceIdeal.ReadP.val_main_v15, Cert.ReferenceIdeal.ReadP.val_main_v14, Cert.ReferenceIdeal.ReadP.val_main_v9, Cert.ReferenceIdeal.ReadP.val_main_v13, Cert.ReferenceIdeal.ReadP.val_main_v8, Cert.ReferenceIdeal.ReadP.val_main_call0_v1, Cert.ReferenceIdeal.ReadP.val_main_call0_v0, Cert.ReferenceIdeal.ReadP.val_main_cst_4, Cert.ReferenceIdeal.ReadP.val_main_cst_3, Cert.ReferenceIdeal.ReadP.val_main_cst_1]
  rw [s01_raw, h9, h12, hc, key]
  exact select_mul_bits _ _ _

/-- The per-edge normalisation: the factor at the source end times the factor at the target end. -/
theorem s02_v28 (x1 : (⟨Cert.ReferenceIdeal.S2x1600000, .i32⟩ : BufTy).Contents (Elt Ideal))
    (h1 : V (Proc.devRef .tc main_v1) = Cert.ReferenceIdeal.ReadP.val_main_v1 (F := Ideal) x1)
    (h3 : V (Proc.devRef .tc main_v3) = Cert.ReferenceIdeal.ReadP.val_main_v3 (F := Ideal) x1)
    (h13 : V (Proc.devRef .tc main_v13) = Cert.ReferenceIdeal.ReadP.val_main_v17 (F := Ideal) x1) :
    after (hostOps0_2 (F := Ideal)) V (Proc.devRef .tc main_v28) = Cert.ReferenceIdeal.ReadP.val_main_v32 (F := Ideal) x1 := by
  dsimp only [hostOps0_2]
  after_results_simp
  rw [h1, h3, h13]
  rfl

/-- The first aggregation along the edges. -/
theorem s1_v42 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal))
    (h1 : V (Proc.devRef .tc main_v1) = Cert.ReferenceIdeal.ReadP.val_main_v1 (F := Ideal) x1)
    (h3 : V (Proc.devRef .tc main_v3) = Cert.ReferenceIdeal.ReadP.val_main_v3 (F := Ideal) x1)
    (h28 : V (Proc.devRef .tc main_v28) = Cert.ReferenceIdeal.ReadP.val_main_v32 (F := Ideal) x1)
    (hl : V (Proc.devRef .tc main_v29_0) = Cert.ReferenceIdeal.ReadP.val_main_v37 (F := Ideal) x0 x2) :
    after (hostOps1 (F := Ideal)) V (Proc.devRef .tc main_v42) = Cert.ReferenceIdeal.ReadP.val_main_v50 (F := Ideal) x0 x1 x2 := by
  dsimp only [hostOps1]
  after_results_simp
  rw [h1, h3, h28, hl]
  rfl

/-- The second aggregation along the edges. -/
theorem s3_v57 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal))
    (h1 : V (Proc.devRef .tc main_v1) = Cert.ReferenceIdeal.ReadP.val_main_v1 (F := Ideal) x1)
    (h3 : V (Proc.devRef .tc main_v3) = Cert.ReferenceIdeal.ReadP.val_main_v3 (F := Ideal) x1)
    (h28 : V (Proc.devRef .tc main_v28) = Cert.ReferenceIdeal.ReadP.val_main_v32 (F := Ideal) x1)
    (hl : V (Proc.devRef .tc main_v44) = Cert.ReferenceIdeal.ReadP.val_main_v79 (F := Ideal) x0 x1 x2 x3 x4 x5 x6) :
    after (hostOps3 (F := Ideal)) V (Proc.devRef .tc main_v57) = Cert.ReferenceIdeal.ReadP.val_main_v92 (F := Ideal) x0 x1 x2 x3 x4 x5 x6 := by
  dsimp only [hostOps3]
  after_results_simp
  rw [h1, h3, h28, hl]
  rfl

/-- The result is the head's output column, reshaped to a vector. -/
theorem s4_v59 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x64, .f32⟩ : BufTy).Contents (Elt Ideal)) (x13 : (⟨Cert.ReferenceIdeal.S64, .f32⟩ : BufTy).Contents (Elt Ideal)) (x14 : (⟨Cert.ReferenceIdeal.S64x1, .f32⟩ : BufTy).Contents (Elt Ideal)) (x15 : (⟨Cert.ReferenceIdeal.S1, .f32⟩ : BufTy).Contents (Elt Ideal))
    (hl : V (Proc.devRef .tc main_v58) = Cert.ReferenceIdeal.ReadP.val_main_v131 (F := Ideal) x0 x1 x2 x3 x4 x5 x6 x7 x8 x9 x10 x11 x12 x13 x14 x15) :
    after (hostOps4 (F := Ideal)) V (Proc.devRef .tc main_v59) = Cert.ReferenceIdeal.ReadP.val_main_v132 (F := Ideal) x0 x1 x2 x3 x4 x5 x6 x7 x8 x9 x10 x11 x12 x13 x14 x15 := by
  dsimp only [hostOps4]
  after_results_simp
  rw [hl]
  rfl

end Cert.KernelIdeal.HostSide

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.LibNormalize.lean ====
import Idealize.ShloMosaic.PureOps.Ideal
import Idealize.ShloMosaic.PureOps.Ideal.Laws

/-!
# Normalising by a root over the extended reals

General facts about the ideal float operations, for comparing a normalisation written
`x * rsqrt (v + ε)` with one written `x / sqrt (v + ε)`:

* `x / √s = x · (1/√s)` for every extended real `x` as soon as `0 < s` (at `s = +∞` both sides are `x · 0`);
  no finiteness of `x` is needed;
* a square is non-negative, so a mean of squares plus a positive `ε` is positive — again for all
  extended reals, infinite ones included;
* the float constants 128, 100000 and 10⁻⁵ (as rounded to binary32) denote positive reals.
-/

noncomputable section

namespace Cert.Norm

open Idealize.ShloMosaic

/-- Dividing by the root of a positive `s` is multiplying by its reciprocal root. -/
theorem div_sqrt_eq_mul_rsqrt (a s : EReal) (hs : 0 < s) : Ideal.div a (Ideal.sqrt s) = a * Ideal.rsqrt s := by
  induction s using EReal.rec with
  | bot => exact absurd hs (not_lt.mpr bot_le)
  | top => rw [Ideal.sqrt_top, Ideal.rsqrt_top, Ideal.div, if_neg EReal.top_ne_zero, EReal.inv_top]
  | coe r =>
    have hr : 0 < r := by exact_mod_cast hs
    have hsq : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hsq.ne'), EReal.coe_inv]

/-- A square of an extended real is non-negative (`(±∞)² = +∞`). -/
theorem mul_self_nonneg (x : EReal) : 0 ≤ x * x := by
  induction x using EReal.rec with
  | bot => simp
  | top => simp
  | coe r => exact_mod_cast _root_.mul_self_nonneg r

/-- A sum of squares divided by a positive real, plus a positive real, is positive. -/
theorem meanSq_add_pos {n : ℕ} (d : Fin n → EReal) {c e : ℝ} (hc : 0 < c) (he : 0 < e) :
    0 < Ideal.div (∑ k, d k * d k) (c : EReal) + (e : EReal) := by
  rw [Ideal.div_coe hc.ne']
  have h1 : 0 ≤ ∑ k, d k * d k := Finset.sum_nonneg fun k _ => mul_self_nonneg (d k)
  have h2 : 0 ≤ (∑ k, d k * d k) * ((1 / c : ℝ) : EReal) :=
    mul_nonneg h1 (by exact_mod_cast (one_div_pos.mpr hc).le)
  exact lt_of_lt_of_le (by exact_mod_cast he) (le_add_of_nonneg_left h2)

/-- The binary32 pattern of 128.0 denotes the real 128. -/
theorem ofBits_128 : Ideal.ofBits .f32 0x43000000#32 = ((128 : ℝ) : EReal) := by
  simp [Ideal.ofBits, Ideal.ieee, -EReal.coe_mul]; norm_num

/-- The binary32 pattern of 100000.0 denotes the real 100000. -/
theorem ofBits_100000 : Ideal.ofBits .f32 0x47C35000#32 = ((100000 : ℝ) : EReal) := by
  simp [Ideal.ofBits, Ideal.ieee, -EReal.coe_mul]; norm_num

/-- The binary32 pattern nearest 10⁻⁵ denotes the positive real 10995116 / 2⁴⁰. -/
theorem ofBits_eps : Ideal.ofBits .f32 0x3727C5AC#32 = (((10995116 : ℝ) / 1099511627776 : ℝ) : EReal) := by
  simp [Ideal.ofBits, Ideal.ieee, -EReal.coe_mul]; norm_num

/-- So the variance-plus-ε under a row normalisation over 128 lanes is positive, -/
theorem var128_pos {n : ℕ} (d : Fin n → EReal) :
    0 < Ideal.div (∑ k, d k * d k) (Ideal.ofBits .f32 0x43000000#32) + Ideal.ofBits .f32 0x3727C5AC#32 := by
  rw [ofBits_128, ofBits_eps]; exact meanSq_add_pos d (by norm_num) (by norm_num)

/-- and the one under a normalisation over 100000 nodes. -/
theorem var100000_pos {n : ℕ} (d : Fin n → EReal) :
    0 < Ideal.div (∑ k, d k * d k) (Ideal.ofBits .f32 0x47C35000#32) + Ideal.ofBits .f32 0x3727C5AC#32 := by
  rw [ofBits_100000, ofBits_eps]; exact meanSq_add_pos d (by norm_num) (by norm_num)

end Cert.Norm

end
-- ==== Proof.LibRowNorm.lean ====
import proofs.«111997_j21251498181391_1_alg».proof.Proof.LibKeepdims
import proofs.«111997_j21251498181391_1_alg».proof.Proof.LibRowOps
import proofs.«111997_j21251498181391_1_alg».proof.Proof.LibNormalize

/-!
# LayerNorm over rows of 128 lanes, as a kernel writes it and as jnp writes it

For a row `y : Fin 128 → EReal`, with `μ = (∑ y) / 128` and `σ² = (∑ (y - μ)²) / 128`:

* a kernel computes `(y q - μ) · rsqrt (σ² + ε) · γ q + β q` with a lane reduction, keep-dims shape
  casts and broadcasts (`normVecK`, over `[a, 128]` blocks of any row count `a`);
* jnp on the host computes `(y q - μ) / sqrt (σ² + ε) · γ q + β q` with `reduce`, `broadcast_in_dim`,
  `divide` and `sqrt` (`normVecR`).

Each, read at `(p, q)`, is the row function of row `p` (`normK`, `normR`), and the two row functions are
equal for ALL extended reals: `σ² + ε` is positive whatever the row holds.
-/

noncomputable section

namespace Cert.RowNorm

open Idealize.ShloMosaic Idealize.ShloMosaic.ValueIdx Cert.Keepdims Cert.RowOps

/-- The row's mean, -/
def mean (y : Fin 128 → EReal) : EReal := Ideal.div (∑ k, y k) (Ideal.ofBits .f32 0x43000000#32)
/-- its variance, -/
def var (y : Fin 128 → EReal) : EReal :=
  Ideal.div (∑ k, (y k - mean y) * (y k - mean y)) (Ideal.ofBits .f32 0x43000000#32)
/-- the normalised row as a kernel computes it, -/
def normK (y g e : Fin 128 → EReal) (q : Fin 128) : EReal :=
  (y q - mean y) * Ideal.rsqrt (var y + Ideal.ofBits .f32 0x3727C5AC#32) * g q + e q
/-- and as jnp computes it. -/
def normR (y g e : Fin 128 → EReal) (q : Fin 128) : EReal :=
  Ideal.div (y q - mean y) (Ideal.sqrt (var y + Ideal.ofBits .f32 0x3727C5AC#32)) * g q + e q

/-- The two agree: the variance plus ε is positive, so dividing by its root is multiplying by the reciprocal root. -/
theorem normK_eq_normR (y g e : Fin 128 → EReal) (q : Fin 128) : normK y g e q = normR y g e q := by
  unfold normK normR var
  rw [Cert.Norm.div_sqrt_eq_mul_rsqrt _ _ (Cert.Norm.var128_pos (fun k => y k - mean y))]

/-! ## The kernel's form -/

section Kernel

variable {a : ℕ} (hred : (⟨2, ![a, 128]⟩ : Shape).Reduces [1] ⟨1, ![a]⟩) (hsc : (⟨1, ![a]⟩ : Shape).ShapeCasts ⟨2, ![a, 1]⟩)
  (hb : (⟨2, ![a, 1]⟩ : Shape).Broadcasts ⟨2, ![a, 128]⟩) (hs1 : (⟨1, ![128]⟩ : Shape).ShapeCasts ⟨2, ![1, 128]⟩)
  (hb1 : (⟨2, ![1, 128]⟩ : Shape).Broadcasts ⟨2, ![a, 128]⟩)

/-- The column of row means. -/
def meanVecK (y : FVec Ideal ⟨2, ![a, 128]⟩ .f32) : FVec Ideal ⟨2, ![a, 1]⟩ .f32 :=
  divf (shapeCast ⟨2, ![a, 1]⟩ (multiReduction .add [1] ⟨1, ![a]⟩ y 0x00000000#32 hred (.inl rfl) rfl) hsc)
    (broadcast ⟨2, ![a, 1]⟩ (Scalar.ofBits .f32 0x43000000#32))

theorem meanVecK_apply (y : FVec Ideal ⟨2, ![a, 128]⟩ .f32) (p : Fin a) (u : Fin 1) :
    meanVecK hred hsc y (ix2 p u) = mean (fun k => y (ix2 p k)) := by
  show Ideal.div (shapeCast ⟨2, ![a, 1]⟩ _ hsc (ix2 p u)) (Ideal.ofBits .f32 0x43000000#32) = _
  rw [shapeCast_a_a1_apply]
  exact congrArg (Ideal.div · _) (rowSum_apply y _ hred _ _ p)

/-- The block less its row means. -/
def centerVecK (y : FVec Ideal ⟨2, ![a, 128]⟩ .f32) : FVec Ideal ⟨2, ![a, 128]⟩ .f32 :=
  subf y (broadcastTo ⟨2, ![a, 128]⟩ (meanVecK hred hsc y) hb)

theorem centerVecK_apply (y : FVec Ideal ⟨2, ![a, 128]⟩ .f32) (p : Fin a) (q : Fin 128) :
    centerVecK hred hsc hb y (ix2 p q) = y (ix2 p q) - mean (fun k => y (ix2 p k)) := by
  show y (ix2 p q) - broadcastTo ⟨2, ![a, 128]⟩ (meanVecK hred hsc y) hb (ix2 p q) = _
  rw [broadcastTo_a1_ab_apply, meanVecK_apply]

/-- The column of row variances. -/
def varVecK (y : FVec Ideal ⟨2, ![a, 128]⟩ .f32) : FVec Ideal ⟨2, ![a, 1]⟩ .f32 :=
  divf (shapeCast ⟨2, ![a, 1]⟩ (multiReduction .add [1] ⟨1, ![a]⟩ (mulf (centerVecK hred hsc hb y) (centerVecK hred hsc hb y))
      0x00000000#32 hred (.inl rfl) rfl) hsc)
    (broadcast ⟨2, ![a, 1]⟩ (Scalar.ofBits .f32 0x43000000#32))

theorem varVecK_apply (y : FVec Ideal ⟨2, ![a, 128]⟩ .f32) (p : Fin a) (u : Fin 1) :
    varVecK hred hsc hb y (ix2 p u) = var (fun k => y (ix2 p k)) := by
  show Ideal.div (shapeCast ⟨2, ![a, 1]⟩ _ hsc (ix2 p u)) (Ideal.ofBits .f32 0x43000000#32) = _
  rw [shapeCast_a_a1_apply]
  refine (congrArg (Ideal.div · _) (rowSum_apply _ _ hred _ _ p)).trans ?_
  unfold var
  refine congrArg (Ideal.div · _) (Finset.sum_congr rfl fun k _ => ?_)
  show centerVecK hred hsc hb y (ix2 p k) * centerVecK hred hsc hb y (ix2 p k) = _
  rw [centerVecK_apply]

/-- The normalised block. -/
def normVecK (y : FVec Ideal ⟨2, ![a, 128]⟩ .f32) (g e : Vec Ideal ⟨1, ![128]⟩ .f32) : FVec Ideal ⟨2, ![a, 128]⟩ .f32 :=
  addf (mulf (mulf (centerVecK hred hsc hb y)
        (broadcastTo ⟨2, ![a, 128]⟩ (rsqrt (addf (varVecK hred hsc hb y) (broadcast ⟨2, ![a, 1]⟩ (Scalar.ofBits .f32 0x3727C5AC#32)))) hb))
      (broadcastTo ⟨2, ![a, 128]⟩ (shapeCast ⟨2, ![1, 128]⟩ g hs1) hb1))
    (broadcastTo ⟨2, ![a, 128]⟩ (shapeCast ⟨2, ![1, 128]⟩ e hs1) hb1)

theorem normVecK_apply (y : FVec Ideal ⟨2, ![a, 128]⟩ .f32) (g e : Vec Ideal ⟨1, ![128]⟩ .f32) (p : Fin a) (q : Fin 128) :
    normVecK hred hsc hb hs1 hb1 y g e (ix2 p q)
      = normK (fun k => y (ix2 p k)) (fun k => g (ix1 k)) (fun k => e (ix1 k)) q := by
  show centerVecK hred hsc hb y (ix2 p q)
      * broadcastTo ⟨2, ![a, 128]⟩ (rsqrt (addf (varVecK hred hsc hb y) (broadcast ⟨2, ![a, 1]⟩ (Scalar.ofBits .f32 0x3727C5AC#32)))) hb (ix2 p q)
      * broadcastTo ⟨2, ![a, 128]⟩ (shapeCast ⟨2, ![1, 128]⟩ g hs1) hb1 (ix2 p q)
    + broadcastTo ⟨2, ![a, 128]⟩ (shapeCast ⟨2, ![1, 128]⟩ e hs1) hb1 (ix2 p q) = _
  rw [centerVecK_apply, broadcastTo_a1_ab_apply, broadcastTo_1b_ab_apply, broadcastTo_1b_ab_apply,
    shapeCast_a_1a_apply, shapeCast_a_1a_apply]
  show _ * Ideal.rsqrt (varVecK hred hsc hb y (ix2 p (0 : Fin 1)) + Ideal.ofBits .f32 0x3727C5AC#32) * _ + _ = _
  rw [varVecK_apply]; rfl

end Kernel

/-! ## The host's form -/

section Host

variable {a : ℕ} (hrt : (⟨2, ![a, 128]⟩ : Shape).ReducesTo [1] ⟨1, ![a]⟩) (hS : 0 < (⟨0, ![]⟩ : Shape).numel)
  (hb0 : (⟨1, ![a]⟩ : Shape).BroadcastsInDim ⟨2, ![a, 1]⟩ ![0]) (hbs : (⟨0, ![]⟩ : Shape).BroadcastsInDim ⟨2, ![a, 1]⟩ ![])
  (hb01 : (⟨2, ![a, 1]⟩ : Shape).BroadcastsInDim ⟨2, ![a, 128]⟩ ![0, 1])
  (hg1 : (⟨1, ![128]⟩ : Shape).BroadcastsInDim ⟨2, ![1, 128]⟩ ![1]) (hg01 : (⟨2, ![1, 128]⟩ : Shape).BroadcastsInDim ⟨2, ![a, 128]⟩ ![0, 1])

/-- The column of row means. -/
def meanVecR (y : FVec Ideal ⟨2, ![a, 128]⟩ .f32) : FVec Ideal ⟨2, ![a, 1]⟩ .f32 :=
  Host.divf (broadcastInDim ⟨2, ![a, 1]⟩ ![0] hb0 (Host.reduceAdd (axes := [1]) (t := ⟨1, ![a]⟩) y (constant ⟨0, ![]⟩ .f32 0x00000000#32) hrt hS))
    (broadcastInDim ⟨2, ![a, 1]⟩ ![] hbs (constant ⟨0, ![]⟩ .f32 0x43000000#32))

theorem meanVecR_apply (hred : (⟨2, ![a, 128]⟩ : Shape).Reduces [1] ⟨1, ![a]⟩) (y : FVec Ideal ⟨2, ![a, 128]⟩ .f32) (p : Fin a) (u : Fin 1) :
    meanVecR hrt hS hb0 hbs y (ix2 p u) = mean (fun k => y (ix2 p k)) := by
  show Ideal.div (broadcastInDim _ _ hb0 _ (ix2 p u)) (broadcastInDim _ _ hbs _ (ix2 p u)) = _
  rw [bcast_a_a1_apply, bcast_scalar_apply, hostRowSum_apply y _ hrt hS hred]
  show Ideal.div (Ideal.ofBits .f32 0x00000000#32 + _) (Ideal.ofBits .f32 0x43000000#32) = _
  rw [Ideal.ofBits_zero_f32, zero_add]; rfl

/-- The array less its row means. -/
def centerVecR (y : FVec Ideal ⟨2, ![a, 128]⟩ .f32) : FVec Ideal ⟨2, ![a, 128]⟩ .f32 :=
  subf y (broadcastInDim ⟨2, ![a, 128]⟩ ![0, 1] hb01 (meanVecR hrt hS hb0 hbs y))

theorem centerVecR_apply (hred : (⟨2, ![a, 128]⟩ : Shape).Reduces [1] ⟨1, ![a]⟩) (y : FVec Ideal ⟨2, ![a, 128]⟩ .f32) (p : Fin a) (q : Fin 128) :
    centerVecR hrt hS hb0 hbs hb01 y (ix2 p q) = y (ix2 p q) - mean (fun k => y (ix2 p k)) := by
  show y (ix2 p q) - broadcastInDim ⟨2, ![a, 128]⟩ ![0, 1] hb01 (meanVecR hrt hS hb0 hbs y) (ix2 p q) = _
  rw [bcast_a1_ab_apply, meanVecR_apply hrt hS hb0 hbs hred]

/-- The column of row variances. -/
def varVecR (y : FVec Ideal ⟨2, ![a, 128]⟩ .f32) : FVec Ideal ⟨2, ![a, 1]⟩ .f32 :=
  Host.divf (broadcastInDim ⟨2, ![a, 1]⟩ ![0] hb0 (Host.reduceAdd (axes := [1]) (t := ⟨1, ![a]⟩)
      (mulf (centerVecR hrt hS hb0 hbs hb01 y) (centerVecR hrt hS hb0 hbs hb01 y)) (constant ⟨0, ![]⟩ .f32 0x00000000#32) hrt hS))
    (broadcastInDim ⟨2, ![a, 1]⟩ ![] hbs (constant ⟨0, ![]⟩ .f32 0x43000000#32))

theorem varVecR_apply (hred : (⟨2, ![a, 128]⟩ : Shape).Reduces [1] ⟨1, ![a]⟩) (y : FVec Ideal ⟨2, ![a, 128]⟩ .f32) (p : Fin a) (u : Fin 1) :
    varVecR hrt hS hb0 hbs hb01 y (ix2 p u) = var (fun k => y (ix2 p k)) := by
  show Ideal.div (broadcastInDim _ _ hb0 _ (ix2 p u)) (broadcastInDim _ _ hbs _ (ix2 p u)) = _
  rw [bcast_a_a1_apply, bcast_scalar_apply, hostRowSum_apply _ _ hrt hS hred]
  show Ideal.div (Ideal.ofBits .f32 0x00000000#32 + _) (Ideal.ofBits .f32 0x43000000#32) = _
  rw [Ideal.ofBits_zero_f32, zero_add]
  unfold var
  refine congrArg (Ideal.div · _) (Finset.sum_congr rfl fun k _ => ?_)
  show centerVecR hrt hS hb0 hbs hb01 y (ix2 p k) * centerVecR hrt hS hb0 hbs hb01 y (ix2 p k) = _
  rw [centerVecR_apply hrt hS hb0 hbs hb01 hred]

/-- The normalised array. -/
def normVecR (y : FVec Ideal ⟨2, ![a, 128]⟩ .f32) (g e : Vec Ideal ⟨1, ![128]⟩ .f32) : FVec Ideal ⟨2, ![a, 128]⟩ .f32 :=
  addf (mulf (Host.divf (centerVecR hrt hS hb0 hbs hb01 y)
        (broadcastInDim ⟨2, ![a, 128]⟩ ![0, 1] hb01 (Host.sqrt (addf (varVecR hrt hS hb0 hbs hb01 y)
          (broadcastInDim ⟨2, ![a, 1]⟩ ![] hbs (constant ⟨0, ![]⟩ .f32 0x3727C5AC#32))))))
      (broadcastInDim ⟨2, ![a, 128]⟩ ![0, 1] hg01 (broadcastInDim ⟨2, ![1, 128]⟩ ![1] hg1 g)))
    (broadcastInDim ⟨2, ![a, 128]⟩ ![0, 1] hg01 (broadcastInDim ⟨2, ![1, 128]⟩ ![1] hg1 e))

theorem normVecR_apply (hred : (⟨2, ![a, 128]⟩ : Shape).Reduces [1] ⟨1, ![a]⟩) (y : FVec Ideal ⟨2, ![a, 128]⟩ .f32) (g e : Vec Ideal ⟨1, ![128]⟩ .f32) (p : Fin a) (q : Fin 128) :
    normVecR hrt hS hb0 hbs hb01 hg1 hg01 y g e (ix2 p q)
      = normR (fun k => y (ix2 p k)) (fun k => g (ix1 k)) (fun k => e (ix1 k)) q := by
  show Ideal.div (centerVecR hrt hS hb0 hbs hb01 y (ix2 p q))
        (broadcastInDim ⟨2, ![a, 128]⟩ ![0, 1] hb01 (Host.sqrt (addf (varVecR hrt hS hb0 hbs hb01 y)
          (broadcastInDim _ _ hbs (constant ⟨0, ![]⟩ .f32 0x3727C5AC#32)))) (ix2 p q))
      * broadcastInDim ⟨2, ![a, 128]⟩ ![0, 1] hg01 (broadcastInDim ⟨2, ![1, 128]⟩ ![1] hg1 g) (ix2 p q)
    + broadcastInDim ⟨2, ![a, 128]⟩ ![0, 1] hg01 (broadcastInDim ⟨2, ![1, 128]⟩ ![1] hg1 e) (ix2 p q) = _
  rw [centerVecR_apply hrt hS hb0 hbs hb01 hred, bcast_a1_ab_apply, bcast_1b_ab_apply, bcast_1b_ab_apply, bcast_b_1b_apply, bcast_b_1b_apply]
  show Ideal.div _ (Ideal.sqrt (varVecR hrt hS hb0 hbs hb01 y (ix2 p (0 : Fin 1))
      + broadcastInDim _ _ hbs (constant (F := Ideal) ⟨0, ![]⟩ .f32 0x3727C5AC#32) (ix2 p (0 : Fin 1)))) * _ + _ = _
  rw [varVecR_apply hrt hS hb0 hbs hb01 hred, bcast_scalar_apply]; rfl

end Host

end Cert.RowNorm

end
-- ==== Proof.LibLnReluStage.lean ====
/-
  The normalise-and-clip stage of a graph-convolution layer, as a kernel writes it over a block of rows and as
  jnp writes it over the whole array.

  For a row `y : Fin 128 → EReal` with mean `μ` and variance `σ²` (both by a division by the literal 128), the stage
  sends it to  `max ((y q - μ) · rsqrt (σ² + ε) · γ q + β q) 0`.
  * The kernel first forms the row itself,  `y q = A[p, q] · d[p] + b[q]`  (the aggregated block scaled by the
    node's factor, plus the bias), with the factor carried as a one-column block and bias, gain and offset as
    one-row blocks; then a lane reduction, keep-dims casts and broadcasts.
  * The host takes the row as given and uses `reduce`, `broadcast_in_dim`, `divide`, `rsqrt`.
  Read at `(p, q)` each is the row function of row `p`; the operations and their order are the same, so no
  arithmetic law is needed beyond reading the layout operations at an index.
-/
import proofs.«111997_j21251498181391_1_alg».proof.Proof.LibRowNorm

noncomputable section

namespace Cert.LnStage

open Idealize.ShloMosaic Idealize.ShloMosaic.ValueIdx Cert.Keepdims Cert.RowOps Cert.RowNorm

/-- The stage on one row: normalise with gain `g` and offset `e`, then clip below at the zero word's value. -/
def lnRelu (y g e : Fin 128 → EReal) (q : Fin 128) : EReal :=
  max (normK y g e q) (Ideal.ofBits .f32 0x00000000#32)

/-! ## The kernel's form, over a block of `a` rows -/

section Kernel

variable {a : ℕ} (hred : (⟨2, ![a, 128]⟩ : Shape).Reduces [1] ⟨1, ![a]⟩) (hsc : (⟨1, ![a]⟩ : Shape).ShapeCasts ⟨2, ![a, 1]⟩)
  (hb : (⟨2, ![a, 1]⟩ : Shape).Broadcasts ⟨2, ![a, 128]⟩) (hb1 : (⟨2, ![1, 128]⟩ : Shape).Broadcasts ⟨2, ![a, 128]⟩)
  (hAA : (⟨2, ![a, 128]⟩ : Shape).ShapeCasts ⟨2, ![a, 128]⟩) (hdd : (⟨2, ![a, 1]⟩ : Shape).ShapeCasts ⟨2, ![a, 1]⟩)
  (hgg : (⟨2, ![1, 128]⟩ : Shape).ShapeCasts ⟨2, ![1, 128]⟩)

/-- The block the stage normalises: the aggregated block times the nodes' factor column, plus the bias row. -/
def preK (A : FVec Ideal ⟨2, ![a, 128]⟩ .f32) (d : FVec Ideal ⟨2, ![a, 1]⟩ .f32) (b : FVec Ideal ⟨2, ![1, 128]⟩ .f32) :
    FVec Ideal ⟨2, ![a, 128]⟩ .f32 :=
  addf (mulf (shapeCast ⟨2, ![a, 128]⟩ A hAA) (broadcastTo ⟨2, ![a, 128]⟩ (shapeCast ⟨2, ![a, 1]⟩ d hdd) hb))
    (broadcastTo ⟨2, ![a, 128]⟩ (shapeCast ⟨2, ![1, 128]⟩ b hgg) hb1)

theorem preK_apply (A : FVec Ideal ⟨2, ![a, 128]⟩ .f32) (d : FVec Ideal ⟨2, ![a, 1]⟩ .f32) (b : FVec Ideal ⟨2, ![1, 128]⟩ .f32)
    (p : Fin a) (q : Fin 128) :
    preK hb hb1 hAA hdd hgg A d b (ix2 p q) = A (ix2 p q) * d (ix2 p (0 : Fin 1)) + b (ix2 (0 : Fin 1) q) := by
  show shapeCast ⟨2, ![a, 128]⟩ A hAA (ix2 p q) * broadcastTo ⟨2, ![a, 128]⟩ (shapeCast ⟨2, ![a, 1]⟩ d hdd) hb (ix2 p q)
    + broadcastTo ⟨2, ![a, 128]⟩ (shapeCast ⟨2, ![1, 128]⟩ b hgg) hb1 (ix2 p q) = _
  rw [shapeCast_self, shapeCast_self, shapeCast_self, broadcastTo_a1_ab_apply, broadcastTo_1b_ab_apply]

/-- The whole stage on a block. -/
def stageK (A : FVec Ideal ⟨2, ![a, 128]⟩ .f32) (d : FVec Ideal ⟨2, ![a, 1]⟩ .f32) (b g e : FVec Ideal ⟨2, ![1, 128]⟩ .f32) :
    FVec Ideal ⟨2, ![a, 128]⟩ .f32 :=
  maximumf (addf (mulf (mulf (centerVecK hred hsc hb (preK hb hb1 hAA hdd hgg A d b))
        (broadcastTo ⟨2, ![a, 128]⟩ (rsqrt (addf (varVecK hred hsc hb (preK hb hb1 hAA hdd hgg A d b))
          (broadcast ⟨2, ![a, 1]⟩ (Scalar.ofBits .f32 0x3727C5AC#32)))) hb))
      (broadcastTo ⟨2, ![a, 128]⟩ (shapeCast ⟨2, ![1, 128]⟩ g hgg) hb1))
    (broadcastTo ⟨2, ![a, 128]⟩ (shapeCast ⟨2, ![1, 128]⟩ e hgg) hb1))
    (broadcast ⟨2, ![a, 128]⟩ (Scalar.ofBits .f32 0x00000000#32))

/-- Read at `(p, q)` the block form is the row function of row `p`'s data. -/
theorem stageK_apply (A : FVec Ideal ⟨2, ![a, 128]⟩ .f32) (d : FVec Ideal ⟨2, ![a, 1]⟩ .f32) (b g e : FVec Ideal ⟨2, ![1, 128]⟩ .f32)
    (p : Fin a) (q : Fin 128) :
    stageK hred hsc hb hb1 hAA hdd hgg A d b g e (ix2 p q)
      = lnRelu (fun k => A (ix2 p k) * d (ix2 p (0 : Fin 1)) + b (ix2 (0 : Fin 1) k))
          (fun k => g (ix2 (0 : Fin 1) k)) (fun k => e (ix2 (0 : Fin 1) k)) q := by
  show max (centerVecK hred hsc hb (preK hb hb1 hAA hdd hgg A d b) (ix2 p q)
        * broadcastTo ⟨2, ![a, 128]⟩ (rsqrt (addf (varVecK hred hsc hb (preK hb hb1 hAA hdd hgg A d b))
            (broadcast ⟨2, ![a, 1]⟩ (Scalar.ofBits .f32 0x3727C5AC#32)))) hb (ix2 p q)
        * broadcastTo ⟨2, ![a, 128]⟩ (shapeCast ⟨2, ![1, 128]⟩ g hgg) hb1 (ix2 p q)
      + broadcastTo ⟨2, ![a, 128]⟩ (shapeCast ⟨2, ![1, 128]⟩ e hgg) hb1 (ix2 p q)) (Ideal.ofBits .f32 0x00000000#32) = _
  rw [centerVecK_apply, broadcastTo_a1_ab_apply, broadcastTo_1b_ab_apply, broadcastTo_1b_ab_apply, shapeCast_self, shapeCast_self]
  show max (_ * Ideal.rsqrt (varVecK hred hsc hb (preK hb hb1 hAA hdd hgg A d b) (ix2 p (0 : Fin 1)) + Ideal.ofBits .f32 0x3727C5AC#32)
      * _ + _) _ = _
  rw [varVecK_apply]
  have hy : (fun k => preK hb hb1 hAA hdd hgg A d b (ix2 p k))
      = fun k => A (ix2 p k) * d (ix2 p (0 : Fin 1)) + b (ix2 (0 : Fin 1) k) := funext fun k => preK_apply hb hb1 hAA hdd hgg A d b p k
  rw [hy, preK_apply]
  rfl

end Kernel

/-! ## The host's form, over the whole array of `a` rows -/

section Host

variable {a : ℕ} (hrt : (⟨2, ![a, 128]⟩ : Shape).ReducesTo [1] ⟨1, ![a]⟩) (hS : 0 < (⟨0, ![]⟩ : Shape).numel)
  (hb0 : (⟨1, ![a]⟩ : Shape).BroadcastsInDim ⟨2, ![a, 1]⟩ ![0]) (hbs : (⟨0, ![]⟩ : Shape).BroadcastsInDim ⟨2, ![a, 1]⟩ ![])
  (hb01 : (⟨2, ![a, 1]⟩ : Shape).BroadcastsInDim ⟨2, ![a, 128]⟩ ![0, 1])
  (hg1 : (⟨1, ![128]⟩ : Shape).BroadcastsInDim ⟨2, ![1, 128]⟩ ![1]) (hg01 : (⟨2, ![1, 128]⟩ : Shape).BroadcastsInDim ⟨2, ![a, 128]⟩ ![0, 1])
  (hz : (⟨0, ![]⟩ : Shape).BroadcastsInDim ⟨2, ![a, 128]⟩ ![])

/-- The whole stage on the array. -/
def stageR (y : FVec Ideal ⟨2, ![a, 128]⟩ .f32) (g e : Vec Ideal ⟨1, ![128]⟩ .f32) : FVec Ideal ⟨2, ![a, 128]⟩ .f32 :=
  maximumf (addf (mulf (mulf (centerVecR hrt hS hb0 hbs hb01 y)
        (broadcastInDim ⟨2, ![a, 128]⟩ ![0, 1] hb01 (Host.rsqrt (addf (varVecR hrt hS hb0 hbs hb01 y)
          (broadcastInDim ⟨2, ![a, 1]⟩ ![] hbs (constant ⟨0, ![]⟩ .f32 0x3727C5AC#32))))))
      (broadcastInDim ⟨2, ![a, 128]⟩ ![0, 1] hg01 (broadcastInDim ⟨2, ![1, 128]⟩ ![1] hg1 g)))
    (broadcastInDim ⟨2, ![a, 128]⟩ ![0, 1] hg01 (broadcastInDim ⟨2, ![1, 128]⟩ ![1] hg1 e)))
    (broadcastInDim ⟨2, ![a, 128]⟩ ![] hz (constant ⟨0, ![]⟩ .f32 0x00000000#32))

/-- Read at `(p, q)` the host form is the row function of row `p`. -/
theorem stageR_apply (hred : (⟨2, ![a, 128]⟩ : Shape).Reduces [1] ⟨1, ![a]⟩) (y : FVec Ideal ⟨2, ![a, 128]⟩ .f32)
    (g e : Vec Ideal ⟨1, ![128]⟩ .f32) (p : Fin a) (q : Fin 128) :
    stageR hrt hS hb0 hbs hb01 hg1 hg01 hz y g e (ix2 p q)
      = lnRelu (fun k => y (ix2 p k)) (fun k => g (ix1 k)) (fun k => e (ix1 k)) q := by
  show max (centerVecR hrt hS hb0 hbs hb01 y (ix2 p q)
        * broadcastInDim ⟨2, ![a, 128]⟩ ![0, 1] hb01 (Host.rsqrt (addf (varVecR hrt hS hb0 hbs hb01 y)
            (broadcastInDim ⟨2, ![a, 1]⟩ ![] hbs (constant ⟨0, ![]⟩ .f32 0x3727C5AC#32)))) (ix2 p q)
        * broadcastInDim ⟨2, ![a, 128]⟩ ![0, 1] hg01 (broadcastInDim ⟨2, ![1, 128]⟩ ![1] hg1 g) (ix2 p q)
      + broadcastInDim ⟨2, ![a, 128]⟩ ![0, 1] hg01 (broadcastInDim ⟨2, ![1, 128]⟩ ![1] hg1 e) (ix2 p q))
      (broadcastInDim ⟨2, ![a, 128]⟩ ![] hz (constant (F := Ideal) ⟨0, ![]⟩ .f32 0x00000000#32) (ix2 p q)) = _
  rw [centerVecR_apply hrt hS hb0 hbs hb01 hred, bcast_a1_ab_apply, bcast_1b_ab_apply, bcast_1b_ab_apply, bcast_b_1b_apply,
    bcast_b_1b_apply, bcast_scalar_apply (t := ⟨2, ![a, 128]⟩)]
  show max (_ * Ideal.rsqrt (varVecR hrt hS hb0 hbs hb01 y (ix2 p (0 : Fin 1))
      + broadcastInDim ⟨2, ![a, 1]⟩ ![] hbs (constant (F := Ideal) ⟨0, ![]⟩ .f32 0x3727C5AC#32) (ix2 p (0 : Fin 1))) * _ + _) _ = _
  rw [varVecR_apply hrt hS hb0 hbs hb01 hred, bcast_scalar_apply]
  rfl

end Host

end Cert.LnStage

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Spec.lean ====
/-
  The dense stages of a two-layer graph convolution network with a small head, one ROW at a time.

  Every dense stage of the network acts on the node rows independently: a matrix product with a weight
  array, a bias row added, a LayerNorm over the 128 lanes followed by a clip at zero, and at the end a
  soft-plus.  Each is written here as a function of one row (functions `Fin n → EReal`) and of the small
  parameter arrays; a block of rows and the whole array of rows are then the same row function read at
  different row numbers, which is all that relates a tiled computation to an untiled one.
-/
import proofs.«111997_j21251498181391_1_alg».proof.Proof.LibLnReluStage
import proofs.«111997_j21251498181391_1_alg».proof.Proof.LibMatProd
import Idealize.ShloMosaic.PureOps.Ideal.Laws

noncomputable section

namespace Cert.Gcn

open Idealize.ShloMosaic Idealize.ShloMosaic.ValueIdx Cert.RowNorm Cert.LnStage Cert.Gcn.Dense

/-- The zero word's value (it is the real zero; kept as the word where both programs write the word). -/
abbrev z : EReal := Ideal.ofBits .f32 0x00000000#32

/-- One row times a `K × N` weight array: entry `q` is `Σ_k x k · w (k, q)`. -/
def matRow {K N : Nat} (x : Fin K → EReal) (w : (⟨2, ![K, N]⟩ : Shape).Idx → EReal) (q : Fin N) : EReal :=
  ∑ k : Fin K, x k * w (ix2 k q)

/-- A row plus the bias row, normalised over its 128 lanes with gain and offset, clipped below at zero. -/
def lnRow (a : Fin 128 → EReal) (b g e : (⟨1, ![128]⟩ : Shape).Idx → EReal) (q : Fin 128) : EReal :=
  lnRelu (fun k => a k + b (ix1 k)) (fun k => g (ix1 k)) (fun k => e (ix1 k)) q

/-- The head's hidden row: the normalised row plus the residual row, through the first weight array and bias,
    clipped below at zero. -/
def hidRow (a r : Fin 128 → EReal) (b g e : (⟨1, ![128]⟩ : Shape).Idx → EReal)
    (w1 : (⟨2, ![128, 64]⟩ : Shape).Idx → EReal) (b1 : (⟨1, ![64]⟩ : Shape).Idx → EReal) (j : Fin 64) : EReal :=
  max (matRow (fun k => lnRow a b g e k + r k) w1 j + b1 (ix1 j)) z

/-- Soft-plus as both programs spell it: `max x 0 + log1p (exp (-|x - 0|))`. -/
def softplus (x : EReal) : EReal :=
  max x z + Ideal.log1p (Ideal.exp (-(FloatOps.absf (F := Ideal) (φ := .f32) (x - z))))

/-- The head's output for one row. -/
def headRow (a r : Fin 128 → EReal) (b g e : (⟨1, ![128]⟩ : Shape).Idx → EReal)
    (w1 : (⟨2, ![128, 64]⟩ : Shape).Idx → EReal) (b1 : (⟨1, ![64]⟩ : Shape).Idx → EReal)
    (w2 : (⟨2, ![64, 1]⟩ : Shape).Idx → EReal) (b2 : (⟨1, ![1]⟩ : Shape).Idx → EReal) (u : Fin 1) : EReal :=
  softplus (matRow (hidRow a r b g e w1 b1) w2 u + b2 (ix1 u))

/-- The array-level stages: each entry `(r, q)` is the row function of row `r`. -/
def addBias {M N : Nat} (y : (⟨2, ![M, N]⟩ : Shape).Idx → EReal) (b : (⟨1, ![N]⟩ : Shape).Idx → EReal) :
    (⟨2, ![M, N]⟩ : Shape).Idx → EReal := fun i => y i + b (ix1 (i 1))

def lnArr {M : Nat} (agg : (⟨2, ![M, 128]⟩ : Shape).Idx → EReal) (b g e : (⟨1, ![128]⟩ : Shape).Idx → EReal) :
    (⟨2, ![M, 128]⟩ : Shape).Idx → EReal := fun i => lnRow (fun k => agg (ix2 (i 0) k)) b g e (i 1)

def headArr {M : Nat} (agg res : (⟨2, ![M, 128]⟩ : Shape).Idx → EReal) (b g e : (⟨1, ![128]⟩ : Shape).Idx → EReal)
    (w1 : (⟨2, ![128, 64]⟩ : Shape).Idx → EReal) (b1 : (⟨1, ![64]⟩ : Shape).Idx → EReal)
    (w2 : (⟨2, ![64, 1]⟩ : Shape).Idx → EReal) (b2 : (⟨1, ![1]⟩ : Shape).Idx → EReal) :
    (⟨2, ![M, 1]⟩ : Shape).Idx → EReal :=
  fun i => headRow (fun k => agg (ix2 (i 0) k)) (fun k => res (ix2 (i 0) k)) b g e w1 b1 w2 b2 (i 1)

/-- `prod` (entry `(r, q)` of a matrix product) is the row function of row `r`. -/
theorem prod_eq_matRow {M K N : Nat} (x : (⟨2, ![M, K]⟩ : Shape).Idx → EReal) (w : (⟨2, ![K, N]⟩ : Shape).Idx → EReal)
    (p : Fin M) (q : Fin N) : prod x w (ix2 p q) = matRow (fun k => x (ix2 p k)) w q := rfl

/-- A comparison "ordered and different" or "unordered or different" of a value with itself is false on the
    extended reals. -/
theorem cmp_one_self (x : EReal) : Ideal.cmp .one x x = 0#1 := by
  unfold Ideal.cmp; simp
theorem cmp_une_self (x : EReal) : Ideal.cmp .une x x = 0#1 := by
  unfold Ideal.cmp; simp

/-- The zero word is the real zero, so subtracting from it is negating. -/
theorem z_sub (y : EReal) : z - y = -y := by
  show Ideal.ofBits .f32 0x00000000#32 - y = -y
  rw [Ideal.ofBits_zero_f32, zero_sub]

end Cert.Gcn

end
-- ==== Proof.RefStages.lean ====
/-
  The reference's dense stages, read at one entry, as the row functions of `Spec`.

  The reference is one line of host operations.  Its dense stages — the two projections, the two
  normalise-and-clip stages, the second layer's product, the head — each read at `(p, q)` depend on row `p` of
  their array operand only, and are the same row functions the kernel bodies compute on a block of rows.  Each
  stage is first read on ARBITRARY operand arrays (so that nothing depends on what the aggregation between the
  stages computes: gather, scale and scatter-add are never opened), then the generated stage list's entries are
  those stages of the entries before them.
-/
import proofs.«111997_j21251498181391_1_alg».proof.Proof.RefVals
import proofs.«111997_j21251498181391_1_alg».proof.Proof.Spec
import proofs.«111997_j21251498181391_1_alg».proof.Proof.LibRowOps

noncomputable section

namespace Cert.ReferenceIdeal.Stages

open Cert.ReferenceIdeal Cert.ReferenceIdeal.Gen Cert.ReferenceIdeal.ReadP Cert.Gcn Cert.Gcn.Dense Cert.RowNorm Cert.LnStage Cert.RowOps
open Idealize.ShloMosaic Idealize.ShloMosaic.ValueIdx

/-! ## The stages on arbitrary operands -/

/-- The reference's contraction with this record, on any operands, at one entry: the row function of row `p`. -/
theorem dotA_apply (l : FVec Ideal S100000x128 .f32) (w : FVec Ideal S128x128 .f32) (p : Fin 100000) (q : Fin 128) :
    Host.dotGeneral dot_S100000x128_S128x128_S100000x128_1_0_0_1_n_n none l w (ix2 p q) = matRow (fun k => l (ix2 p k)) w q := by
  simp only [Host.dotGeneral]
  rw [Ideal.dotGeneral_apply]
  exact (sum_contr_eq_prod dot_S100000x128_S128x128_S100000x128_1_0_0_1_n_n rfl rfl lhs_main_v37_0 lhs_main_v37_1 rhs_main_v37_0 rhs_main_v37_1 l w (ix2 p q)).trans (prod_eq_matRow l w p q)

/-- The reference's contraction with this record, on any operands, at one entry: the row function of row `p`. -/
theorem dotB_apply (l : FVec Ideal S100000x128 .f32) (w : FVec Ideal S128x64 .f32) (p : Fin 100000) (q : Fin 64) :
    Host.dotGeneral dot_S100000x128_S128x64_S100000x64_1_0_0_1_n_n none l w (ix2 p q) = matRow (fun k => l (ix2 p k)) w q := by
  simp only [Host.dotGeneral]
  rw [Ideal.dotGeneral_apply]
  exact (sum_contr_eq_prod dot_S100000x128_S128x64_S100000x64_1_0_0_1_n_n rfl rfl lhs_main_v122_0 lhs_main_v122_1 rhs_main_v122_0 rhs_main_v122_1 l w (ix2 p q)).trans (prod_eq_matRow l w p q)

/-- The reference's contraction with this record, on any operands, at one entry: the row function of row `p`. -/
theorem dotC_apply (l : FVec Ideal S100000x64 .f32) (w : FVec Ideal S64x1 .f32) (p : Fin 100000) (q : Fin 1) :
    Host.dotGeneral dot_S100000x64_S64x1_S100000x1_1_0_0_1_n_n none l w (ix2 p q) = matRow (fun k => l (ix2 p k)) w q := by
  simp only [Host.dotGeneral]
  rw [Ideal.dotGeneral_apply]
  exact (sum_contr_eq_prod dot_S100000x64_S64x1_S100000x1_1_0_0_1_n_n rfl rfl lhs_main_v127_0 lhs_main_v127_1 rhs_main_v127_0 rhs_main_v127_1 l w (ix2 p q)).trans (prod_eq_matRow l w p q)

/-- The reference's row reduction keeps at least one axis: the shape fact the lane-sum lemmas ask for. -/
theorem hred100 : (⟨2, ![100000, 128]⟩ : Shape).Reduces [1] ⟨1, ![100000]⟩ :=
  match reducesTo_S100000x128_S100000_d1 with
  | ⟨h, hb⟩ => ⟨h, Nat.one_pos, hb⟩

/-- A bias row broadcast over the rows, at `(p, q)`. -/
theorem biasRow_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  rw [bcast_1b_ab_apply, bcast_b_1b_apply]

/-- The reference's normalise-and-clip stage on an array of rows plus a bias row, read at `(p, q)`. -/
theorem lnStage_apply (y : FVec Ideal S100000x128 .f32) (b g e : FVec Ideal S128 .f32) (p : Fin 100000) (q : Fin 128) :
    stageR reducesTo_S100000x128_S100000_d1 h_S_ bcast_S100000_S100000x1_0 bcast_S_S100000x1 bcast_S100000x1_S100000x128_0_1 bcast_S128_S1x128_1 bcast_S1x128_S100000x128_0_1 bcast_S_S100000x128
        (addf y (broadcastInDim S100000x128 ![0, 1] bcast_S1x128_S100000x128_0_1 (broadcastInDim S1x128 ![1] bcast_S128_S1x128_1 b))) g e (ix2 p q)
      = lnRow (fun k => y (ix2 p k)) b g e q := by
  rw [stageR_apply reducesTo_S100000x128_S100000_d1 h_S_ bcast_S100000_S100000x1_0 bcast_S_S100000x1 bcast_S100000x1_S100000x128_0_1 bcast_S128_S1x128_1 bcast_S1x128_S100000x128_0_1 bcast_S_S100000x128 hred100]
  unfold lnRow
  refine congrArg (fun y' => lnRelu y' (fun k => g (ix1 k)) (fun k => e (ix1 k)) q) (funext fun k => ?_)
  show y (ix2 p k)
    + broadcastInDim S100000x128 ![0, 1] bcast_S1x128_S100000x128_0_1 (broadcastInDim S1x128 ![1] bcast_S128_S1x128_1 b) (ix2 p k) = _
  rw [biasRow_apply]

/-- The head's pre-activation: (normalised rows + residual rows) through the two weight arrays, a clip between. -/
def preAct (y res : FVec Ideal S100000x128 .f32) (x12 : FVec Ideal S128x64 .f32) (x13 : FVec Ideal S64 .f32) (x14 : FVec Ideal S64x1 .f32) (x15 : FVec Ideal S1 .f32) : FVec Ideal S100000x1 .f32 :=
  addf (Host.dotGeneral dot_S100000x64_S64x1_S100000x1_1_0_0_1_n_n none
      (maximumf (addf (Host.dotGeneral dot_S100000x128_S128x64_S100000x64_1_0_0_1_n_n none (addf y res) x12)
          (broadcastInDim S100000x64 ![0, 1] bcast_S1x64_S100000x64_0_1 (broadcastInDim S1x64 ![1] bcast_S64_S1x64_1 x13)))
        (broadcastInDim S100000x64 ![] bcast_S_S100000x64 (constant (F := Ideal) S_ .f32 0x00000000#32))) x14)
    (broadcastInDim S100000x1 ![0, 1] bcast_S1x1_S100000x1_0_1 (broadcastInDim S1x1 ![1] bcast_S1_S1x1_1 x15))

theorem preAct_apply (y res : FVec Ideal S100000x128 .f32) (x12 : FVec Ideal S128x64 .f32) (x13 : FVec Ideal S64 .f32) (x14 : FVec Ideal S64x1 .f32) (x15 : FVec Ideal S1 .f32)
    (p : Fin 100000) (u : Fin 1) :
    preAct y res x12 x13 x14 x15 (ix2 p u)
      = matRow (fun j => max (matRow (fun k => y (ix2 p k) + res (ix2 p k)) x12 j + x13 (ix1 j)) z) x14 u + x15 (ix1 u) := by
  unfold preAct
  show Host.dotGeneral dot_S100000x64_S64x1_S100000x1_1_0_0_1_n_n none _ x14 (ix2 p u)
    + broadcastInDim S100000x1 ![0, 1] bcast_S1x1_S100000x1_0_1 (broadcastInDim S1x1 ![1] bcast_S1_S1x1_1 x15) (ix2 p u) = _
  rw [dotC_apply, bcast_1b_ab_apply, bcast_b_1b_apply]
  refine congrArg (fun y' => matRow y' x14 u + x15 (ix1 u)) (funext fun j => ?_)
  show max (Host.dotGeneral dot_S100000x128_S128x64_S100000x64_1_0_0_1_n_n none (addf y res) x12 (ix2 p j)
      + broadcastInDim S100000x64 ![0, 1] bcast_S1x64_S100000x64_0_1 (broadcastInDim S1x64 ![1] bcast_S64_S1x64_1 x13) (ix2 p j))
      (broadcastInDim S100000x64 ![] bcast_S_S100000x64 (constant (F := Ideal) S_ .f32 0x00000000#32) (ix2 p j)) = _
  rw [dotB_apply, bcast_1b_ab_apply, bcast_b_1b_apply, bcast_scalar_apply]
  rfl

/-- The reference's soft-plus of a column, with its not-a-number guard. -/
def spStage (t : FVec Ideal S100000x1 .f32) : FVec Ideal S100000x1 .f32 :=
  select (cmpf .une (subf t (broadcastInDim S100000x1 ![] bcast_S_S100000x1 (constant (F := Ideal) S_ .f32 0x00000000#32))) (subf t (broadcastInDim S100000x1 ![] bcast_S_S100000x1 (constant (F := Ideal) S_ .f32 0x00000000#32)))) (addf t (broadcastInDim S100000x1 ![] bcast_S_S100000x1 (constant (F := Ideal) S_ .f32 0x00000000#32)))
    (addf (maximumf t (broadcastInDim S100000x1 ![] bcast_S_S100000x1 (constant (F := Ideal) S_ .f32 0x00000000#32))) (Host.log1p (Host.exp (Host.negf (Host.absf (subf t (broadcastInDim S100000x1 ![] bcast_S_S100000x1 (constant (F := Ideal) S_ .f32 0x00000000#32))))))))

theorem spStage_apply (t : FVec Ideal S100000x1 .f32) (i : S100000x1.Idx) : spStage t i = softplus (t i) := by
  have hc : (broadcastInDim S100000x1 ![] bcast_S_S100000x1 (constant (F := Ideal) S_ .f32 0x00000000#32)) i = z := bcast_scalar_apply _ _ i
  have h : spStage t i = Scalar.select (Ideal.cmp .une (t i - (broadcastInDim S100000x1 ![] bcast_S_S100000x1 (constant (F := Ideal) S_ .f32 0x00000000#32)) i) (t i - (broadcastInDim S100000x1 ![] bcast_S_S100000x1 (constant (F := Ideal) S_ .f32 0x00000000#32)) i)) (t i + (broadcastInDim S100000x1 ![] bcast_S_S100000x1 (constant (F := Ideal) S_ .f32 0x00000000#32)) i)
      (max (t i) ((broadcastInDim S100000x1 ![] bcast_S_S100000x1 (constant (F := Ideal) S_ .f32 0x00000000#32)) i) + Ideal.log1p (Ideal.exp (-(FloatOps.absf (F := Ideal) (φ := .f32) (t i - (broadcastInDim S100000x1 ![] bcast_S_S100000x1 (constant (F := Ideal) S_ .f32 0x00000000#32)) i))))) := rfl
  rw [h, cmp_une_self, select_zero, hc]
  rfl

/-! ## The generated stage list's entries -/

theorem v37_apply (x0 : FVec Ideal S100000x128 .f32) (x2 : FVec Ideal S128x128 .f32) (p : Fin 100000) (q : Fin 128) :
    val_main_v37 (F := Ideal) x0 x2 (ix2 p q) = matRow (fun k => x0 (ix2 p k)) x2 q := dotA_apply x0 x2 p q

theorem v36_apply (x0 : FVec Ideal S100000x128 .f32) (x10 : FVec Ideal S128x128 .f32) (x11 : FVec Ideal S128 .f32) (p : Fin 100000) (q : Fin 128) :
    val_main_v36 (F := Ideal) x0 x10 x11 (ix2 p q) = matRow (fun k => x0 (ix2 p k)) x10 q + x11 (ix1 q) := by
  show Host.dotGeneral dot_S100000x128_S128x128_S100000x128_1_0_0_1_n_n none x0 x10 (ix2 p q)
    + broadcastInDim S100000x128 ![0, 1] bcast_S1x128_S100000x128_0_1 (broadcastInDim S1x128 ![1] bcast_S128_S1x128_1 x11) (ix2 p q) = _
  rw [dotA_apply, biasRow_apply]

theorem v78_eq (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) :
    val_main_v78 (F := Ideal) x0 x1 x2 x3 x4 x5
      = stageR reducesTo_S100000x128_S100000_d1 h_S_ bcast_S100000_S100000x1_0 bcast_S_S100000x1 bcast_S100000x1_S100000x128_0_1 bcast_S128_S1x128_1 bcast_S1x128_S100000x128_0_1 bcast_S_S100000x128
          (addf (val_main_v50 (F := Ideal) x0 x1 x2)
            (broadcastInDim S100000x128 ![0, 1] bcast_S1x128_S100000x128_0_1 (broadcastInDim S1x128 ![1] bcast_S128_S1x128_1 x3))) x4 x5 := rfl

theorem v78_apply (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (p : Fin 100000) (q : Fin 128) :
    val_main_v78 (F := Ideal) x0 x1 x2 x3 x4 x5 (ix2 p q)
      = lnRow (fun k => val_main_v50 (F := Ideal) x0 x1 x2 (ix2 p k)) x3 x4 x5 q :=
  (congrFun (v78_eq x0 x1 x2 x3 x4 x5) (ix2 p q)).trans (lnStage_apply _ x3 x4 x5 p q)

theorem v79_apply (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (x6 : FVec Ideal S128x128 .f32) (p : Fin 100000) (q : Fin 128) :
    val_main_v79 (F := Ideal) x0 x1 x2 x3 x4 x5 x6 (ix2 p q)
      = matRow (fun k => val_main_v78 (F := Ideal) x0 x1 x2 x3 x4 x5 (ix2 p k)) x6 q := dotA_apply _ x6 p q

theorem v120_eq (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (x6 : FVec Ideal S128x128 .f32) (x7 : FVec Ideal S128 .f32) (x8 : FVec Ideal S128 .f32) (x9 : FVec Ideal S128 .f32) :
    val_main_v120 (F := Ideal) x0 x1 x2 x3 x4 x5 x6 x7 x8 x9
      = stageR reducesTo_S100000x128_S100000_d1 h_S_ bcast_S100000_S100000x1_0 bcast_S_S100000x1 bcast_S100000x1_S100000x128_0_1 bcast_S128_S1x128_1 bcast_S1x128_S100000x128_0_1 bcast_S_S100000x128
          (addf (val_main_v92 (F := Ideal) x0 x1 x2 x3 x4 x5 x6)
            (broadcastInDim S100000x128 ![0, 1] bcast_S1x128_S100000x128_0_1 (broadcastInDim S1x128 ![1] bcast_S128_S1x128_1 x7))) x8 x9 := rfl

theorem v120_apply (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (x6 : FVec Ideal S128x128 .f32) (x7 : FVec Ideal S128 .f32) (x8 : FVec Ideal S128 .f32) (x9 : FVec Ideal S128 .f32) (p : Fin 100000) (q : Fin 128) :
    val_main_v120 (F := Ideal) x0 x1 x2 x3 x4 x5 x6 x7 x8 x9 (ix2 p q)
      = lnRow (fun k => val_main_v92 (F := Ideal) x0 x1 x2 x3 x4 x5 x6 (ix2 p k)) x7 x8 x9 q :=
  (congrFun (v120_eq x0 x1 x2 x3 x4 x5 x6 x7 x8 x9) (ix2 p q)).trans (lnStage_apply _ x7 x8 x9 p q)

theorem v131_eq (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (x6 : FVec Ideal S128x128 .f32) (x7 : FVec Ideal S128 .f32) (x8 : FVec Ideal S128 .f32) (x9 : FVec Ideal S128 .f32) (x10 : FVec Ideal S128x128 .f32) (x11 : FVec Ideal S128 .f32) (x12 : FVec Ideal S128x64 .f32) (x13 : FVec Ideal S64 .f32) (x14 : FVec Ideal S64x1 .f32) (x15 : FVec Ideal S1 .f32) :
    val_main_v131 (F := Ideal) x0 x1 x2 x3 x4 x5 x6 x7 x8 x9 x10 x11 x12 x13 x14 x15
      = spStage (preAct (val_main_v120 (F := Ideal) x0 x1 x2 x3 x4 x5 x6 x7 x8 x9) (val_main_v36 (F := Ideal) x0 x10 x11) x12 x13 x14 x15) := rfl

theorem v131_apply (x0 : FVec Ideal S100000x128 .f32) (x1 : (⟨S2x1600000, .i32⟩ : BufTy).Contents (Elt Ideal)) (x2 : FVec Ideal S128x128 .f32) (x3 : FVec Ideal S128 .f32) (x4 : FVec Ideal S128 .f32) (x5 : FVec Ideal S128 .f32) (x6 : FVec Ideal S128x128 .f32) (x7 : FVec Ideal S128 .f32) (x8 : FVec Ideal S128 .f32) (x9 : FVec Ideal S128 .f32) (x10 : FVec Ideal S128x128 .f32) (x11 : FVec Ideal S128 .f32) (x12 : FVec Ideal S128x64 .f32) (x13 : FVec Ideal S64 .f32) (x14 : FVec Ideal S64x1 .f32) (x15 : FVec Ideal S1 .f32) (p : Fin 100000) (u : Fin 1) :
    val_main_v131 (F := Ideal) x0 x1 x2 x3 x4 x5 x6 x7 x8 x9 x10 x11 x12 x13 x14 x15 (ix2 p u)
      = headRow (fun k => val_main_v92 (F := Ideal) x0 x1 x2 x3 x4 x5 x6 (ix2 p k)) (fun k => val_main_v36 (F := Ideal) x0 x10 x11 (ix2 p k))
          x7 x8 x9 x12 x13 x14 x15 u := by
  rw [v131_eq, spStage_apply, preAct_apply]
  simp only [v120_apply]
  rfl

end Cert.ReferenceIdeal.Stages

end
-- ==== Proof.Geom.lean ====
/-
  Where a block of a window sits in its array, for the four pipelined regions.

  Every region runs over 25 grid points.  A row window's block at point `t` is rows `4000·t … 4000·t + 3999`
  of its array (all columns); a parameter window's block is its whole array at every point.  So an element
  `(p, q)` of a row block is element `(4000·t + p, q)` of the array, a parameter block IS the array, and the
  25 row blocks of an output window tile its 100000 rows.
-/
import proofs.«111997_j21251498181391_1_alg».proof.Proof.Gen.KernelIdeal.Frame
import Idealize.ShloMosaic.Lib.Pipeline.Value
import Idealize.ShloMosaic.Lib.ValueIdx

set_option maxRecDepth 16384

noncomputable section

namespace Cert.KernelIdeal.Geom

open Cert.KernelIdeal Cert.KernelIdeal.Gen Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- Row `p` of the block of grid point `t` is row `4000·t + p` of the array. -/
def rowN (t : ℕ) (ht : t < 25) (p : Fin 4000) : Fin 100000 := ⟨4000 * t + p.val, by have := p.isLt; omega⟩

/-! ## Region 0 -/

theorem lt0 (t : Fin cfg0.N) : t.val < 25 := by have h : cfg0.N = 25 := N_0; have := t.isLt; omega

theorem idx0_0 : ∀ t : Fin cfg0.N, win0_0.index t (0 : Fin 2) = t.val ∧ win0_0.index t (1 : Fin 2) = 0 :=
  (by decide +kernel : ∀ t : Fin grid0.N, _)

theorem iblk0_0_apply (c : Dev nD) (t : Fin cfg0.N) (p : Fin 4000) (q : Fin 128) :
    (iblk0 V c 0 t : Vec F S4000x128 .f32) (ix2 p q) = (V c main_arg0 : S100000x128.Idx → Elt F .f32) (ix2 (rowN t.val (lt0 t) p) q) := by
  obtain ⟨h0, h1⟩ := idx0_0 t
  unfold iblk0
  rw [View.read_apply]
  show V c main_arg0 _ = V c main_arg0 _
  refine congrArg _ (funext fun a => Fin.ext ?_)
  match a with
  | ⟨0, _⟩ => show win0_0.index t (0 : Fin 2) * 4000 + 1 * p.val = 4000 * t.val + p.val; rw [h0]; omega
  | ⟨1, _⟩ => show win0_0.index t (1 : Fin 2) * 128 + 1 * q.val = q.val; rw [h1]; omega

theorem idx0_1 : ∀ t : Fin cfg0.N, win0_1.index t (0 : Fin 2) = 0 ∧ win0_1.index t (1 : Fin 2) = 0 :=
  (by decide +kernel : ∀ t : Fin grid0.N, _)

theorem iblk0_1_eq (c : Dev nD) (t : Fin cfg0.N) :
    (iblk0 V c 1 t : Vec F S128x128 .f32) = (V c main_arg2 : S128x128.Idx → Elt F .f32) := by
  obtain ⟨h0, h1⟩ := idx0_1 t
  funext y
  unfold iblk0
  rw [View.read_apply]
  show V c main_arg2 _ = V c main_arg2 y
  refine congrArg _ (funext fun a => Fin.ext ?_)
  match a with
  | ⟨0, _⟩ => show win0_1.index t (0 : Fin 2) * 128 + 1 * (y 0).val = (y 0).val; rw [h0]; omega
  | ⟨1, _⟩ => show win0_1.index t (1 : Fin 2) * 128 + 1 * (y 1).val = (y 1).val; rw [h1]; omega

theorem idx0_2 : ∀ t : Fin cfg0.N, win0_2.index t (0 : Fin 2) = 0 ∧ win0_2.index t (1 : Fin 2) = 0 :=
  (by decide +kernel : ∀ t : Fin grid0.N, _)

theorem iblk0_2_eq (c : Dev nD) (t : Fin cfg0.N) :
    (iblk0 V c 2 t : Vec F S128x128 .f32) = (V c main_arg10 : S128x128.Idx → Elt F .f32) := by
  obtain ⟨h0, h1⟩ := idx0_2 t
  funext y
  unfold iblk0
  rw [View.read_apply]
  show V c main_arg10 _ = V c main_arg10 y
  refine congrArg _ (funext fun a => Fin.ext ?_)
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

theorem idx0_3 : ∀ t : Fin cfg0.N, win0_3.index t (0 : Fin 1) = 0 :=
  (by decide +kernel : ∀ t : Fin grid0.N, _)

theorem iblk0_3_eq (c : Dev nD) (t : Fin cfg0.N) :
    (iblk0 V c 3 t : Vec F S128 .f32) = (V c main_arg11 : S128.Idx → Elt F .f32) := by
  have h0 := idx0_3 t
  funext y
  unfold iblk0
  rw [View.read_apply]
  show V c main_arg11 _ = V c main_arg11 y
  refine congrArg _ (funext fun a => Fin.ext ?_)
  match a with
  | ⟨0, _⟩ => show win0_3.index t (0 : Fin 1) * 128 + 1 * (y 0).val = (y 0).val; rw [h0]; omega

theorem idx0_4 : ∀ t : Fin cfg0.N, win0_4.index t (0 : Fin 2) = t.val ∧ win0_4.index t (1 : Fin 2) = 0 :=
  (by decide +kernel : ∀ t : Fin grid0.N, _)

theorem emb0_4 (t : Fin cfg0.N) (p : Fin 4000) (q : Fin 128) :
    (((cfg0.win 4).blk t).view.emb (ix2 p q : S4000x128.Idx) : S100000x128.Idx) = ix2 (rowN t.val (lt0 t) p) q := by
  obtain ⟨h0, h1⟩ := idx0_4 t
  funext a; apply Fin.ext
  match a with
  | ⟨0, _⟩ => show win0_4.index t (0 : Fin 2) * 4000 + 1 * p.val = 4000 * t.val + p.val; rw [h0]; omega
  | ⟨1, _⟩ => show win0_4.index t (1 : Fin 2) * 128 + 1 * q.val = q.val; rw [h1]; omega

theorem cover0_4 (i : S100000x128.Idx) : ∃ t : Fin cfg0.N, (cfg0.win 4).flush t = true ∧ i ∈ ((cfg0.win 4).blk t).view.set := by
  have hN : cfg0.N = 25 := N_0
  have hi0 : (i 0).val < 100000 := (i 0).isLt
  have hi1 : (i 1).val < 128 := (i 1).isLt
  obtain ⟨t0, ht0⟩ : ∃ t0 : Fin cfg0.N, t0.val = (i 0).val / 4000 := ⟨⟨(i 0).val / 4000, by omega⟩, rfl⟩
  refine ⟨t0, flush0_4 t0, ?_⟩
  obtain ⟨h0, h1⟩ := idx0_4 t0
  show i ∈ ((View.whole main_v29_0).slice (win0_4.rect t0)).set
  rw [View.set_slice_whole, Rect.mem_set_unit]
  intro a
  match a with
  | ⟨0, _⟩ => show win0_4.index t0 (0 : Fin 2) * 4000 ≤ (i 0).val ∧ (i 0).val < win0_4.index t0 (0 : Fin 2) * 4000 + 4000; rw [h0, ht0]; omega
  | ⟨1, _⟩ => show win0_4.index t0 (1 : Fin 2) * 128 ≤ (i 1).val ∧ (i 1).val < win0_4.index t0 (1 : Fin 2) * 128 + 128; rw [h1]; omega

theorem idx0_5 : ∀ t : Fin cfg0.N, win0_5.index t (0 : Fin 2) = t.val ∧ win0_5.index t (1 : Fin 2) = 0 :=
  (by decide +kernel : ∀ t : Fin grid0.N, _)

theorem emb0_5 (t : Fin cfg0.N) (p : Fin 4000) (q : Fin 128) :
    (((cfg0.win 5).blk t).view.emb (ix2 p q : S4000x128.Idx) : S100000x128.Idx) = ix2 (rowN t.val (lt0 t) p) q := by
  obtain ⟨h0, h1⟩ := idx0_5 t
  funext a; apply Fin.ext
  match a with
  | ⟨0, _⟩ => show win0_5.index t (0 : Fin 2) * 4000 + 1 * p.val = 4000 * t.val + p.val; rw [h0]; omega
  | ⟨1, _⟩ => show win0_5.index t (1 : Fin 2) * 128 + 1 * q.val = q.val; rw [h1]; omega

theorem cover0_5 (i : S100000x128.Idx) : ∃ t : Fin cfg0.N, (cfg0.win 5).flush t = true ∧ i ∈ ((cfg0.win 5).blk t).view.set := by
  have hN : cfg0.N = 25 := N_0
  have hi0 : (i 0).val < 100000 := (i 0).isLt
  have hi1 : (i 1).val < 128 := (i 1).isLt
  obtain ⟨t0, ht0⟩ : ∃ t0 : Fin cfg0.N, t0.val = (i 0).val / 4000 := ⟨⟨(i 0).val / 4000, by omega⟩, rfl⟩
  refine ⟨t0, flush0_5 t0, ?_⟩
  obtain ⟨h0, h1⟩ := idx0_5 t0
  show i ∈ ((View.whole main_v29_1).slice (win0_5.rect t0)).set
  rw [View.set_slice_whole, Rect.mem_set_unit]
  intro a
  match a with
  | ⟨0, _⟩ => show win0_5.index t0 (0 : Fin 2) * 4000 ≤ (i 0).val ∧ (i 0).val < win0_5.index t0 (0 : Fin 2) * 4000 + 4000; rw [h0, ht0]; omega
  | ⟨1, _⟩ => show win0_5.index t0 (1 : Fin 2) * 128 ≤ (i 1).val ∧ (i 1).val < win0_5.index t0 (1 : Fin 2) * 128 + 128; rw [h1]; omega

/-! ## Region 1 -/

theorem lt1 (t : Fin cfg1.N) : t.val < 25 := by have h : cfg1.N = 25 := N_1; have := t.isLt; omega

theorem idx1_0 : ∀ t : Fin cfg1.N, win1_0.index t (0 : Fin 2) = t.val ∧ win1_0.index t (1 : Fin 2) = 0 :=
  (by decide +kernel : ∀ t : Fin grid1.N, _)

theorem iblk1_0_apply (c : Dev nD) (t : Fin cfg1.N) (p : Fin 4000) (q : Fin 128) :
    (iblk1 V c 0 t : Vec F S4000x128 .f32) (ix2 p q) = (V c main_v42 : S100000x128.Idx → Elt F .f32) (ix2 (rowN t.val (lt1 t) p) q) := by
  obtain ⟨h0, h1⟩ := idx1_0 t
  unfold iblk1
  rw [View.read_apply]
  show V c main_v42 _ = V c main_v42 _
  refine congrArg _ (funext fun a => Fin.ext ?_)
  match a with
  | ⟨0, _⟩ => show win1_0.index t (0 : Fin 2) * 4000 + 1 * p.val = 4000 * t.val + p.val; rw [h0]; omega
  | ⟨1, _⟩ => show win1_0.index t (1 : Fin 2) * 128 + 1 * q.val = q.val; rw [h1]; omega

theorem idx1_1 : ∀ t : Fin cfg1.N, win1_1.index t (0 : Fin 1) = 0 :=
  (by decide +kernel : ∀ t : Fin grid1.N, _)

theorem iblk1_1_eq (c : Dev nD) (t : Fin cfg1.N) :
    (iblk1 V c 1 t : Vec F S128 .f32) = (V c main_arg3 : S128.Idx → Elt F .f32) := by
  have h0 := idx1_1 t
  funext y
  unfold iblk1
  rw [View.read_apply]
  show V c main_arg3 _ = V c main_arg3 y
  refine congrArg _ (funext fun a => Fin.ext ?_)
  match a with
  | ⟨0, _⟩ => show win1_1.index t (0 : Fin 1) * 128 + 1 * (y 0).val = (y 0).val; rw [h0]; omega

theorem idx1_2 : ∀ t : Fin cfg1.N, win1_2.index t (0 : Fin 1) = 0 :=
  (by decide +kernel : ∀ t : Fin grid1.N, _)

theorem iblk1_2_eq (c : Dev nD) (t : Fin cfg1.N) :
    (iblk1 V c 2 t : Vec F S128 .f32) = (V c main_arg4 : S128.Idx → Elt F .f32) := by
  have h0 := idx1_2 t
  funext y
  unfold iblk1
  rw [View.read_apply]
  show V c main_arg4 _ = V c main_arg4 y
  refine congrArg _ (funext fun a => Fin.ext ?_)
  match a with
  | ⟨0, _⟩ => show win1_2.index t (0 : Fin 1) * 128 + 1 * (y 0).val = (y 0).val; rw [h0]; omega

theorem idx1_3 : ∀ t : Fin cfg1.N, win1_3.index t (0 : Fin 1) = 0 :=
  (by decide +kernel : ∀ t : Fin grid1.N, _)

theorem iblk1_3_eq (c : Dev nD) (t : Fin cfg1.N) :
    (iblk1 V c 3 t : Vec F S128 .f32) = (V c main_arg5 : S128.Idx → Elt F .f32) := by
  have h0 := idx1_3 t
  funext y
  unfold iblk1
  rw [View.read_apply]
  show V c main_arg5 _ = V c main_arg5 y
  refine congrArg _ (funext fun a => Fin.ext ?_)
  match a with
  | ⟨0, _⟩ => show win1_3.index t (0 : Fin 1) * 128 + 1 * (y 0).val = (y 0).val; rw [h0]; omega

theorem idx1_4 : ∀ t : Fin cfg1.N, win1_4.index t (0 : Fin 2) = t.val ∧ win1_4.index t (1 : Fin 2) = 0 :=
  (by decide +kernel : ∀ t : Fin grid1.N, _)

theorem emb1_4 (t : Fin cfg1.N) (p : Fin 4000) (q : Fin 128) :
    (((cfg1.win 4).blk t).view.emb (ix2 p q : S4000x128.Idx) : S100000x128.Idx) = ix2 (rowN t.val (lt1 t) p) q := by
  obtain ⟨h0, h1⟩ := idx1_4 t
  funext a; apply Fin.ext
  match a with
  | ⟨0, _⟩ => show win1_4.index t (0 : Fin 2) * 4000 + 1 * p.val = 4000 * t.val + p.val; rw [h0]; omega
  | ⟨1, _⟩ => show win1_4.index t (1 : Fin 2) * 128 + 1 * q.val = q.val; rw [h1]; omega

theorem cover1_4 (i : S100000x128.Idx) : ∃ t : Fin cfg1.N, (cfg1.win 4).flush t = true ∧ i ∈ ((cfg1.win 4).blk t).view.set := by
  have hN : cfg1.N = 25 := N_1
  have hi0 : (i 0).val < 100000 := (i 0).isLt
  have hi1 : (i 1).val < 128 := (i 1).isLt
  obtain ⟨t0, ht0⟩ : ∃ t0 : Fin cfg1.N, t0.val = (i 0).val / 4000 := ⟨⟨(i 0).val / 4000, by omega⟩, rfl⟩
  refine ⟨t0, flush1_4 t0, ?_⟩
  obtain ⟨h0, h1⟩ := idx1_4 t0
  show i ∈ ((View.whole main_v43).slice (win1_4.rect t0)).set
  rw [View.set_slice_whole, Rect.mem_set_unit]
  intro a
  match a with
  | ⟨0, _⟩ => show win1_4.index t0 (0 : Fin 2) * 4000 ≤ (i 0).val ∧ (i 0).val < win1_4.index t0 (0 : Fin 2) * 4000 + 4000; rw [h0, ht0]; omega
  | ⟨1, _⟩ => show win1_4.index t0 (1 : Fin 2) * 128 ≤ (i 1).val ∧ (i 1).val < win1_4.index t0 (1 : Fin 2) * 128 + 128; rw [h1]; omega

/-! ## Region 2 -/

theorem lt2 (t : Fin cfg2.N) : t.val < 25 := by have h : cfg2.N = 25 := N_2; have := t.isLt; omega

theorem idx2_0 : ∀ t : Fin cfg2.N, win2_0.index t (0 : Fin 2) = t.val ∧ win2_0.index t (1 : Fin 2) = 0 :=
  (by decide +kernel : ∀ t : Fin grid2.N, _)

theorem iblk2_0_apply (c : Dev nD) (t : Fin cfg2.N) (p : Fin 4000) (q : Fin 128) :
    (iblk2 V c 0 t : Vec F S4000x128 .f32) (ix2 p q) = (V c main_v43 : S100000x128.Idx → Elt F .f32) (ix2 (rowN t.val (lt2 t) p) q) := by
  obtain ⟨h0, h1⟩ := idx2_0 t
  unfold iblk2
  rw [View.read_apply]
  show V c main_v43 _ = V c main_v43 _
  refine congrArg _ (funext fun a => Fin.ext ?_)
  match a with
  | ⟨0, _⟩ => show win2_0.index t (0 : Fin 2) * 4000 + 1 * p.val = 4000 * t.val + p.val; rw [h0]; omega
  | ⟨1, _⟩ => show win2_0.index t (1 : Fin 2) * 128 + 1 * q.val = q.val; rw [h1]; omega

theorem idx2_1 : ∀ t : Fin cfg2.N, win2_1.index t (0 : Fin 2) = 0 ∧ win2_1.index t (1 : Fin 2) = 0 :=
  (by decide +kernel : ∀ t : Fin grid2.N, _)

theorem iblk2_1_eq (c : Dev nD) (t : Fin cfg2.N) :
    (iblk2 V c 1 t : Vec F S128x128 .f32) = (V c main_arg6 : S128x128.Idx → Elt F .f32) := by
  obtain ⟨h0, h1⟩ := idx2_1 t
  funext y
  unfold iblk2
  rw [View.read_apply]
  show V c main_arg6 _ = V c main_arg6 y
  refine congrArg _ (funext fun a => Fin.ext ?_)
  match a with
  | ⟨0, _⟩ => show win2_1.index t (0 : Fin 2) * 128 + 1 * (y 0).val = (y 0).val; rw [h0]; omega
  | ⟨1, _⟩ => show win2_1.index t (1 : Fin 2) * 128 + 1 * (y 1).val = (y 1).val; rw [h1]; omega

theorem idx2_2 : ∀ t : Fin cfg2.N, win2_2.index t (0 : Fin 2) = t.val ∧ win2_2.index t (1 : Fin 2) = 0 :=
  (by decide +kernel : ∀ t : Fin grid2.N, _)

theorem emb2_2 (t : Fin cfg2.N) (p : Fin 4000) (q : Fin 128) :
    (((cfg2.win 2).blk t).view.emb (ix2 p q : S4000x128.Idx) : S100000x128.Idx) = ix2 (rowN t.val (lt2 t) p) q := by
  obtain ⟨h0, h1⟩ := idx2_2 t
  funext a; apply Fin.ext
  match a with
  | ⟨0, _⟩ => show win2_2.index t (0 : Fin 2) * 4000 + 1 * p.val = 4000 * t.val + p.val; rw [h0]; omega
  | ⟨1, _⟩ => show win2_2.index t (1 : Fin 2) * 128 + 1 * q.val = q.val; rw [h1]; omega

theorem cover2_2 (i : S100000x128.Idx) : ∃ t : Fin cfg2.N, (cfg2.win 2).flush t = true ∧ i ∈ ((cfg2.win 2).blk t).view.set := by
  have hN : cfg2.N = 25 := N_2
  have hi0 : (i 0).val < 100000 := (i 0).isLt
  have hi1 : (i 1).val < 128 := (i 1).isLt
  obtain ⟨t0, ht0⟩ : ∃ t0 : Fin cfg2.N, t0.val = (i 0).val / 4000 := ⟨⟨(i 0).val / 4000, by omega⟩, rfl⟩
  refine ⟨t0, flush2_2 t0, ?_⟩
  obtain ⟨h0, h1⟩ := idx2_2 t0
  show i ∈ ((View.whole main_v44).slice (win2_2.rect t0)).set
  rw [View.set_slice_whole, Rect.mem_set_unit]
  intro a
  match a with
  | ⟨0, _⟩ => show win2_2.index t0 (0 : Fin 2) * 4000 ≤ (i 0).val ∧ (i 0).val < win2_2.index t0 (0 : Fin 2) * 4000 + 4000; rw [h0, ht0]; omega
  | ⟨1, _⟩ => show win2_2.index t0 (1 : Fin 2) * 128 ≤ (i 1).val ∧ (i 1).val < win2_2.index t0 (1 : Fin 2) * 128 + 128; rw [h1]; omega

/-! ## Region 3 -/

theorem lt3 (t : Fin cfg3.N) : t.val < 25 := by have h : cfg3.N = 25 := N_3; have := t.isLt; omega

theorem idx3_0 : ∀ t : Fin cfg3.N, win3_0.index t (0 : Fin 2) = t.val ∧ win3_0.index t (1 : Fin 2) = 0 :=
  (by decide +kernel : ∀ t : Fin grid3.N, _)

theorem iblk3_0_apply (c : Dev nD) (t : Fin cfg3.N) (p : Fin 4000) (q : Fin 128) :
    (iblk3 V c 0 t : Vec F S4000x128 .f32) (ix2 p q) = (V c main_v57 : S100000x128.Idx → Elt F .f32) (ix2 (rowN t.val (lt3 t) p) q) := by
  obtain ⟨h0, h1⟩ := idx3_0 t
  unfold iblk3
  rw [View.read_apply]
  show V c main_v57 _ = V c main_v57 _
  refine congrArg _ (funext fun a => Fin.ext ?_)
  match a with
  | ⟨0, _⟩ => show win3_0.index t (0 : Fin 2) * 4000 + 1 * p.val = 4000 * t.val + p.val; rw [h0]; omega
  | ⟨1, _⟩ => show win3_0.index t (1 : Fin 2) * 128 + 1 * q.val = q.val; rw [h1]; omega

theorem idx3_1 : ∀ t : Fin cfg3.N, win3_1.index t (0 : Fin 1) = 0 :=
  (by decide +kernel : ∀ t : Fin grid3.N, _)

theorem iblk3_1_eq (c : Dev nD) (t : Fin cfg3.N) :
    (iblk3 V c 1 t : Vec F S128 .f32) = (V c main_arg7 : S128.Idx → Elt F .f32) := by
  have h0 := idx3_1 t
  funext y
  unfold iblk3
  rw [View.read_apply]
  show V c main_arg7 _ = V c main_arg7 y
  refine congrArg _ (funext fun a => Fin.ext ?_)
  match a with
  | ⟨0, _⟩ => show win3_1.index t (0 : Fin 1) * 128 + 1 * (y 0).val = (y 0).val; rw [h0]; omega

theorem idx3_2 : ∀ t : Fin cfg3.N, win3_2.index t (0 : Fin 1) = 0 :=
  (by decide +kernel : ∀ t : Fin grid3.N, _)

theorem iblk3_2_eq (c : Dev nD) (t : Fin cfg3.N) :
    (iblk3 V c 2 t : Vec F S128 .f32) = (V c main_arg8 : S128.Idx → Elt F .f32) := by
  have h0 := idx3_2 t
  funext y
  unfold iblk3
  rw [View.read_apply]
  show V c main_arg8 _ = V c main_arg8 y
  refine congrArg _ (funext fun a => Fin.ext ?_)
  match a with
  | ⟨0, _⟩ => show win3_2.index t (0 : Fin 1) * 128 + 1 * (y 0).val = (y 0).val; rw [h0]; omega

theorem idx3_3 : ∀ t : Fin cfg3.N, win3_3.index t (0 : Fin 1) = 0 :=
  (by decide +kernel : ∀ t : Fin grid3.N, _)

theorem iblk3_3_eq (c : Dev nD) (t : Fin cfg3.N) :
    (iblk3 V c 3 t : Vec F S128 .f32) = (V c main_arg9 : S128.Idx → Elt F .f32) := by
  have h0 := idx3_3 t
  funext y
  unfold iblk3
  rw [View.read_apply]
  show V c main_arg9 _ = V c main_arg9 y
  refine congrArg _ (funext fun a => Fin.ext ?_)
  match a with
  | ⟨0, _⟩ => show win3_3.index t (0 : Fin 1) * 128 + 1 * (y 0).val = (y 0).val; rw [h0]; omega

theorem idx3_4 : ∀ t : Fin cfg3.N, win3_4.index t (0 : Fin 2) = t.val ∧ win3_4.index t (1 : Fin 2) = 0 :=
  (by decide +kernel : ∀ t : Fin grid3.N, _)

theorem iblk3_4_apply (c : Dev nD) (t : Fin cfg3.N) (p : Fin 4000) (q : Fin 128) :
    (iblk3 V c 4 t : Vec F S4000x128 .f32) (ix2 p q) = (V c main_v29_1 : S100000x128.Idx → Elt F .f32) (ix2 (rowN t.val (lt3 t) p) q) := by
  obtain ⟨h0, h1⟩ := idx3_4 t
  unfold iblk3
  rw [View.read_apply]
  show V c main_v29_1 _ = V c main_v29_1 _
  refine congrArg _ (funext fun a => Fin.ext ?_)
  match a with
  | ⟨0, _⟩ => show win3_4.index t (0 : Fin 2) * 4000 + 1 * p.val = 4000 * t.val + p.val; rw [h0]; omega
  | ⟨1, _⟩ => show win3_4.index t (1 : Fin 2) * 128 + 1 * q.val = q.val; rw [h1]; omega

theorem idx3_5 : ∀ t : Fin cfg3.N, win3_5.index t (0 : Fin 2) = 0 ∧ win3_5.index t (1 : Fin 2) = 0 :=
  (by decide +kernel : ∀ t : Fin grid3.N, _)

theorem iblk3_5_eq (c : Dev nD) (t : Fin cfg3.N) :
    (iblk3 V c 5 t : Vec F S128x64 .f32) = (V c main_arg12 : S128x64.Idx → Elt F .f32) := by
  obtain ⟨h0, h1⟩ := idx3_5 t
  funext y
  unfold iblk3
  rw [View.read_apply]
  show V c main_arg12 _ = V c main_arg12 y
  refine congrArg _ (funext fun a => Fin.ext ?_)
  match a with
  | ⟨0, _⟩ => show win3_5.index t (0 : Fin 2) * 128 + 1 * (y 0).val = (y 0).val; rw [h0]; omega
  | ⟨1, _⟩ => show win3_5.index t (1 : Fin 2) * 64 + 1 * (y 1).val = (y 1).val; rw [h1]; omega

theorem idx3_6 : ∀ t : Fin cfg3.N, win3_6.index t (0 : Fin 1) = 0 :=
  (by decide +kernel : ∀ t : Fin grid3.N, _)

theorem iblk3_6_eq (c : Dev nD) (t : Fin cfg3.N) :
    (iblk3 V c 6 t : Vec F S64 .f32) = (V c main_arg13 : S64.Idx → Elt F .f32) := by
  have h0 := idx3_6 t
  funext y
  unfold iblk3
  rw [View.read_apply]
  show V c main_arg13 _ = V c main_arg13 y
  refine congrArg _ (funext fun a => Fin.ext ?_)
  match a with
  | ⟨0, _⟩ => show win3_6.index t (0 : Fin 1) * 64 + 1 * (y 0).val = (y 0).val; rw [h0]; omega

theorem idx3_7 : ∀ t : Fin cfg3.N, win3_7.index t (0 : Fin 2) = 0 ∧ win3_7.index t (1 : Fin 2) = 0 :=
  (by decide +kernel : ∀ t : Fin grid3.N, _)

theorem iblk3_7_eq (c : Dev nD) (t : Fin cfg3.N) :
    (iblk3 V c 7 t : Vec F S64x1 .f32) = (V c main_arg14 : S64x1.Idx → Elt F .f32) := by
  obtain ⟨h0, h1⟩ := idx3_7 t
  funext y
  unfold iblk3
  rw [View.read_apply]
  show V c main_arg14 _ = V c main_arg14 y
  refine congrArg _ (funext fun a => Fin.ext ?_)
  match a with
  | ⟨0, _⟩ => show win3_7.index t (0 : Fin 2) * 64 + 1 * (y 0).val = (y 0).val; rw [h0]; omega
  | ⟨1, _⟩ => show win3_7.index t (1 : Fin 2) * 1 + 1 * (y 1).val = (y 1).val; rw [h1]; omega

theorem idx3_8 : ∀ t : Fin cfg3.N, win3_8.index t (0 : Fin 1) = 0 :=
  (by decide +kernel : ∀ t : Fin grid3.N, _)

theorem iblk3_8_eq (c : Dev nD) (t : Fin cfg3.N) :
    (iblk3 V c 8 t : Vec F S1 .f32) = (V c main_arg15 : S1.Idx → Elt F .f32) := by
  have h0 := idx3_8 t
  funext y
  unfold iblk3
  rw [View.read_apply]
  show V c main_arg15 _ = V c main_arg15 y
  refine congrArg _ (funext fun a => Fin.ext ?_)
  match a with
  | ⟨0, _⟩ => show win3_8.index t (0 : Fin 1) * 1 + 1 * (y 0).val = (y 0).val; rw [h0]; omega

theorem idx3_9 : ∀ t : Fin cfg3.N, win3_9.index t (0 : Fin 2) = t.val ∧ win3_9.index t (1 : Fin 2) = 0 :=
  (by decide +kernel : ∀ t : Fin grid3.N, _)

theorem emb3_9 (t : Fin cfg3.N) (p : Fin 4000) (q : Fin 1) :
    (((cfg3.win 9).blk t).view.emb (ix2 p q : S4000x1.Idx) : S100000x1.Idx) = ix2 (rowN t.val (lt3 t) p) q := by
  obtain ⟨h0, h1⟩ := idx3_9 t
  funext a; apply Fin.ext
  match a with
  | ⟨0, _⟩ => show win3_9.index t (0 : Fin 2) * 4000 + 1 * p.val = 4000 * t.val + p.val; rw [h0]; omega
  | ⟨1, _⟩ => show win3_9.index t (1 : Fin 2) * 1 + 1 * q.val = q.val; rw [h1]; omega

theorem cover3_9 (i : S100000x1.Idx) : ∃ t : Fin cfg3.N, (cfg3.win 9).flush t = true ∧ i ∈ ((cfg3.win 9).blk t).view.set := by
  have hN : cfg3.N = 25 := N_3
  have hi0 : (i 0).val < 100000 := (i 0).isLt
  have hi1 : (i 1).val < 1 := (i 1).isLt
  obtain ⟨t0, ht0⟩ : ∃ t0 : Fin cfg3.N, t0.val = (i 0).val / 4000 := ⟨⟨(i 0).val / 4000, by omega⟩, rfl⟩
  refine ⟨t0, flush3_9 t0, ?_⟩
  obtain ⟨h0, h1⟩ := idx3_9 t0
  show i ∈ ((View.whole main_v58).slice (win3_9.rect t0)).set
  rw [View.set_slice_whole, Rect.mem_set_unit]
  intro a
  match a with
  | ⟨0, _⟩ => show win3_9.index t0 (0 : Fin 2) * 4000 ≤ (i 0).val ∧ (i 0).val < win3_9.index t0 (0 : Fin 2) * 4000 + 4000; rw [h0, ht0]; omega
  | ⟨1, _⟩ => show win3_9.index t0 (1 : Fin 2) * 1 ≤ (i 1).val ∧ (i 1).val < win3_9.index t0 (1 : Fin 2) * 1 + 1; rw [h1]; omega

end Cert.KernelIdeal.Geom

end
-- ==== Proof.Dots.lean ====
/-
  The kernel's three matrix-unit products, read at an entry: each contracts the left block's lane axis with
  the weight array's row axis into a zero accumulator, so entry `(p, q)` is `Σ_k x (p, k) · w (k, q)` — the row
  function `matRow` of row `p` of the left block.
-/
import proofs.«111997_j21251498181391_1_alg».proof.Proof.Gen.KernelIdeal
import proofs.«111997_j21251498181391_1_alg».proof.Proof.Spec
import Idealize.ShloMosaic.PureOps.Ideal.Laws
import Idealize.ShloMosaic.Lib.ValueIdx

noncomputable section

namespace Cert.KernelIdeal.Dots

open Cert.KernelIdeal Cert.Gcn Cert.Gcn.Dense Idealize.ShloMosaic Idealize.ShloMosaic.ValueIdx

theorem a_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem a_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem a_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem a_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, q)` of the product into a zero accumulator is the row function of row `p`. -/
theorem a_apply {φ₁ φ₂ : FTy} (x : FVec Ideal S4000x128 φ₁) (w : FVec Ideal S128x128 φ₂) (p : Fin 4000) (q : Fin 128) :
    matmul dot_S4000x128_S128x128_S4000x128_1_0_0_1_n_n none x w (constant S4000x128 .f32 0x00000000#32) (ix2 p q) = matRow (fun k => x (ix2 p k)) w q := by
  refine (Ideal.matmul_constant_zero_apply dot_S4000x128_S128x128_S4000x128_1_0_0_1_n_n none x w (ix2 p q)).trans ?_
  exact (sum_contr_eq_prod dot_S4000x128_S128x128_S4000x128_1_0_0_1_n_n rfl rfl a_l0 a_l1 a_r0 a_r1 x w (ix2 p q)).trans (prod_eq_matRow x w p q)

theorem b_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem b_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem b_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem b_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry `(p, q)` of the product into a zero accumulator is the row function of row `p`. -/
theorem b_apply {φ₁ φ₂ : FTy} (x : FVec Ideal S4000x128 φ₁) (w : FVec Ideal S128x64 φ₂) (p : Fin 4000) (q : Fin 64) :
    matmul dot_S4000x128_S128x64_S4000x64_1_0_0_1_n_n none x w (constant S4000x64 .f32 0x00000000#32) (ix2 p q) = matRow (fun k => x (ix2 p k)) w q := by
  refine (Ideal.matmul_constant_zero_apply dot_S4000x128_S128x64_S4000x64_1_0_0_1_n_n none x w (ix2 p q)).trans ?_
  exact (sum_contr_eq_prod dot_S4000x128_S128x64_S4000x64_1_0_0_1_n_n rfl rfl b_l0 b_l1 b_r0 b_r1 x w (ix2 p q)).trans (prod_eq_matRow x w p q)

theorem c_l0 (i : S4000x1.Idx) (q : dot_S4000x64_S64x1_S4000x1_1_0_0_1_n_n.contr.Idx) : (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem c_l1 (i : S4000x1.Idx) (q : dot_S4000x64_S64x1_S4000x1_1_0_0_1_n_n.contr.Idx) : (dot_S4000x64_S64x1_S4000x1_1_0_0_1_n_n.lhsIdx i q 1).val = (q ⟨0, by decide⟩).val :=
  dot_S4000x64_S64x1_S4000x1_1_0_0_1_n_n.lhsIdx_val_of_single rfl i q
theorem c_r0 (i : S4000x1.Idx) (q : dot_S4000x64_S64x1_S4000x1_1_0_0_1_n_n.contr.Idx) : (dot_S4000x64_S64x1_S4000x1_1_0_0_1_n_n.rhsIdx i q 0).val = (q ⟨0, by decide⟩).val :=
  dot_S4000x64_S64x1_S4000x1_1_0_0_1_n_n.rhsIdx_val_of_single rfl i q
theorem c_r1 (i : S4000x1.Idx) (q : dot_S4000x64_S64x1_S4000x1_1_0_0_1_n_n.contr.Idx) : (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- Entry `(p, q)` of the product into a zero accumulator is the row function of row `p`. -/
theorem c_apply {φ₁ φ₂ : FTy} (x : FVec Ideal S4000x64 φ₁) (w : FVec Ideal S64x1 φ₂) (p : Fin 4000) (q : Fin 1) :
    matmul dot_S4000x64_S64x1_S4000x1_1_0_0_1_n_n none x w (constant S4000x1 .f32 0x00000000#32) (ix2 p q) = matRow (fun k => x (ix2 p k)) w q := by
  refine (Ideal.matmul_constant_zero_apply dot_S4000x64_S64x1_S4000x1_1_0_0_1_n_n none x w (ix2 p q)).trans ?_
  exact (sum_contr_eq_prod dot_S4000x64_S64x1_S4000x1_1_0_0_1_n_n rfl rfl c_l0 c_l1 c_r0 c_r1 x w (ix2 p q)).trans (prod_eq_matRow x w p q)

end Cert.KernelIdeal.Dots

end
-- ==== Proof.Pays.lean ====
/-
  What each kernel body stores, read at one entry, as the row functions of `Spec`.

  The bodies' arithmetic is the skeleton's payloads.  A payload is a tree of whole-block vector operations;
  read at `(p, q)` the element-wise ones pass the index through, a bias row broadcast over the rows reads the
  bias at `q`, the lane reductions and keep-dims broadcasts of the LayerNorm read row `p`, and a matrix-unit
  product reads row `p` of its left operand.  The changes of float format are the identity on the extended
  reals.  The soft-plus guards against a not-a-number by comparing a value with itself; the extended reals
  have none, so the guard is never taken.
-/
import proofs.«111997_j21251498181391_1_alg».proof.Proof.Gen.KernelIdeal.Skeleton
import proofs.«111997_j21251498181391_1_alg».proof.Proof.Dots
import proofs.«111997_j21251498181391_1_alg».proof.Proof.Spec
import Idealize.ShloMosaic.Lib.Pipeline.Value
import Idealize.ShloMosaic.Lib.ValueLayout

noncomputable section

namespace Cert.KernelIdeal.Pays

open Cert.KernelIdeal Cert.KernelIdeal.Gen Cert.KernelIdeal.Dots Cert.Gcn Cert.RowNorm Cert.LnStage Cert.Keepdims
open Idealize.ShloMosaic Idealize.ShloMosaic.ValueIdx

/-! ## The projections -/

theorem pay0_2 (x0 : Vec Ideal S4000x128 .f32) (w : Vec Ideal S128x128 .f32) (p : Fin 4000) (q : Fin 128) :
    k0_pay2 x0 w (ix2 p q) = matRow (fun k => x0 (ix2 p k)) w q := by
  unfold k0_pay2
  exact a_apply _ _ p q

theorem pay0_3 (x0 : Vec Ideal S4000x128 .f32) (w : Vec Ideal S128x128 .f32) (b : Vec Ideal S128 .f32) (p : Fin 4000) (q : Fin 128) :
    k0_pay3 x0 w b (ix2 p q) = matRow (fun k => x0 (ix2 p k)) w q + b (ix1 q) := by
  unfold k0_pay3
  show matmul (F := Ideal) dot_S4000x128_S128x128_S4000x128_1_0_0_1_n_n none _ _ _ (ix2 p q)
    + broadcastTo S4000x128 (shapeCast S1x128 b shapeCasts_S128_S1x128) broadcasts_S1x128_S4000x128 (ix2 p q) = _
  rw [a_apply, broadcastTo_1b_ab_apply, shapeCast_a_1a_apply]
  rfl

theorem pay2_1 (x0 : Vec Ideal S4000x128 .f32) (w : Vec Ideal S128x128 .f32) (p : Fin 4000) (q : Fin 128) :
    k2_pay1 x0 w (ix2 p q) = matRow (fun k => x0 (ix2 p k)) w q := by
  unfold k2_pay1
  refine (a_apply _ _ p q).trans ?_
  refine congrArg (fun y => matRow y w q) (funext fun k => ?_)
  show shapeCast S4000x128 x0 shapeCasts_S4000x128_S4000x128 (ix2 p k) = _
  rw [shapeCast_self]

/-! ## LayerNorm and clip over a block of rows -/

/-- The block plus the bias row, normalised over the lanes, clipped at zero: the vector operations of both
    normalising bodies. -/
def lnBlock (x0 : Vec Ideal S4000x128 .f32) (b g e : Vec Ideal S128 .f32) : FVec Ideal S4000x128 .f32 :=
  maximumf (normVecK reduces_S4000x128_S4000 shapeCasts_S4000_S4000x1 broadcasts_S4000x1_S4000x128 shapeCasts_S128_S1x128 broadcasts_S1x128_S4000x128
      (addf (shapeCast S4000x128 x0 shapeCasts_S4000x128_S4000x128)
        (broadcastTo S4000x128 (shapeCast S1x128 b shapeCasts_S128_S1x128) broadcasts_S1x128_S4000x128)) g e)
    (broadcast S4000x128 (Scalar.ofBits .f32 0x00000000#32))

theorem lnBlock_apply (x0 : Vec Ideal S4000x128 .f32) (b g e : Vec Ideal S128 .f32) (p : Fin 4000) (q : Fin 128) :
    lnBlock x0 b g e (ix2 p q) = lnRow (fun k => x0 (ix2 p k)) b g e q := by
  show max (normVecK reduces_S4000x128_S4000 shapeCasts_S4000_S4000x1 broadcasts_S4000x1_S4000x128 shapeCasts_S128_S1x128 broadcasts_S1x128_S4000x128 _ g e (ix2 p q)) z = _
  rw [normVecK_apply]
  unfold lnRow lnRelu
  refine congrArg (fun y => max (normK y (fun k => g (ix1 k)) (fun k => e (ix1 k)) q) _) (funext fun k => ?_)
  show shapeCast S4000x128 x0 shapeCasts_S4000x128_S4000x128 (ix2 p k)
    + broadcastTo S4000x128 (shapeCast S1x128 b shapeCasts_S128_S1x128) broadcasts_S1x128_S4000x128 (ix2 p k) = _
  rw [shapeCast_self, broadcastTo_1b_ab_apply, shapeCast_a_1a_apply]

theorem k1_pay1_eq (x0 : Vec Ideal S4000x128 .f32) (b g e : Vec Ideal S128 .f32) : k1_pay1 x0 b g e = lnBlock x0 b g e := rfl

theorem pay1_1 (x0 : Vec Ideal S4000x128 .f32) (b g e : Vec Ideal S128 .f32) (p : Fin 4000) (q : Fin 128) :
    k1_pay1 x0 b g e (ix2 p q) = lnRow (fun k => x0 (ix2 p k)) b g e q := by
  rw [k1_pay1_eq, lnBlock_apply]

/-! ## The head -/

theorem k3_pay2_eq (x0 : Vec Ideal S4000x128 .f32) (b g e : Vec Ideal S128 .f32) (x4 : Vec Ideal S4000x128 .f32) (w1 : Vec Ideal S128x64 .f32) :
    k3_pay2 x0 b g e x4 w1 = matmul dot_S4000x128_S128x64_S4000x64_1_0_0_1_n_n none
      (truncf .bf16 (addf (lnBlock x0 b g e) (shapeCast S4000x128 x4 shapeCasts_S4000x128_S4000x128)) bitsLt_bf16_f32)
      (truncf .bf16 w1 bitsLt_bf16_f32) (constant S4000x64 .f32 0x00000000#32) := rfl

theorem pay3_2 (x0 : Vec Ideal S4000x128 .f32) (b g e : Vec Ideal S128 .f32) (x4 : Vec Ideal S4000x128 .f32) (w1 : Vec Ideal S128x64 .f32)
    (p : Fin 4000) (j : Fin 64) :
    k3_pay2 x0 b g e x4 w1 (ix2 p j) = matRow (fun k => lnRow (fun k' => x0 (ix2 p k')) b g e k + x4 (ix2 p k)) w1 j := by
  rw [k3_pay2_eq, b_apply]
  unfold matRow
  refine Finset.sum_congr rfl fun k _ => ?_
  show (lnBlock x0 b g e (ix2 p k) + shapeCast S4000x128 x4 shapeCasts_S4000x128_S4000x128 (ix2 p k)) * w1 (ix2 k j) = _
  rw [lnBlock_apply, shapeCast_self]

theorem pay3_1 (v40 : FVec Ideal S4000x64 .f32) (b1 : Vec Ideal S64 .f32) (w2 : Vec Ideal S64x1 .f32) (b2 : Vec Ideal S1 .f32)
    (p : Fin 4000) (u : Fin 1) :
    k3_pay1 v40 b1 w2 b2 (ix2 p u) = softplus (matRow (fun j => max (v40 (ix2 p j) + b1 (ix1 j)) z) w2 u + b2 (ix1 u)) := by
  have hpay : ∀ y : FVec Ideal S4000x1 .f32,
      y = addf (matmul dot_S4000x64_S64x1_S4000x1_1_0_0_1_n_n none
            (truncf .bf16 (maximumf (addf v40 (broadcastTo S4000x64 (shapeCast S1x64 b1 shapeCasts_S64_S1x64) broadcasts_S1x64_S4000x64))
              (broadcast S4000x64 (Scalar.ofBits .f32 0x00000000#32))) bitsLt_bf16_f32)
            (truncf .bf16 w2 bitsLt_bf16_f32) (constant S4000x1 .f32 0x00000000#32))
          (broadcastTo S4000x1 (shapeCast S1x1 b2 shapeCasts_S1_S1x1) broadcasts_S1x1_S4000x1) →
      k3_pay1 v40 b1 w2 b2 (ix2 p u)
        = Scalar.select (Ideal.cmp .one (y (ix2 p u) - z) (y (ix2 p u) - z)) (y (ix2 p u) + z)
            (max (y (ix2 p u)) z + Ideal.log1p (Ideal.exp (z - FloatOps.absf (F := Ideal) (φ := .f32) (y (ix2 p u) - z)))) := by
    intro y hy; subst hy; rfl
  rw [hpay _ rfl, cmp_one_self, select_zero, z_sub]
  have hyv : (addf (matmul dot_S4000x64_S64x1_S4000x1_1_0_0_1_n_n none
            (truncf .bf16 (maximumf (addf v40 (broadcastTo S4000x64 (shapeCast S1x64 b1 shapeCasts_S64_S1x64) broadcasts_S1x64_S4000x64))
              (broadcast S4000x64 (Scalar.ofBits .f32 0x00000000#32))) bitsLt_bf16_f32)
            (truncf .bf16 w2 bitsLt_bf16_f32) (constant S4000x1 .f32 0x00000000#32))
          (broadcastTo S4000x1 (shapeCast S1x1 b2 shapeCasts_S1_S1x1) broadcasts_S1x1_S4000x1) : FVec Ideal S4000x1 .f32) (ix2 p u)
        = matRow (fun j => max (v40 (ix2 p j) + b1 (ix1 j)) z) w2 u + b2 (ix1 u) := by
    show matmul (F := Ideal) dot_S4000x64_S64x1_S4000x1_1_0_0_1_n_n none _ _ _ (ix2 p u)
      + broadcastTo S4000x1 (shapeCast S1x1 b2 shapeCasts_S1_S1x1) broadcasts_S1x1_S4000x1 (ix2 p u) = _
    rw [c_apply, broadcastTo_1b_ab_apply, shapeCast_a_1a_apply]
    refine congrArg (· + b2 (ix1 u)) ?_
    unfold matRow
    refine Finset.sum_congr rfl fun j _ => ?_
    show max (v40 (ix2 p j) + broadcastTo S4000x64 (shapeCast S1x64 b1 shapeCasts_S64_S1x64) broadcasts_S1x64_S4000x64 (ix2 p j)) z * w2 (ix2 j u) = _
    rw [broadcastTo_1b_ab_apply, shapeCast_a_1a_apply]
  rw [hyv]
  rfl

/-- The whole head body at one row. -/
theorem pay3 (x0 : Vec Ideal S4000x128 .f32) (b g e : Vec Ideal S128 .f32) (x4 : Vec Ideal S4000x128 .f32) (w1 : Vec Ideal S128x64 .f32)
    (b1 : Vec Ideal S64 .f32) (w2 : Vec Ideal S64x1 .f32) (b2 : Vec Ideal S1 .f32) (p : Fin 4000) (u : Fin 1) :
    k3_pay1 (k3_pay2 x0 b g e x4 w1) b1 w2 b2 (ix2 p u)
      = headRow (fun k => x0 (ix2 p k)) (fun k => x4 (ix2 p k)) b g e w1 b1 w2 b2 u := by
  rw [pay3_1]
  unfold headRow hidRow
  simp only [pay3_2]

end Cert.KernelIdeal.Pays

end
-- ==== Proof.Fin0.lean ====
/-
  Region 0, the two projections: after its 25 grid points the first output array is the matrix product of
  the node features with the first weight array, the second the product with the skip weights plus the skip
  bias row.  Point `t` writes rows `4000·t …` of each, computed from the same rows of the features; the blocks
  tile the arrays.
-/
import proofs.«111997_j21251498181391_1_alg».proof.Proof.Geom
import proofs.«111997_j21251498181391_1_alg».proof.Proof.Pays

set_option maxRecDepth 16384

noncomputable section

namespace Cert.KernelIdeal.Fin0

open Cert.KernelIdeal Cert.KernelIdeal.Gen Cert.KernelIdeal.Geom Cert.KernelIdeal.Pays Cert.Gcn Cert.Gcn.Dense
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem flushed4_eq (c : Dev nD) (t : Fin cfg0.N) :
    (dat0 V c).flushed 4 t = ((cfg0.win 4).blk t).view.read (Elt Ideal)
      (prod (V c main_arg0 : S100000x128.Idx → EReal) (V c main_arg2 : S128x128.Idx → EReal) : S100000x128.Idx → EReal) := by
  show (cfg0.win 4).cut (grid0.coords t) ((dat0 V c).after 4 t) = _
  rw [after0_4]
  unfold out0_4
  rw [View.canon_unit_zero hz2]
  simp only [View.ld_unit_zero (S := S4000x128) hz2, View.ld_unit_zero (S := S128x128) hz2]
  refine funext fun (j : S4000x128.Idx) => ?_
  obtain ⟨p, q, rfl⟩ : ∃ (p : Fin 4000) (q : Fin 128), j = ix2 p q := ⟨j 0, j 1, eq_ix2 j⟩
  show k0_pay2 (iblk0 V c 0 t) (iblk0 V c 1 t) (ix2 p q)
    = prod (V c main_arg0 : S100000x128.Idx → EReal) (V c main_arg2 : S128x128.Idx → EReal) (((cfg0.win 4).blk t).view.emb (ix2 p q))
  rw [emb0_4, pay0_2, prod_eq_matRow, iblk0_1_eq]
  exact congrArg (fun y => matRow y _ q) (funext fun k => iblk0_0_apply V c t p k)

theorem final4 (c : Dev nD) : (dat0 V c).arrAt 4 cfg0.N
    = (prod (V c main_arg0 : S100000x128.Idx → EReal) (V c main_arg2 : S128x128.Idx → EReal) : S100000x128.Idx → EReal) :=
  (dat0 V c).arrAt_eq_of_cover 4 _ (fun t _ => flushed4_eq V c t) cover0_4

theorem flushed5_eq (c : Dev nD) (t : Fin cfg0.N) :
    (dat0 V c).flushed 5 t = ((cfg0.win 5).blk t).view.read (Elt Ideal)
      (addBias (prod (V c main_arg0 : S100000x128.Idx → EReal) (V c main_arg10 : S128x128.Idx → EReal)) (V c main_arg11 : S128.Idx → EReal) : S100000x128.Idx → EReal) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S128x128) hz2, View.ld_unit_zero (S := S128) hz1]
  refine funext fun (j : S4000x128.Idx) => ?_
  obtain ⟨p, q, rfl⟩ : ∃ (p : Fin 4000) (q : Fin 128), j = ix2 p q := ⟨j 0, j 1, eq_ix2 j⟩
  show k0_pay3 (iblk0 V c 0 t) (iblk0 V c 2 t) (iblk0 V c 3 t) (ix2 p q)
    = addBias (prod (V c main_arg0 : S100000x128.Idx → EReal) (V c main_arg10 : S128x128.Idx → EReal)) (V c main_arg11 : S128.Idx → EReal) (((cfg0.win 5).blk t).view.emb (ix2 p q))
  rw [emb0_5, pay0_3, iblk0_2_eq, iblk0_3_eq]
  show _ = prod _ _ (ix2 _ q) + _
  rw [prod_eq_matRow]
  exact congrArg (fun y => matRow y _ q + _) (funext fun k => iblk0_0_apply V c t p k)

theorem final5 (c : Dev nD) : (dat0 V c).arrAt 5 cfg0.N
    = (addBias (prod (V c main_arg0 : S100000x128.Idx → EReal) (V c main_arg10 : S128x128.Idx → EReal)) (V c main_arg11 : S128.Idx → EReal) : S100000x128.Idx → EReal) :=
  (dat0 V c).arrAt_eq_of_cover 5 _ (fun t _ => flushed5_eq V c t) cover0_5

theorem final4' (c : Dev nD) (x0 : S100000x128.Idx → EReal) (x2 : S128x128.Idx → EReal)
    (h0 : (V c main_arg0 : S100000x128.Idx → EReal) = x0) (h2 : (V c main_arg2 : S128x128.Idx → EReal) = x2) :
    (dat0 V c).arrAt 4 cfg0.N = (prod x0 x2 : S100000x128.Idx → EReal) := by
  subst h0 h2; exact final4 V c

theorem final5' (c : Dev nD) (x0 : S100000x128.Idx → EReal) (x10 : S128x128.Idx → EReal) (x11 : S128.Idx → EReal)
    (h0 : (V c main_arg0 : S100000x128.Idx → EReal) = x0) (h10 : (V c main_arg10 : S128x128.Idx → EReal) = x10)
    (h11 : (V c main_arg11 : S128.Idx → EReal) = x11) :
    (dat0 V c).arrAt 5 cfg0.N = (addBias (prod x0 x10) x11 : S100000x128.Idx → EReal) := by
  subst h0 h10 h11; exact final5 V c

end Cert.KernelIdeal.Fin0

end
-- ==== Proof.Fin1.lean ====
/-
  Region 1: after its 25 grid points the output array holds, row by row, the aggregated row plus the bias
  row, normalised over its lanes and clipped at zero.
-/
import proofs.«111997_j21251498181391_1_alg».proof.Proof.Geom
import proofs.«111997_j21251498181391_1_alg».proof.Proof.Pays

set_option maxRecDepth 16384

noncomputable section

namespace Cert.KernelIdeal.Fin1

open Cert.KernelIdeal Cert.KernelIdeal.Gen Cert.KernelIdeal.Geom Cert.KernelIdeal.Pays Cert.Gcn Cert.Gcn.Dense
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem flushed4_eq (c : Dev nD) (t : Fin cfg1.N) :
    (dat1 V c).flushed 4 t = ((cfg1.win 4).blk t).view.read (Elt Ideal)
      (lnArr (V c main_v42 : S100000x128.Idx → EReal) (V c main_arg3 : S128.Idx → EReal) (V c main_arg4 : S128.Idx → EReal) (V c main_arg5 : S128.Idx → EReal) : S100000x128.Idx → EReal) := by
  show (cfg1.win 4).cut (grid1.coords t) ((dat1 V c).after 4 t) = _
  rw [after1_4]
  unfold out1_4
  rw [View.canon_unit_zero hz2]
  simp only [View.ld_unit_zero (S := S4000x128) hz2, View.ld_unit_zero (S := S128) hz1]
  refine funext fun (j : S4000x128.Idx) => ?_
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (iblk1 V c 3 t) (ix2 p q)
    = lnArr (V c main_v42 : S100000x128.Idx → EReal) (V c main_arg3 : S128.Idx → EReal) (V c main_arg4 : S128.Idx → EReal) (V c main_arg5 : S128.Idx → EReal) (((cfg1.win 4).blk t).view.emb (ix2 p q))
  rw [emb1_4, pay1_1, iblk1_1_eq, iblk1_2_eq, iblk1_3_eq]
  exact congrArg (fun y => lnRow y _ _ _ q) (funext fun k => iblk1_0_apply V c t p k)

theorem final4 (c : Dev nD) : (dat1 V c).arrAt 4 cfg1.N
    = (lnArr (V c main_v42 : S100000x128.Idx → EReal) (V c main_arg3 : S128.Idx → EReal) (V c main_arg4 : S128.Idx → EReal) (V c main_arg5 : S128.Idx → EReal) : S100000x128.Idx → EReal) :=
  (dat1 V c).arrAt_eq_of_cover 4 _ (fun t _ => flushed4_eq V c t) cover1_4

theorem final4' (c : Dev nD) (y : S100000x128.Idx → EReal) (x3 x4 x5 : S128.Idx → EReal)
    (hy : (V c main_v42 : S100000x128.Idx → EReal) = y) (h3 : (V c main_arg3 : S128.Idx → EReal) = x3)
    (h4 : (V c main_arg4 : S128.Idx → EReal) = x4) (h5 : (V c main_arg5 : S128.Idx → EReal) = x5) :
    (dat1 V c).arrAt 4 cfg1.N = (lnArr y x3 x4 x5 : S100000x128.Idx → EReal) := by
  subst hy h3 h4 h5; exact final4 V c

end Cert.KernelIdeal.Fin1

end
-- ==== Proof.Fin2.lean ====
/-
  Region 2: after its 25 grid points the output array is the matrix product of the first layer's rows with
  the second weight array.
-/
import proofs.«111997_j21251498181391_1_alg».proof.Proof.Geom
import proofs.«111997_j21251498181391_1_alg».proof.Proof.Pays

set_option maxRecDepth 16384

noncomputable section

namespace Cert.KernelIdeal.Fin2

open Cert.KernelIdeal Cert.KernelIdeal.Gen Cert.KernelIdeal.Geom Cert.KernelIdeal.Pays Cert.Gcn Cert.Gcn.Dense
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem flushed2_eq (c : Dev nD) (t : Fin cfg2.N) :
    (dat2 V c).flushed 2 t = ((cfg2.win 2).blk t).view.read (Elt Ideal)
      (prod (V c main_v43 : S100000x128.Idx → EReal) (V c main_arg6 : S128x128.Idx → EReal) : S100000x128.Idx → EReal) := by
  show (cfg2.win 2).cut (grid2.coords t) ((dat2 V c).after 2 t) = _
  rw [after2_2]
  unfold out2_2
  rw [View.canon_unit_zero hz2]
  simp only [View.ld_unit_zero (S := S4000x128) hz2, View.ld_unit_zero (S := S128x128) hz2]
  refine funext fun (j : S4000x128.Idx) => ?_
  obtain ⟨p, q, rfl⟩ : ∃ (p : Fin 4000) (q : Fin 128), j = ix2 p q := ⟨j 0, j 1, eq_ix2 j⟩
  show k2_pay1 (iblk2 V c 0 t) (iblk2 V c 1 t) (ix2 p q)
    = prod (V c main_v43 : S100000x128.Idx → EReal) (V c main_arg6 : S128x128.Idx → EReal) (((cfg2.win 2).blk t).view.emb (ix2 p q))
  rw [emb2_2, pay2_1, prod_eq_matRow, iblk2_1_eq]
  exact congrArg (fun y => matRow y _ q) (funext fun k => iblk2_0_apply V c t p k)

theorem final2 (c : Dev nD) : (dat2 V c).arrAt 2 cfg2.N
    = (prod (V c main_v43 : S100000x128.Idx → EReal) (V c main_arg6 : S128x128.Idx → EReal) : S100000x128.Idx → EReal) :=
  (dat2 V c).arrAt_eq_of_cover 2 _ (fun t _ => flushed2_eq V c t) cover2_2

theorem final2' (c : Dev nD) (y : S100000x128.Idx → EReal) (x6 : S128x128.Idx → EReal)
    (hy : (V c main_v43 : S100000x128.Idx → EReal) = y) (h6 : (V c main_arg6 : S128x128.Idx → EReal) = x6) :
    (dat2 V c).arrAt 2 cfg2.N = (prod y x6 : S100000x128.Idx → EReal) := by
  subst hy h6; exact final2 V c

end Cert.KernelIdeal.Fin2

end
-- ==== Proof.Fin3.lean ====
/-
  Region 3, the head: after its 25 grid points the output column holds, row by row, the soft-plus of the
  two-layer head applied to the normalised second-layer row plus the residual row.
-/
import proofs.«111997_j21251498181391_1_alg».proof.Proof.Geom
import proofs.«111997_j21251498181391_1_alg».proof.Proof.Pays

set_option maxRecDepth 16384

noncomputable section

namespace Cert.KernelIdeal.Fin3

open Cert.KernelIdeal Cert.KernelIdeal.Gen Cert.KernelIdeal.Geom Cert.KernelIdeal.Pays Cert.Gcn Cert.Gcn.Dense
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

theorem flushed9_eq (c : Dev nD) (t : Fin cfg3.N) :
    (dat3 V c).flushed 9 t = ((cfg3.win 9).blk t).view.read (Elt Ideal)
      (headArr (V c main_v57 : S100000x128.Idx → EReal) (V c main_v29_1 : S100000x128.Idx → EReal) (V c main_arg7 : S128.Idx → EReal) (V c main_arg8 : S128.Idx → EReal) (V c main_arg9 : S128.Idx → EReal)
        (V c main_arg12 : S128x64.Idx → EReal) (V c main_arg13 : S64.Idx → EReal) (V c main_arg14 : S64x1.Idx → EReal) (V c main_arg15 : S1.Idx → EReal) : S100000x1.Idx → EReal) := by
  show (cfg3.win 9).cut (grid3.coords t) ((dat3 V c).after 9 t) = _
  rw [after3_9]
  unfold out3_9
  rw [View.canon_unit_zero hz2]
  simp only [View.ld_unit_zero (S := S4000x128) hz2, View.ld_unit_zero (S := S128) hz1, View.ld_unit_zero (S := S128x64) hz2,
    View.ld_unit_zero (S := S64) hz1, View.ld_unit_zero (S := S64x1) hz2, View.ld_unit_zero (S := S1) hz1]
  refine funext fun (j : S4000x1.Idx) => ?_
  obtain ⟨p, u, rfl⟩ : ∃ (p : Fin 4000) (u : Fin 1), j = ix2 p u := ⟨j 0, j 1, eq_ix2 j⟩
  show k3_pay1 (k3_pay2 (iblk3 V c 0 t) (iblk3 V c 1 t) (iblk3 V c 2 t) (iblk3 V c 3 t) (iblk3 V c 4 t) (iblk3 V c 5 t))
      (iblk3 V c 6 t) (iblk3 V c 7 t) (iblk3 V c 8 t) (ix2 p u)
    = (headArr (V c main_v57 : S100000x128.Idx → EReal) (V c main_v29_1 : S100000x128.Idx → EReal) (V c main_arg7 : S128.Idx → EReal) (V c main_arg8 : S128.Idx → EReal) (V c main_arg9 : S128.Idx → EReal)
        (V c main_arg12 : S128x64.Idx → EReal) (V c main_arg13 : S64.Idx → EReal) (V c main_arg14 : S64x1.Idx → EReal) (V c main_arg15 : S1.Idx → EReal) : S100000x1.Idx → EReal) (((cfg3.win 9).blk t).view.emb (ix2 p u))
  rw [emb3_9, pay3, iblk3_1_eq, iblk3_2_eq, iblk3_3_eq, iblk3_5_eq, iblk3_6_eq, iblk3_7_eq, iblk3_8_eq]
  show headRow _ _ _ _ _ _ _ _ _ u = headRow _ _ _ _ _ _ _ _ _ u
  rw [show (fun k => (iblk3 V c 0 t : Vec Ideal S4000x128 .f32) (ix2 p k)) = fun k => (V c main_v57 : S100000x128.Idx → EReal) (ix2 (rowN t.val (lt3 t) p) k)
        from funext fun k => iblk3_0_apply V c t p k,
      show (fun k => (iblk3 V c 4 t : Vec Ideal S4000x128 .f32) (ix2 p k)) = fun k => (V c main_v29_1 : S100000x128.Idx → EReal) (ix2 (rowN t.val (lt3 t) p) k)
        from funext fun k => iblk3_4_apply V c t p k]

theorem final9 (c : Dev nD) : (dat3 V c).arrAt 9 cfg3.N
    = (headArr (V c main_v57 : S100000x128.Idx → EReal) (V c main_v29_1 : S100000x128.Idx → EReal) (V c main_arg7 : S128.Idx → EReal) (V c main_arg8 : S128.Idx → EReal) (V c main_arg9 : S128.Idx → EReal)
        (V c main_arg12 : S128x64.Idx → EReal) (V c main_arg13 : S64.Idx → EReal) (V c main_arg14 : S64x1.Idx → EReal) (V c main_arg15 : S1.Idx → EReal) : S100000x1.Idx → EReal) :=
  (dat3 V c).arrAt_eq_of_cover 9 _ (fun t _ => flushed9_eq V c t) cover3_9

theorem final9' (c : Dev nD) (y res : S100000x128.Idx → EReal) (x7 x8 x9 : S128.Idx → EReal) (x12 : S128x64.Idx → EReal)
    (x13 : S64.Idx → EReal) (x14 : S64x1.Idx → EReal) (x15 : S1.Idx → EReal)
    (hy : (V c main_v57 : S100000x128.Idx → EReal) = y) (hr : (V c main_v29_1 : S100000x128.Idx → EReal) = res)
    (h7 : (V c main_arg7 : S128.Idx → EReal) = x7) (h8 : (V c main_arg8 : S128.Idx → EReal) = x8) (h9 : (V c main_arg9 : S128.Idx → EReal) = x9)
    (h12 : (V c main_arg12 : S128x64.Idx → EReal) = x12) (h13 : (V c main_arg13 : S64.Idx → EReal) = x13)
    (h14 : (V c main_arg14 : S64x1.Idx → EReal) = x14) (h15 : (V c main_arg15 : S1.Idx → EReal) = x15) :
    (dat3 V c).arrAt 9 cfg3.N = (headArr y res x7 x8 x9 x12 x13 x14 x15 : S100000x1.Idx → EReal) := by
  subst hy hr h7 h8 h9 h12 h13 h14 h15; exact final9 V c

end Cert.KernelIdeal.Fin3

end
-- ==== Proof.KChain.lean ====
/-
  The kernel program's result, buffer by buffer through its run, named as the reference's stages of the
  launch arguments.

  The boundary fold starts at the launch memory.  The first stretches leave the two edge-end vectors and the
  edge normalisation; region 0 leaves the two projections; a stretch aggregates the first along the edges;
  region 1 normalises and clips; region 2 multiplies by the second weights; a stretch aggregates again; region 3
  is the head; the last stretch reshapes its column.  At each step the buffer just written is the reference's
  stage of the same name: a stretch runs the reference's own operations, and a region's array is the row
  function of `Spec` on every row, which is what the reference's stage is at every row.
-/
import proofs.«111997_j21251498181391_1_alg».proof.Proof.KHost
import proofs.«111997_j21251498181391_1_alg».proof.Proof.RefStages
import proofs.«111997_j21251498181391_1_alg».proof.Proof.Fin0
import proofs.«111997_j21251498181391_1_alg».proof.Proof.Fin1
import proofs.«111997_j21251498181391_1_alg».proof.Proof.Fin2
import proofs.«111997_j21251498181391_1_alg».proof.Proof.Fin3

set_option maxRecDepth 16384

noncomputable section

namespace Cert.KernelIdeal.Chain

open Cert.KernelIdeal Cert.KernelIdeal.Gen Cert.KernelIdeal.HostSide Cert.Gcn Cert.Gcn.Dense
open Idealize.ShloMosaic Idealize.ShloMosaic.TcCoe Idealize.ShloMosaic.ValueIdx
open Cert.ReferenceIdeal.Stages

/-! ## The reference's dense stages as whole-array functions -/

section RefFun

theorem v37_fun (x0 : (⟨Cert.ReferenceIdeal.S100000x128, .f32⟩ : BufTy).Contents (Elt Ideal)) (x2 : (⟨Cert.ReferenceIdeal.S128x128, .f32⟩ : BufTy).Contents (Elt Ideal)) : Cert.ReferenceIdeal.ReadP.val_main_v37 (F := Ideal) x0 x2 = prod x0 x2 := by
  funext i
  obtain ⟨p, q, rfl⟩ : ∃ (p : Fin 100000) (q : Fin 128), i = ix2 p q := ⟨i 0, i 1, eq_ix2 i⟩
  exact v37_apply x0 x2 p q

theorem v36_fun (x0 : (⟨Cert.ReferenceIdeal.S100000x128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) : Cert.ReferenceIdeal.ReadP.val_main_v36 (F := Ideal) x0 x10 x11 = addBias (prod x0 x10) x11 := by
  funext i
  obtain ⟨p, q, rfl⟩ : ∃ (p : Fin 100000) (q : Fin 128), i = ix2 p q := ⟨i 0, i 1, eq_ix2 i⟩
  exact v36_apply x0 x10 x11 p q

theorem v78_fun (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) :
    Cert.ReferenceIdeal.ReadP.val_main_v78 (F := Ideal) x0 x1 x2 x3 x4 x5 = lnArr (Cert.ReferenceIdeal.ReadP.val_main_v50 (F := Ideal) x0 x1 x2) x3 x4 x5 := by
  funext i
  obtain ⟨p, q, rfl⟩ : ∃ (p : Fin 100000) (q : Fin 128), i = ix2 p q := ⟨i 0, i 1, eq_ix2 i⟩
  exact v78_apply x0 x1 x2 x3 x4 x5 p q

theorem v79_fun (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) :
    Cert.ReferenceIdeal.ReadP.val_main_v79 (F := Ideal) x0 x1 x2 x3 x4 x5 x6 = prod (Cert.ReferenceIdeal.ReadP.val_main_v78 (F := Ideal) x0 x1 x2 x3 x4 x5) x6 := by
  funext i
  obtain ⟨p, q, rfl⟩ : ∃ (p : Fin 100000) (q : Fin 128), i = ix2 p q := ⟨i 0, i 1, eq_ix2 i⟩
  exact v79_apply x0 x1 x2 x3 x4 x5 x6 p q

theorem v131_fun (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x64, .f32⟩ : BufTy).Contents (Elt Ideal)) (x13 : (⟨Cert.ReferenceIdeal.S64, .f32⟩ : BufTy).Contents (Elt Ideal)) (x14 : (⟨Cert.ReferenceIdeal.S64x1, .f32⟩ : BufTy).Contents (Elt Ideal)) (x15 : (⟨Cert.ReferenceIdeal.S1, .f32⟩ : BufTy).Contents (Elt Ideal)) :
    Cert.ReferenceIdeal.ReadP.val_main_v131 (F := Ideal) x0 x1 x2 x3 x4 x5 x6 x7 x8 x9 x10 x11 x12 x13 x14 x15
      = headArr (Cert.ReferenceIdeal.ReadP.val_main_v92 (F := Ideal) x0 x1 x2 x3 x4 x5 x6) (Cert.ReferenceIdeal.ReadP.val_main_v36 (F := Ideal) x0 x10 x11) x7 x8 x9 x12 x13 x14 x15 := by
  funext i
  obtain ⟨p, u, rfl⟩ : ∃ (p : Fin 100000) (u : Fin 1), i = ix2 p u := ⟨i 0, i 1, eq_ix2 i⟩
  exact v131_apply x0 x1 x2 x3 x4 x5 x6 x7 x8 x9 x10 x11 x12 x13 x14 x15 p u

end RefFun

variable (m : (ℓ : Loc nD τ sig) → Buf (Elt Ideal) ℓ) (ρ : Dev nD → PrngReg) (c : Dev nD)

/-! ## The launch arguments at the boundaries where a region or a stretch reads them -/

theorem W1_arg0 : W1 m ρ c (Proc.devRef .tc main_arg0) = (m ((c : Thread nD τ).loc main_arg0)) := k0_main_arg0 _
theorem W2_arg0 : W2 m ρ c (Proc.devRef .tc main_arg0) = (m ((c : Thread nD τ).loc main_arg0)) := (k01_main_arg0 _).trans (W1_arg0 m ρ c)
theorem W3_arg0 : W3 m ρ c (Proc.devRef .tc main_arg0) = (m ((c : Thread nD τ).loc main_arg0)) := (k02_main_arg0 _).trans (W2_arg0 m ρ c)
theorem W1_arg2 : W1 m ρ c (Proc.devRef .tc main_arg2) = (m ((c : Thread nD τ).loc main_arg2)) := k0_main_arg2 _
theorem W2_arg2 : W2 m ρ c (Proc.devRef .tc main_arg2) = (m ((c : Thread nD τ).loc main_arg2)) := (k01_main_arg2 _).trans (W1_arg2 m ρ c)
theorem W3_arg2 : W3 m ρ c (Proc.devRef .tc main_arg2) = (m ((c : Thread nD τ).loc main_arg2)) := (k02_main_arg2 _).trans (W2_arg2 m ρ c)
theorem W1_arg3 : W1 m ρ c (Proc.devRef .tc main_arg3) = (m ((c : Thread nD τ).loc main_arg3)) := k0_main_arg3 _
theorem W2_arg3 : W2 m ρ c (Proc.devRef .tc main_arg3) = (m ((c : Thread nD τ).loc main_arg3)) := (k01_main_arg3 _).trans (W1_arg3 m ρ c)
theorem W3_arg3 : W3 m ρ c (Proc.devRef .tc main_arg3) = (m ((c : Thread nD τ).loc main_arg3)) := (k02_main_arg3 _).trans (W2_arg3 m ρ c)
theorem W1_arg4 : W1 m ρ c (Proc.devRef .tc main_arg4) = (m ((c : Thread nD τ).loc main_arg4)) := k0_main_arg4 _
theorem W2_arg4 : W2 m ρ c (Proc.devRef .tc main_arg4) = (m ((c : Thread nD τ).loc main_arg4)) := (k01_main_arg4 _).trans (W1_arg4 m ρ c)
theorem W3_arg4 : W3 m ρ c (Proc.devRef .tc main_arg4) = (m ((c : Thread nD τ).loc main_arg4)) := (k02_main_arg4 _).trans (W2_arg4 m ρ c)
theorem W1_arg5 : W1 m ρ c (Proc.devRef .tc main_arg5) = (m ((c : Thread nD τ).loc main_arg5)) := k0_main_arg5 _
theorem W2_arg5 : W2 m ρ c (Proc.devRef .tc main_arg5) = (m ((c : Thread nD τ).loc main_arg5)) := (k01_main_arg5 _).trans (W1_arg5 m ρ c)
theorem W3_arg5 : W3 m ρ c (Proc.devRef .tc main_arg5) = (m ((c : Thread nD τ).loc main_arg5)) := (k02_main_arg5 _).trans (W2_arg5 m ρ c)
theorem W1_arg6 : W1 m ρ c (Proc.devRef .tc main_arg6) = (m ((c : Thread nD τ).loc main_arg6)) := k0_main_arg6 _
theorem W2_arg6 : W2 m ρ c (Proc.devRef .tc main_arg6) = (m ((c : Thread nD τ).loc main_arg6)) := (k01_main_arg6 _).trans (W1_arg6 m ρ c)
theorem W3_arg6 : W3 m ρ c (Proc.devRef .tc main_arg6) = (m ((c : Thread nD τ).loc main_arg6)) := (k02_main_arg6 _).trans (W2_arg6 m ρ c)
theorem W1_arg7 : W1 m ρ c (Proc.devRef .tc main_arg7) = (m ((c : Thread nD τ).loc main_arg7)) := k0_main_arg7 _
theorem W2_arg7 : W2 m ρ c (Proc.devRef .tc main_arg7) = (m ((c : Thread nD τ).loc main_arg7)) := (k01_main_arg7 _).trans (W1_arg7 m ρ c)
theorem W3_arg7 : W3 m ρ c (Proc.devRef .tc main_arg7) = (m ((c : Thread nD τ).loc main_arg7)) := (k02_main_arg7 _).trans (W2_arg7 m ρ c)
theorem W1_arg8 : W1 m ρ c (Proc.devRef .tc main_arg8) = (m ((c : Thread nD τ).loc main_arg8)) := k0_main_arg8 _
theorem W2_arg8 : W2 m ρ c (Proc.devRef .tc main_arg8) = (m ((c : Thread nD τ).loc main_arg8)) := (k01_main_arg8 _).trans (W1_arg8 m ρ c)
theorem W3_arg8 : W3 m ρ c (Proc.devRef .tc main_arg8) = (m ((c : Thread nD τ).loc main_arg8)) := (k02_main_arg8 _).trans (W2_arg8 m ρ c)
theorem W1_arg9 : W1 m ρ c (Proc.devRef .tc main_arg9) = (m ((c : Thread nD τ).loc main_arg9)) := k0_main_arg9 _
theorem W2_arg9 : W2 m ρ c (Proc.devRef .tc main_arg9) = (m ((c : Thread nD τ).loc main_arg9)) := (k01_main_arg9 _).trans (W1_arg9 m ρ c)
theorem W3_arg9 : W3 m ρ c (Proc.devRef .tc main_arg9) = (m ((c : Thread nD τ).loc main_arg9)) := (k02_main_arg9 _).trans (W2_arg9 m ρ c)
theorem W1_arg10 : W1 m ρ c (Proc.devRef .tc main_arg10) = (m ((c : Thread nD τ).loc main_arg10)) := k0_main_arg10 _
theorem W2_arg10 : W2 m ρ c (Proc.devRef .tc main_arg10) = (m ((c : Thread nD τ).loc main_arg10)) := (k01_main_arg10 _).trans (W1_arg10 m ρ c)
theorem W3_arg10 : W3 m ρ c (Proc.devRef .tc main_arg10) = (m ((c : Thread nD τ).loc main_arg10)) := (k02_main_arg10 _).trans (W2_arg10 m ρ c)
theorem W1_arg11 : W1 m ρ c (Proc.devRef .tc main_arg11) = (m ((c : Thread nD τ).loc main_arg11)) := k0_main_arg11 _
theorem W2_arg11 : W2 m ρ c (Proc.devRef .tc main_arg11) = (m ((c : Thread nD τ).loc main_arg11)) := (k01_main_arg11 _).trans (W1_arg11 m ρ c)
theorem W3_arg11 : W3 m ρ c (Proc.devRef .tc main_arg11) = (m ((c : Thread nD τ).loc main_arg11)) := (k02_main_arg11 _).trans (W2_arg11 m ρ c)
theorem W1_arg12 : W1 m ρ c (Proc.devRef .tc main_arg12) = (m ((c : Thread nD τ).loc main_arg12)) := k0_main_arg12 _
theorem W2_arg12 : W2 m ρ c (Proc.devRef .tc main_arg12) = (m ((c : Thread nD τ).loc main_arg12)) := (k01_main_arg12 _).trans (W1_arg12 m ρ c)
theorem W3_arg12 : W3 m ρ c (Proc.devRef .tc main_arg12) = (m ((c : Thread nD τ).loc main_arg12)) := (k02_main_arg12 _).trans (W2_arg12 m ρ c)
theorem W1_arg13 : W1 m ρ c (Proc.devRef .tc main_arg13) = (m ((c : Thread nD τ).loc main_arg13)) := k0_main_arg13 _
theorem W2_arg13 : W2 m ρ c (Proc.devRef .tc main_arg13) = (m ((c : Thread nD τ).loc main_arg13)) := (k01_main_arg13 _).trans (W1_arg13 m ρ c)
theorem W3_arg13 : W3 m ρ c (Proc.devRef .tc main_arg13) = (m ((c : Thread nD τ).loc main_arg13)) := (k02_main_arg13 _).trans (W2_arg13 m ρ c)
theorem W1_arg14 : W1 m ρ c (Proc.devRef .tc main_arg14) = (m ((c : Thread nD τ).loc main_arg14)) := k0_main_arg14 _
theorem W2_arg14 : W2 m ρ c (Proc.devRef .tc main_arg14) = (m ((c : Thread nD τ).loc main_arg14)) := (k01_main_arg14 _).trans (W1_arg14 m ρ c)
theorem W3_arg14 : W3 m ρ c (Proc.devRef .tc main_arg14) = (m ((c : Thread nD τ).loc main_arg14)) := (k02_main_arg14 _).trans (W2_arg14 m ρ c)
theorem W1_arg15 : W1 m ρ c (Proc.devRef .tc main_arg15) = (m ((c : Thread nD τ).loc main_arg15)) := k0_main_arg15 _
theorem W2_arg15 : W2 m ρ c (Proc.devRef .tc main_arg15) = (m ((c : Thread nD τ).loc main_arg15)) := (k01_main_arg15 _).trans (W1_arg15 m ρ c)
theorem W3_arg15 : W3 m ρ c (Proc.devRef .tc main_arg15) = (m ((c : Thread nD τ).loc main_arg15)) := (k02_main_arg15 _).trans (W2_arg15 m ρ c)

theorem W4_arg3 : W4 m ρ c (Proc.devRef .tc main_arg3) = (m ((c : Thread nD τ).loc main_arg3)) := (W4_of_ne m ρ c main_arg3 (by decide)).trans (W3_arg3 m ρ c)
theorem W5_arg3 : W5 m ρ c (Proc.devRef .tc main_arg3) = (m ((c : Thread nD τ).loc main_arg3)) := (k1_main_arg3 _).trans (W4_arg3 m ρ c)
theorem W4_arg4 : W4 m ρ c (Proc.devRef .tc main_arg4) = (m ((c : Thread nD τ).loc main_arg4)) := (W4_of_ne m ρ c main_arg4 (by decide)).trans (W3_arg4 m ρ c)
theorem W5_arg4 : W5 m ρ c (Proc.devRef .tc main_arg4) = (m ((c : Thread nD τ).loc main_arg4)) := (k1_main_arg4 _).trans (W4_arg4 m ρ c)
theorem W4_arg5 : W4 m ρ c (Proc.devRef .tc main_arg5) = (m ((c : Thread nD τ).loc main_arg5)) := (W4_of_ne m ρ c main_arg5 (by decide)).trans (W3_arg5 m ρ c)
theorem W5_arg5 : W5 m ρ c (Proc.devRef .tc main_arg5) = (m ((c : Thread nD τ).loc main_arg5)) := (k1_main_arg5 _).trans (W4_arg5 m ρ c)
theorem W4_arg6 : W4 m ρ c (Proc.devRef .tc main_arg6) = (m ((c : Thread nD τ).loc main_arg6)) := (W4_of_ne m ρ c main_arg6 (by decide)).trans (W3_arg6 m ρ c)
theorem W5_arg6 : W5 m ρ c (Proc.devRef .tc main_arg6) = (m ((c : Thread nD τ).loc main_arg6)) := (k1_main_arg6 _).trans (W4_arg6 m ρ c)
theorem W4_arg7 : W4 m ρ c (Proc.devRef .tc main_arg7) = (m ((c : Thread nD τ).loc main_arg7)) := (W4_of_ne m ρ c main_arg7 (by decide)).trans (W3_arg7 m ρ c)
theorem W5_arg7 : W5 m ρ c (Proc.devRef .tc main_arg7) = (m ((c : Thread nD τ).loc main_arg7)) := (k1_main_arg7 _).trans (W4_arg7 m ρ c)
theorem W4_arg8 : W4 m ρ c (Proc.devRef .tc main_arg8) = (m ((c : Thread nD τ).loc main_arg8)) := (W4_of_ne m ρ c main_arg8 (by decide)).trans (W3_arg8 m ρ c)
theorem W5_arg8 : W5 m ρ c (Proc.devRef .tc main_arg8) = (m ((c : Thread nD τ).loc main_arg8)) := (k1_main_arg8 _).trans (W4_arg8 m ρ c)
theorem W4_arg9 : W4 m ρ c (Proc.devRef .tc main_arg9) = (m ((c : Thread nD τ).loc main_arg9)) := (W4_of_ne m ρ c main_arg9 (by decide)).trans (W3_arg9 m ρ c)
theorem W5_arg9 : W5 m ρ c (Proc.devRef .tc main_arg9) = (m ((c : Thread nD τ).loc main_arg9)) := (k1_main_arg9 _).trans (W4_arg9 m ρ c)
theorem W4_arg12 : W4 m ρ c (Proc.devRef .tc main_arg12) = (m ((c : Thread nD τ).loc main_arg12)) := (W4_of_ne m ρ c main_arg12 (by decide)).trans (W3_arg12 m ρ c)
theorem W5_arg12 : W5 m ρ c (Proc.devRef .tc main_arg12) = (m ((c : Thread nD τ).loc main_arg12)) := (k1_main_arg12 _).trans (W4_arg12 m ρ c)
theorem W4_arg13 : W4 m ρ c (Proc.devRef .tc main_arg13) = (m ((c : Thread nD τ).loc main_arg13)) := (W4_of_ne m ρ c main_arg13 (by decide)).trans (W3_arg13 m ρ c)
theorem W5_arg13 : W5 m ρ c (Proc.devRef .tc main_arg13) = (m ((c : Thread nD τ).loc main_arg13)) := (k1_main_arg13 _).trans (W4_arg13 m ρ c)
theorem W4_arg14 : W4 m ρ c (Proc.devRef .tc main_arg14) = (m ((c : Thread nD τ).loc main_arg14)) := (W4_of_ne m ρ c main_arg14 (by decide)).trans (W3_arg14 m ρ c)
theorem W5_arg14 : W5 m ρ c (Proc.devRef .tc main_arg14) = (m ((c : Thread nD τ).loc main_arg14)) := (k1_main_arg14 _).trans (W4_arg14 m ρ c)
theorem W4_arg15 : W4 m ρ c (Proc.devRef .tc main_arg15) = (m ((c : Thread nD τ).loc main_arg15)) := (W4_of_ne m ρ c main_arg15 (by decide)).trans (W3_arg15 m ρ c)
theorem W5_arg15 : W5 m ρ c (Proc.devRef .tc main_arg15) = (m ((c : Thread nD τ).loc main_arg15)) := (k1_main_arg15 _).trans (W4_arg15 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)
theorem W6_arg12 : W6 m ρ c (Proc.devRef .tc main_arg12) = (m ((c : Thread nD τ).loc main_arg12)) := (W6_of_ne m ρ c main_arg12 (by decide)).trans (W5_arg12 m ρ c)
theorem W6_arg13 : W6 m ρ c (Proc.devRef .tc main_arg13) = (m ((c : Thread nD τ).loc main_arg13)) := (W6_of_ne m ρ c main_arg13 (by decide)).trans (W5_arg13 m ρ c)
theorem W6_arg14 : W6 m ρ c (Proc.devRef .tc main_arg14) = (m ((c : Thread nD τ).loc main_arg14)) := (W6_of_ne m ρ c main_arg14 (by decide)).trans (W5_arg14 m ρ c)
theorem W6_arg15 : W6 m ρ c (Proc.devRef .tc main_arg15) = (m ((c : Thread nD τ).loc main_arg15)) := (W6_of_ne m ρ c main_arg15 (by decide)).trans (W5_arg15 m ρ c)
theorem W7_arg7 : W7 m ρ c (Proc.devRef .tc main_arg7) = (m ((c : Thread nD τ).loc main_arg7)) := (W7_of_ne m ρ c main_arg7 (by decide)).trans (W6_arg7 m ρ c)
theorem W8_arg7 : W8 m ρ c (Proc.devRef .tc main_arg7) = (m ((c : Thread nD τ).loc main_arg7)) := (k3_main_arg7 _).trans (W7_arg7 m ρ c)
theorem W7_arg8 : W7 m ρ c (Proc.devRef .tc main_arg8) = (m ((c : Thread nD τ).loc main_arg8)) := (W7_of_ne m ρ c main_arg8 (by decide)).trans (W6_arg8 m ρ c)
theorem W8_arg8 : W8 m ρ c (Proc.devRef .tc main_arg8) = (m ((c : Thread nD τ).loc main_arg8)) := (k3_main_arg8 _).trans (W7_arg8 m ρ c)
theorem W7_arg9 : W7 m ρ c (Proc.devRef .tc main_arg9) = (m ((c : Thread nD τ).loc main_arg9)) := (W7_of_ne m ρ c main_arg9 (by decide)).trans (W6_arg9 m ρ c)
theorem W8_arg9 : W8 m ρ c (Proc.devRef .tc main_arg9) = (m ((c : Thread nD τ).loc main_arg9)) := (k3_main_arg9 _).trans (W7_arg9 m ρ c)
theorem W7_arg12 : W7 m ρ c (Proc.devRef .tc main_arg12) = (m ((c : Thread nD τ).loc main_arg12)) := (W7_of_ne m ρ c main_arg12 (by decide)).trans (W6_arg12 m ρ c)
theorem W8_arg12 : W8 m ρ c (Proc.devRef .tc main_arg12) = (m ((c : Thread nD τ).loc main_arg12)) := (k3_main_arg12 _).trans (W7_arg12 m ρ c)
theorem W7_arg13 : W7 m ρ c (Proc.devRef .tc main_arg13) = (m ((c : Thread nD τ).loc main_arg13)) := (W7_of_ne m ρ c main_arg13 (by decide)).trans (W6_arg13 m ρ c)
theorem W8_arg13 : W8 m ρ c (Proc.devRef .tc main_arg13) = (m ((c : Thread nD τ).loc main_arg13)) := (k3_main_arg13 _).trans (W7_arg13 m ρ c)
theorem W7_arg14 : W7 m ρ c (Proc.devRef .tc main_arg14) = (m ((c : Thread nD τ).loc main_arg14)) := (W7_of_ne m ρ c main_arg14 (by decide)).trans (W6_arg14 m ρ c)
theorem W8_arg14 : W8 m ρ c (Proc.devRef .tc main_arg14) = (m ((c : Thread nD τ).loc main_arg14)) := (k3_main_arg14 _).trans (W7_arg14 m ρ c)
theorem W7_arg15 : W7 m ρ c (Proc.devRef .tc main_arg15) = (m ((c : Thread nD τ).loc main_arg15)) := (W7_of_ne m ρ c main_arg15 (by decide)).trans (W6_arg15 m ρ c)
theorem W8_arg15 : W8 m ρ c (Proc.devRef .tc main_arg15) = (m ((c : Thread nD τ).loc main_arg15)) := (k3_main_arg15 _).trans (W7_arg15 m ρ c)

/-! ## The edge ends and the edge normalisation -/

theorem W1_v1 : W1 m ρ c (Proc.devRef .tc main_v1) = Cert.ReferenceIdeal.ReadP.val_main_v1 (F := Ideal) (m ((c : Thread nD τ).loc main_arg1)) := s0_v1 _
theorem W1_v3 : W1 m ρ c (Proc.devRef .tc main_v3) = Cert.ReferenceIdeal.ReadP.val_main_v3 (F := Ideal) (m ((c : Thread nD τ).loc main_arg1)) := s0_v3 _
theorem W1_v9 : W1 m ρ c (Proc.devRef .tc main_v9) = Cert.ReferenceIdeal.ReadP.val_main_v9 (F := Ideal) (m ((c : Thread nD τ).loc main_arg1)) := s0_v9 _
theorem W1_v12 : W1 m ρ c (Proc.devRef .tc main_v12) = Cert.ReferenceIdeal.ReadP.val_main_v12 (F := Ideal) (m ((c : Thread nD τ).loc main_arg1)) := s0_v12 _
theorem W1_cst3 : W1 m ρ c (Proc.devRef .tc main_cst_3) = constant (F := Ideal) S_ .f32 0x00000000#32 := s0_cst3 _
theorem W2_v1 : W2 m ρ c (Proc.devRef .tc main_v1) = Cert.ReferenceIdeal.ReadP.val_main_v1 (F := Ideal) (m ((c : Thread nD τ).loc main_arg1)) := (k01_main_v1 _).trans (W1_v1 m ρ c)
theorem W2_v3 : W2 m ρ c (Proc.devRef .tc main_v3) = Cert.ReferenceIdeal.ReadP.val_main_v3 (F := Ideal) (m ((c : Thread nD τ).loc main_arg1)) := (k01_main_v3 _).trans (W1_v3 m ρ c)
theorem W2_v13 : W2 m ρ c (Proc.devRef .tc main_v13) = Cert.ReferenceIdeal.ReadP.val_main_v17 (F := Ideal) (m ((c : Thread nD τ).loc main_arg1)) :=
  s01_v13 _ _ (W1_v9 m ρ c) (W1_v12 m ρ c) (W1_cst3 m ρ c)
theorem W3_v1 : W3 m ρ c (Proc.devRef .tc main_v1) = Cert.ReferenceIdeal.ReadP.val_main_v1 (F := Ideal) (m ((c : Thread nD τ).loc main_arg1)) := (k02_main_v1 _).trans (W2_v1 m ρ c)
theorem W3_v3 : W3 m ρ c (Proc.devRef .tc main_v3) = Cert.ReferenceIdeal.ReadP.val_main_v3 (F := Ideal) (m ((c : Thread nD τ).loc main_arg1)) := (k02_main_v3 _).trans (W2_v3 m ρ c)
theorem W3_v28 : W3 m ρ c (Proc.devRef .tc main_v28) = Cert.ReferenceIdeal.ReadP.val_main_v32 (F := Ideal) (m ((c : Thread nD τ).loc main_arg1)) :=
  s02_v28 _ _ (W2_v1 m ρ c) (W2_v3 m ρ c) (W2_v13 m ρ c)

/-! ## Region 0: the two projections -/

theorem W4_v29_0 : W4 m ρ c (Proc.devRef .tc main_v29_0) = Cert.ReferenceIdeal.ReadP.val_main_v37 (F := Ideal) (m ((c : Thread nD τ).loc main_arg0)) (m ((c : Thread nD τ).loc main_arg2)) :=
  (W4_arr m ρ c 4).trans ((Fin0.final4' (V3 m ρ) c _ _ (W3_arg0 m ρ c) (W3_arg2 m ρ c)).trans (v37_fun _ _).symm)
theorem W4_v29_1 : W4 m ρ c (Proc.devRef .tc main_v29_1) = Cert.ReferenceIdeal.ReadP.val_main_v36 (F := Ideal) (m ((c : Thread nD τ).loc main_arg0)) (m ((c : Thread nD τ).loc main_arg10)) (m ((c : Thread nD τ).loc main_arg11)) :=
  (W4_arr m ρ c 5).trans ((Fin0.final5' (V3 m ρ) c _ _ _ (W3_arg0 m ρ c) (W3_arg10 m ρ c) (W3_arg11 m ρ c)).trans (v36_fun _ _ _).symm)
theorem W4_v1 : W4 m ρ c (Proc.devRef .tc main_v1) = Cert.ReferenceIdeal.ReadP.val_main_v1 (F := Ideal) (m ((c : Thread nD τ).loc main_arg1)) := (W4_of_ne m ρ c main_v1 (by decide)).trans (W3_v1 m ρ c)
theorem W4_v3 : W4 m ρ c (Proc.devRef .tc main_v3) = Cert.ReferenceIdeal.ReadP.val_main_v3 (F := Ideal) (m ((c : Thread nD τ).loc main_arg1)) := (W4_of_ne m ρ c main_v3 (by decide)).trans (W3_v3 m ρ c)
theorem W4_v28 : W4 m ρ c (Proc.devRef .tc main_v28) = Cert.ReferenceIdeal.ReadP.val_main_v32 (F := Ideal) (m ((c : Thread nD τ).loc main_arg1)) := (W4_of_ne m ρ c main_v28 (by decide)).trans (W3_v28 m ρ c)

/-! ## The first aggregation -/

theorem W5_v42 : W5 m ρ c (Proc.devRef .tc main_v42) = Cert.ReferenceIdeal.ReadP.val_main_v50 (F := Ideal) (m ((c : Thread nD τ).loc main_arg0)) (m ((c : Thread nD τ).loc main_arg1)) (m ((c : Thread nD τ).loc main_arg2)) :=
  s1_v42 _ _ _ _ (W4_v1 m ρ c) (W4_v3 m ρ c) (W4_v28 m ρ c) (W4_v29_0 m ρ c)
theorem W5_v1 : W5 m ρ c (Proc.devRef .tc main_v1) = Cert.ReferenceIdeal.ReadP.val_main_v1 (F := Ideal) (m ((c : Thread nD τ).loc main_arg1)) := (k1_main_v1 _).trans (W4_v1 m ρ c)
theorem W5_v3 : W5 m ρ c (Proc.devRef .tc main_v3) = Cert.ReferenceIdeal.ReadP.val_main_v3 (F := Ideal) (m ((c : Thread nD τ).loc main_arg1)) := (k1_main_v3 _).trans (W4_v3 m ρ c)
theorem W5_v28 : W5 m ρ c (Proc.devRef .tc main_v28) = Cert.ReferenceIdeal.ReadP.val_main_v32 (F := Ideal) (m ((c : Thread nD τ).loc main_arg1)) := (k1_main_v28 _).trans (W4_v28 m ρ c)
theorem W5_v29_1 : W5 m ρ c (Proc.devRef .tc main_v29_1) = Cert.ReferenceIdeal.ReadP.val_main_v36 (F := Ideal) (m ((c : Thread nD τ).loc main_arg0)) (m ((c : Thread nD τ).loc main_arg10)) (m ((c : Thread nD τ).loc main_arg11)) := (k1_main_v29_1 _).trans (W4_v29_1 m ρ c)

/-! ## Region 1: normalise and clip -/

theorem W6_v43 : W6 m ρ c (Proc.devRef .tc main_v43) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 4).trans ((Fin1.final4' (V5 m ρ) c _ _ _ _ (W5_v42 m ρ c) (W5_arg3 m ρ c) (W5_arg4 m ρ c) (W5_arg5 m ρ c)).trans
    (v78_fun _ _ _ _ _ _).symm)
theorem W6_v1 : W6 m ρ c (Proc.devRef .tc main_v1) = Cert.ReferenceIdeal.ReadP.val_main_v1 (F := Ideal) (m ((c : Thread nD τ).loc main_arg1)) := (W6_of_ne m ρ c main_v1 (by decide)).trans (W5_v1 m ρ c)
theorem W6_v3 : W6 m ρ c (Proc.devRef .tc main_v3) = Cert.ReferenceIdeal.ReadP.val_main_v3 (F := Ideal) (m ((c : Thread nD τ).loc main_arg1)) := (W6_of_ne m ρ c main_v3 (by decide)).trans (W5_v3 m ρ c)
theorem W6_v28 : W6 m ρ c (Proc.devRef .tc main_v28) = Cert.ReferenceIdeal.ReadP.val_main_v32 (F := Ideal) (m ((c : Thread nD τ).loc main_arg1)) := (W6_of_ne m ρ c main_v28 (by decide)).trans (W5_v28 m ρ c)
theorem W6_v29_1 : W6 m ρ c (Proc.devRef .tc main_v29_1) = Cert.ReferenceIdeal.ReadP.val_main_v36 (F := Ideal) (m ((c : Thread nD τ).loc main_arg0)) (m ((c : Thread nD τ).loc main_arg10)) (m ((c : Thread nD τ).loc main_arg11)) := (W6_of_ne m ρ c main_v29_1 (by decide)).trans (W5_v29_1 m ρ c)

/-! ## Region 2: the second layer's product -/

theorem W7_v44 : W7 m ρ c (Proc.devRef .tc main_v44) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W7_arr m ρ c 2).trans ((Fin2.final2' (V6 m ρ) c _ _ (W6_v43 m ρ c) (W6_arg6 m ρ c)).trans (v79_fun _ _ _ _ _ _ _).symm)
theorem W7_v1 : W7 m ρ c (Proc.devRef .tc main_v1) = Cert.ReferenceIdeal.ReadP.val_main_v1 (F := Ideal) (m ((c : Thread nD τ).loc main_arg1)) := (W7_of_ne m ρ c main_v1 (by decide)).trans (W6_v1 m ρ c)
theorem W7_v3 : W7 m ρ c (Proc.devRef .tc main_v3) = Cert.ReferenceIdeal.ReadP.val_main_v3 (F := Ideal) (m ((c : Thread nD τ).loc main_arg1)) := (W7_of_ne m ρ c main_v3 (by decide)).trans (W6_v3 m ρ c)
theorem W7_v28 : W7 m ρ c (Proc.devRef .tc main_v28) = Cert.ReferenceIdeal.ReadP.val_main_v32 (F := Ideal) (m ((c : Thread nD τ).loc main_arg1)) := (W7_of_ne m ρ c main_v28 (by decide)).trans (W6_v28 m ρ c)
theorem W7_v29_1 : W7 m ρ c (Proc.devRef .tc main_v29_1) = Cert.ReferenceIdeal.ReadP.val_main_v36 (F := Ideal) (m ((c : Thread nD τ).loc main_arg0)) (m ((c : Thread nD τ).loc main_arg10)) (m ((c : Thread nD τ).loc main_arg11)) := (W7_of_ne m ρ c main_v29_1 (by decide)).trans (W6_v29_1 m ρ c)

/-! ## The second aggregation -/

theorem W8_v57 : W8 m ρ c (Proc.devRef .tc main_v57) = Cert.ReferenceIdeal.ReadP.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  s3_v57 _ _ _ _ _ _ _ _ (W7_v1 m ρ c) (W7_v3 m ρ c) (W7_v28 m ρ c) (W7_v44 m ρ c)
theorem W8_v29_1 : W8 m ρ c (Proc.devRef .tc main_v29_1) = Cert.ReferenceIdeal.ReadP.val_main_v36 (F := Ideal) (m ((c : Thread nD τ).loc main_arg0)) (m ((c : Thread nD τ).loc main_arg10)) (m ((c : Thread nD τ).loc main_arg11)) := (k3_main_v29_1 _).trans (W7_v29_1 m ρ c)

/-! ## Region 3: the head, and the result -/

theorem W9_v58 : W9 m ρ c (Proc.devRef .tc main_v58) = Cert.ReferenceIdeal.ReadP.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W9_arr m ρ c 9).trans ((Fin3.final9' (V8 m ρ) c _ _ _ _ _ _ _ _ _ (W8_v57 m ρ c) (W8_v29_1 m ρ c) (W8_arg7 m ρ c) (W8_arg8 m ρ c) (W8_arg9 m ρ c)
      (W8_arg12 m ρ c) (W8_arg13 m ρ c) (W8_arg14 m ρ c) (W8_arg15 m ρ c)).trans
    (v131_fun _ _ _ _ _ _ _ _ _ _ _ _ _ _ _ _).symm)

/-- The kernel program's result buffer ends at the reference's result stage of the launch arguments. -/
theorem W10_v59 : W10 m ρ c (Proc.devRef .tc main_v59) = Cert.ReferenceIdeal.ReadP.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  s4_v59 _ _ _ _ _ _ _ _ _ _ _ _ _ _ _ _ _ (W9_v58 m ρ c)

end Cert.KernelIdeal.Chain

end
-- ==== Proof.RefRun.lean ====
/-
  The reference program's run, read back piece by piece.

  The reference is one line of 180 host operations.  Written out as ONE term of the arguments its result repeats
  every shared operand at each use (two normalisation stages, each reading its input several times, nest
  multiplicatively).  Here the line is read in sixteen consecutive pieces: `W k` is the contents of the buffers
  after the first `k` operations, a piece's output is the stage of that name of the generated stage list given
  that the piece's inputs are, and a buffer that no operation of a stretch of the line writes keeps its contents
  through it (decided over the operations' result buffers).
-/
import proofs.«111997_j21251498181391_1_alg».proof.Proof.RefOps
import proofs.«111997_j21251498181391_1_alg».proof.Proof.RefVals
import Idealize.ShloMosaic.Lib.Pipeline.Frame

set_option maxRecDepth 200000

noncomputable section

namespace Cert.ReferenceIdeal.Pieces

open Cert.ReferenceIdeal Cert.ReferenceIdeal.Gen Cert.ReferenceIdeal.ReadP
open Idealize.ShloMosaic Idealize.ShloMosaic.TcCoe Idealize.SL.Sem Idealize.ShloMosaic.StableHlo

open Lean Meta Elab Tactic in
/-- Writes the goal's sub-list `List.take n (List.drop a l)` of a literal list as the literal list of its elements: the
    list's spine is computed, the elements are left as they are. -/
elab "list_spine" : tactic => do
  let g ← getMainGoal
  let tgt ← instantiateMVars (← g.getType)
  let some e := tgt.find? (fun e => e.isAppOf ``List.take) | throwError "no List.take in the goal"
  let rec norm (e : Expr) (fuel : Nat) : MetaM Expr := do
    match fuel with
    | 0 => return e
    | fuel + 1 =>
      let e' ← whnf e
      if e'.isAppOfArity ``List.cons 3 then
        let args := e'.getAppArgs
        return mkAppN e'.getAppFn #[args[0]!, args[1]!, ← norm args[2]! fuel]
      else
        return e'
  let e' ← norm e 400
  let tgt' := tgt.replace fun x => if x == e then some e' else none
  let g' ← g.change tgt'
  replaceMainGoal [g']

/-- The whole line. -/
abbrev OPS : List (HloOp τ sig (Elt Ideal)) := ValueP.ops (F := Ideal)

variable (V : Valuation τ sig (Elt Ideal))

/-- The buffers' contents after the first `k` operations of the line. -/
def W (k : ℕ) : Valuation τ sig (Elt Ideal) := after (OPS.take k) V

/-- `n` more operations after the first `a`. -/
theorem W_add (a n : ℕ) : W V (a + n) = after ((OPS.drop a).take n) (W V a) := by
  unfold W
  rw [List.take_add, StableHlo.after_append]

theorem W_all : W V 180 = after OPS V := by
  unfold W
  rw [List.take_of_length_le (le_of_eq (by rfl))]

/-! ## The launch arguments are never written -/

theorem nw_arg0 : ∀ op ∈ OPS, (Proc.devRef .tc main_arg0 : DevRef τ sig) ∉ op.writes := by decide
theorem W_arg0 (k : ℕ) : W V k (Proc.devRef .tc main_arg0) = V (Proc.devRef .tc main_arg0) :=
  after_of_forall_not_mem _ _ fun op h => nw_arg0 op (List.mem_of_mem_take h)
theorem nw_arg1 : ∀ op ∈ OPS, (Proc.devRef .tc main_arg1 : DevRef τ sig) ∉ op.writes := by decide
theorem W_arg1 (k : ℕ) : W V k (Proc.devRef .tc main_arg1) = V (Proc.devRef .tc main_arg1) :=
  after_of_forall_not_mem _ _ fun op h => nw_arg1 op (List.mem_of_mem_take h)
theorem nw_arg2 : ∀ op ∈ OPS, (Proc.devRef .tc main_arg2 : DevRef τ sig) ∉ op.writes := by decide
theorem W_arg2 (k : ℕ) : W V k (Proc.devRef .tc main_arg2) = V (Proc.devRef .tc main_arg2) :=
  after_of_forall_not_mem _ _ fun op h => nw_arg2 op (List.mem_of_mem_take h)
theorem nw_arg3 : ∀ op ∈ OPS, (Proc.devRef .tc main_arg3 : DevRef τ sig) ∉ op.writes := by decide
theorem W_arg3 (k : ℕ) : W V k (Proc.devRef .tc main_arg3) = V (Proc.devRef .tc main_arg3) :=
  after_of_forall_not_mem _ _ fun op h => nw_arg3 op (List.mem_of_mem_take h)
theorem nw_arg4 : ∀ op ∈ OPS, (Proc.devRef .tc main_arg4 : DevRef τ sig) ∉ op.writes := by decide
theorem W_arg4 (k : ℕ) : W V k (Proc.devRef .tc main_arg4) = V (Proc.devRef .tc main_arg4) :=
  after_of_forall_not_mem _ _ fun op h => nw_arg4 op (List.mem_of_mem_take h)
theorem nw_arg5 : ∀ op ∈ OPS, (Proc.devRef .tc main_arg5 : DevRef τ sig) ∉ op.writes := by decide
theorem W_arg5 (k : ℕ) : W V k (Proc.devRef .tc main_arg5) = V (Proc.devRef .tc main_arg5) :=
  after_of_forall_not_mem _ _ fun op h => nw_arg5 op (List.mem_of_mem_take h)
theorem nw_arg6 : ∀ op ∈ OPS, (Proc.devRef .tc main_arg6 : DevRef τ sig) ∉ op.writes := by decide
theorem W_arg6 (k : ℕ) : W V k (Proc.devRef .tc main_arg6) = V (Proc.devRef .tc main_arg6) :=
  after_of_forall_not_mem _ _ fun op h => nw_arg6 op (List.mem_of_mem_take h)
theorem nw_arg7 : ∀ op ∈ OPS, (Proc.devRef .tc main_arg7 : DevRef τ sig) ∉ op.writes := by decide
theorem W_arg7 (k : ℕ) : W V k (Proc.devRef .tc main_arg7) = V (Proc.devRef .tc main_arg7) :=
  after_of_forall_not_mem _ _ fun op h => nw_arg7 op (List.mem_of_mem_take h)
theorem nw_arg8 : ∀ op ∈ OPS, (Proc.devRef .tc main_arg8 : DevRef τ sig) ∉ op.writes := by decide
theorem W_arg8 (k : ℕ) : W V k (Proc.devRef .tc main_arg8) = V (Proc.devRef .tc main_arg8) :=
  after_of_forall_not_mem _ _ fun op h => nw_arg8 op (List.mem_of_mem_take h)
theorem nw_arg9 : ∀ op ∈ OPS, (Proc.devRef .tc main_arg9 : DevRef τ sig) ∉ op.writes := by decide
theorem W_arg9 (k : ℕ) : W V k (Proc.devRef .tc main_arg9) = V (Proc.devRef .tc main_arg9) :=
  after_of_forall_not_mem _ _ fun op h => nw_arg9 op (List.mem_of_mem_take h)
theorem nw_arg10 : ∀ op ∈ OPS, (Proc.devRef .tc main_arg10 : DevRef τ sig) ∉ op.writes := by decide
theorem W_arg10 (k : ℕ) : W V k (Proc.devRef .tc main_arg10) = V (Proc.devRef .tc main_arg10) :=
  after_of_forall_not_mem _ _ fun op h => nw_arg10 op (List.mem_of_mem_take h)
theorem nw_arg11 : ∀ op ∈ OPS, (Proc.devRef .tc main_arg11 : DevRef τ sig) ∉ op.writes := by decide
theorem W_arg11 (k : ℕ) : W V k (Proc.devRef .tc main_arg11) = V (Proc.devRef .tc main_arg11) :=
  after_of_forall_not_mem _ _ fun op h => nw_arg11 op (List.mem_of_mem_take h)
theorem nw_arg12 : ∀ op ∈ OPS, (Proc.devRef .tc main_arg12 : DevRef τ sig) ∉ op.writes := by decide
theorem W_arg12 (k : ℕ) : W V k (Proc.devRef .tc main_arg12) = V (Proc.devRef .tc main_arg12) :=
  after_of_forall_not_mem _ _ fun op h => nw_arg12 op (List.mem_of_mem_take h)
theorem nw_arg13 : ∀ op ∈ OPS, (Proc.devRef .tc main_arg13 : DevRef τ sig) ∉ op.writes := by decide
theorem W_arg13 (k : ℕ) : W V k (Proc.devRef .tc main_arg13) = V (Proc.devRef .tc main_arg13) :=
  after_of_forall_not_mem _ _ fun op h => nw_arg13 op (List.mem_of_mem_take h)
theorem nw_arg14 : ∀ op ∈ OPS, (Proc.devRef .tc main_arg14 : DevRef τ sig) ∉ op.writes := by decide
theorem W_arg14 (k : ℕ) : W V k (Proc.devRef .tc main_arg14) = V (Proc.devRef .tc main_arg14) :=
  after_of_forall_not_mem _ _ fun op h => nw_arg14 op (List.mem_of_mem_take h)
theorem nw_arg15 : ∀ op ∈ OPS, (Proc.devRef .tc main_arg15 : DevRef τ sig) ∉ op.writes := by decide
theorem W_arg15 (k : ℕ) : W V k (Proc.devRef .tc main_arg15) = V (Proc.devRef .tc main_arg15) :=
  after_of_forall_not_mem _ _ fun op h => nw_arg15 op (List.mem_of_mem_take h)

/-! ## Buffers kept through a stretch of the line -/

theorem keep_main_v1_4_26 : W V 26 (Proc.devRef .tc main_v1) = W V 4 (Proc.devRef .tc main_v1) := by
  rw [show (26 : ℕ) = 4 + 22 from rfl, W_add]
  exact after_of_forall_not_mem _ _ (by decide)
theorem keep_main_v1_4_50 : W V 50 (Proc.devRef .tc main_v1) = W V 4 (Proc.devRef .tc main_v1) := by
  rw [show (50 : ℕ) = 4 + 46 from rfl, W_add]
  exact after_of_forall_not_mem _ _ (by decide)
theorem keep_main_v1_4_102 : W V 102 (Proc.devRef .tc main_v1) = W V 4 (Proc.devRef .tc main_v1) := by
  rw [show (102 : ℕ) = 4 + 98 from rfl, W_add]
  exact after_of_forall_not_mem _ _ (by decide)
theorem keep_main_v3_4_26 : W V 26 (Proc.devRef .tc main_v3) = W V 4 (Proc.devRef .tc main_v3) := by
  rw [show (26 : ℕ) = 4 + 22 from rfl, W_add]
  exact after_of_forall_not_mem _ _ (by decide)
theorem keep_main_v3_4_50 : W V 50 (Proc.devRef .tc main_v3) = W V 4 (Proc.devRef .tc main_v3) := by
  rw [show (50 : ℕ) = 4 + 46 from rfl, W_add]
  exact after_of_forall_not_mem _ _ (by decide)
theorem keep_main_v3_4_102 : W V 102 (Proc.devRef .tc main_v3) = W V 4 (Proc.devRef .tc main_v3) := by
  rw [show (102 : ℕ) = 4 + 98 from rfl, W_add]
  exact after_of_forall_not_mem _ _ (by decide)
theorem keep_main_v32_45_50 : W V 50 (Proc.devRef .tc main_v32) = W V 45 (Proc.devRef .tc main_v32) := by
  rw [show (50 : ℕ) = 45 + 5 from rfl, W_add]
  exact after_of_forall_not_mem _ _ (by decide)
theorem keep_main_v32_45_102 : W V 102 (Proc.devRef .tc main_v32) = W V 45 (Proc.devRef .tc main_v32) := by
  rw [show (102 : ℕ) = 45 + 57 from rfl, W_add]
  exact after_of_forall_not_mem _ _ (by decide)
theorem keep_main_v36_50_153 : W V 153 (Proc.devRef .tc main_v36) = W V 50 (Proc.devRef .tc main_v36) := by
  rw [show (153 : ℕ) = 50 + 103 from rfl, W_add]
  exact after_of_forall_not_mem _ _ (by decide)

/-! ## What each piece computes -/

variable (U : Valuation τ sig (Elt Ideal))

theorem p1_v1 (x1 : (⟨S2x1600000, .i32⟩ : BufTy).Contents (Elt Ideal))
    (ha1 : U (Proc.devRef .tc main_arg1) = x1) :
    after ((OPS.drop 0).take 4) U (Proc.devRef .tc main_v1) = val_main_v1 (F := Ideal) x1 := by
  list_spine
  after_results_simp
  try simp only [TRef.toBuf, TRef.ofBuf, cast_eq]
  rw [ha1]
  simp only [val_main_v0, val_main_v1, val_main_v2, val_main_v3] <;> rfl

theorem p1_v3 (x1 : (⟨S2x1600000, .i32⟩ : BufTy).Contents (Elt Ideal))
    (ha1 : U (Proc.devRef .tc main_arg1) = x1) :
    after ((OPS.drop 0).take 4) U (Proc.devRef .tc main_v3) = val_main_v3 (F := Ideal) x1 := by
  list_spine
  after_results_simp
  try simp only [TRef.toBuf, TRef.ofBuf, cast_eq]
  rw [ha1]
  simp only [val_main_v0, val_main_v1, val_main_v2, val_main_v3] <;> rfl

theorem p2_v9 (x1 : (⟨S2x1600000, .i32⟩ : BufTy).Contents (Elt Ideal))
    (h_v3 : U (Proc.devRef .tc main_v3) = val_main_v3 (F := Ideal) x1) :
    after ((OPS.drop 4).take 19) U (Proc.devRef .tc main_v9) = val_main_v9 (F := Ideal) x1 := by
  list_spine
  after_results_simp
  try simp only [TRef.toBuf, TRef.ofBuf, cast_eq]
  rw [h_v3]
  simp only [val_main_cst, val_main_v4, val_main_cst_0, val_main_v5, val_main_v6, val_main_v7, val_main_cst_1, val_main_v8, val_main_v9, val_main_cst_2, val_main_v10, val_main_v11, val_main_v12, val_main_cst_3, val_main_v13, val_main_v14, val_main_v15, val_main_v16, val_main_cst_4] <;> rfl

theorem p2_v16 (x1 : (⟨S2x1600000, .i32⟩ : BufTy).Contents (Elt Ideal))
    (h_v3 : U (Proc.devRef .tc main_v3) = val_main_v3 (F := Ideal) x1) :
    after ((OPS.drop 4).take 19) U (Proc.devRef .tc main_v16) = val_main_v16 (F := Ideal) x1 := by
  list_spine
  after_results_simp
  try simp only [TRef.toBuf, TRef.ofBuf, cast_eq]
  rw [h_v3]
  simp only [val_main_cst, val_main_v4, val_main_cst_0, val_main_v5, val_main_v6, val_main_v7, val_main_cst_1, val_main_v8, val_main_v9, val_main_cst_2, val_main_v10, val_main_v11, val_main_v12, val_main_cst_3, val_main_v13, val_main_v14, val_main_v15, val_main_v16, val_main_cst_4] <;> rfl

theorem p2_cst_4
     :
    after ((OPS.drop 4).take 19) U (Proc.devRef .tc main_cst_4) = val_main_cst_4 (F := Ideal) := by
  list_spine
  after_results_simp
  try simp only [TRef.toBuf, TRef.ofBuf, cast_eq]
  skip
  simp only [val_main_cst, val_main_v4, val_main_cst_0, val_main_v5, val_main_v6, val_main_v7, val_main_cst_1, val_main_v8, val_main_v9, val_main_cst_2, val_main_v10, val_main_v11, val_main_v12, val_main_cst_3, val_main_v13, val_main_v14, val_main_v15, val_main_v16, val_main_cst_4] <;> rfl

theorem p3_v17 (x1 : (⟨S2x1600000, .i32⟩ : BufTy).Contents (Elt Ideal))
    (h_v9 : U (Proc.devRef .tc main_v9) = val_main_v9 (F := Ideal) x1)
    (h_v16 : U (Proc.devRef .tc main_v16) = val_main_v16 (F := Ideal) x1)
    (h_cst_4 : U (Proc.devRef .tc main_cst_4) = val_main_cst_4 (F := Ideal)) :
    after ((OPS.drop 23).take 3) U (Proc.devRef .tc main_v17) = val_main_v17 (F := Ideal) x1 := by
  list_spine
  after_results_simp
  try simp only [TRef.toBuf, TRef.ofBuf, cast_eq]
  rw [h_v9, h_v16, h_cst_4]
  simp only [val_main_call0_v0, val_main_call0_v1, val_main_v17] <;> rfl

theorem p4_v32 (x1 : (⟨S2x1600000, .i32⟩ : BufTy).Contents (Elt Ideal))
    (h_v1 : U (Proc.devRef .tc main_v1) = val_main_v1 (F := Ideal) x1)
    (h_v3 : U (Proc.devRef .tc main_v3) = val_main_v3 (F := Ideal) x1)
    (h_v17 : U (Proc.devRef .tc main_v17) = val_main_v17 (F := Ideal) x1) :
    after ((OPS.drop 26).take 19) U (Proc.devRef .tc main_v32) = val_main_v32 (F := Ideal) x1 := by
  list_spine
  after_results_simp
  try simp only [TRef.toBuf, TRef.ofBuf, cast_eq]
  rw [h_v1, h_v3, h_v17]
  simp only [val_main_c, val_main_v18, val_main_v19, val_main_c_5, val_main_v20, val_main_v21, val_main_v22, val_main_v23, val_main_v24, val_main_c_6, val_main_v25, val_main_v26, val_main_c_7, val_main_v27, val_main_v28, val_main_v29, val_main_v30, val_main_v31, val_main_v32] <;> rfl

theorem p5_v36 (x0 : (⟨S100000x128, .f32⟩ : BufTy).Contents (Elt Ideal)) (x10 : (⟨S128x128, .f32⟩ : BufTy).Contents (Elt Ideal)) (x11 : (⟨S128, .f32⟩ : BufTy).Contents (Elt Ideal))
    (ha0 : U (Proc.devRef .tc main_arg0) = x0)
    (ha10 : U (Proc.devRef .tc main_arg10) = x10)
    (ha11 : U (Proc.devRef .tc main_arg11) = x11) :
    after ((OPS.drop 45).take 5) U (Proc.devRef .tc main_v36) = val_main_v36 (F := Ideal) x0 x10 x11 := by
  list_spine
  after_results_simp
  try simp only [TRef.toBuf, TRef.ofBuf, cast_eq]
  rw [ha0, ha10, ha11]
  simp only [val_main_v33, val_main_v34, val_main_v35, val_main_v36, val_main_v37] <;> rfl

theorem p5_v37 (x0 : (⟨S100000x128, .f32⟩ : BufTy).Contents (Elt Ideal)) (x2 : (⟨S128x128, .f32⟩ : BufTy).Contents (Elt Ideal))
    (ha0 : U (Proc.devRef .tc main_arg0) = x0)
    (ha2 : U (Proc.devRef .tc main_arg2) = x2) :
    after ((OPS.drop 45).take 5) U (Proc.devRef .tc main_v37) = val_main_v37 (F := Ideal) x0 x2 := by
  list_spine
  after_results_simp
  try simp only [TRef.toBuf, TRef.ofBuf, cast_eq]
  rw [ha0, ha2]
  simp only [val_main_v33, val_main_v34, val_main_v35, val_main_v36, val_main_v37] <;> rfl

theorem p6_v50 (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (h_v1 : U (Proc.devRef .tc main_v1) = val_main_v1 (F := Ideal) x1)
    (h_v3 : U (Proc.devRef .tc main_v3) = val_main_v3 (F := Ideal) x1)
    (h_v32 : U (Proc.devRef .tc main_v32) = val_main_v32 (F := Ideal) x1)
    (h_v37 : U (Proc.devRef .tc main_v37) = val_main_v37 (F := Ideal) x0 x2) :
    after ((OPS.drop 50).take 16) U (Proc.devRef .tc main_v50) = val_main_v50 (F := Ideal) x0 x1 x2 := by
  list_spine
  after_results_simp
  try simp only [TRef.toBuf, TRef.ofBuf, cast_eq]
  rw [h_v1, h_v3, h_v32, h_v37]
  simp only [val_main_c_8, val_main_v38, val_main_v39, val_main_c_9, val_main_v40, val_main_v41, val_main_v42, val_main_v43, val_main_v44, val_main_v45, val_main_v46, val_main_v47, val_main_cst_10, val_main_v48, val_main_v49, val_main_v50] <;> rfl

theorem p7_v77 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))
    (h_v50 : U (Proc.devRef .tc main_v50) = val_main_v50 (F := Ideal) x0 x1 x2)
    (ha3 : U (Proc.devRef .tc main_arg3) = x3)
    (ha4 : U (Proc.devRef .tc main_arg4) = x4)
    (ha5 : U (Proc.devRef .tc main_arg5) = x5) :
    after ((OPS.drop 66).take 32) U (Proc.devRef .tc main_v77) = val_main_v77 (F := Ideal) x0 x1 x2 x3 x4 x5 := by
  list_spine
  after_results_simp
  try simp only [TRef.toBuf, TRef.ofBuf, cast_eq]
  rw [h_v50, ha3, ha4, ha5]
  simp only [val_main_v51, val_main_v52, val_main_v53, val_main_cst_11, val_main_v54, val_main_v55, val_main_cst_12, val_main_v56, val_main_v57, val_main_v58, val_main_v59, val_main_v60, val_main_cst_13, val_main_v61, val_main_v62, val_main_cst_14, val_main_v63, val_main_v64, val_main_v65, val_main_v66, val_main_cst_15, val_main_v67, val_main_v68, val_main_v69, val_main_v70, val_main_v71, val_main_v72, val_main_v73, val_main_v74, val_main_v75, val_main_v76, val_main_v77] <;> rfl

theorem p8_v78 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))
    (h_v77 : U (Proc.devRef .tc main_v77) = val_main_v77 (F := Ideal) x0 x1 x2 x3 x4 x5) :
    after ((OPS.drop 98).take 3) U (Proc.devRef .tc main_v78) = val_main_v78 (F := Ideal) x0 x1 x2 x3 x4 x5 := by
  list_spine
  after_results_simp
  try simp only [TRef.toBuf, TRef.ofBuf, cast_eq]
  rw [h_v77]
  simp only [val_main_call1_cst, val_main_call1_v0, val_main_v78] <;> rfl

theorem p9_v79 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal))
    (h_v78 : U (Proc.devRef .tc main_v78) = val_main_v78 (F := Ideal) x0 x1 x2 x3 x4 x5)
    (ha6 : U (Proc.devRef .tc main_arg6) = x6) :
    after ((OPS.drop 101).take 1) U (Proc.devRef .tc main_v79) = val_main_v79 (F := Ideal) x0 x1 x2 x3 x4 x5 x6 := by
  list_spine
  after_results_simp
  try simp only [TRef.toBuf, TRef.ofBuf, cast_eq]
  rw [h_v78, ha6]
  simp only [val_main_v79] <;> rfl

theorem p10_v92 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal))
    (h_v1 : U (Proc.devRef .tc main_v1) = val_main_v1 (F := Ideal) x1)
    (h_v3 : U (Proc.devRef .tc main_v3) = val_main_v3 (F := Ideal) x1)
    (h_v32 : U (Proc.devRef .tc main_v32) = val_main_v32 (F := Ideal) x1)
    (h_v79 : U (Proc.devRef .tc main_v79) = val_main_v79 (F := Ideal) x0 x1 x2 x3 x4 x5 x6) :
    after ((OPS.drop 102).take 16) U (Proc.devRef .tc main_v92) = val_main_v92 (F := Ideal) x0 x1 x2 x3 x4 x5 x6 := by
  list_spine
  after_results_simp
  try simp only [TRef.toBuf, TRef.ofBuf, cast_eq]
  rw [h_v1, h_v3, h_v32, h_v79]
  simp only [val_main_c_16, val_main_v80, val_main_v81, val_main_c_17, val_main_v82, val_main_v83, val_main_v84, val_main_v85, val_main_v86, val_main_v87, val_main_v88, val_main_v89, val_main_cst_18, val_main_v90, val_main_v91, val_main_v92] <;> rfl

theorem p11_v119 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))
    (h_v92 : U (Proc.devRef .tc main_v92) = val_main_v92 (F := Ideal) x0 x1 x2 x3 x4 x5 x6)
    (ha7 : U (Proc.devRef .tc main_arg7) = x7)
    (ha8 : U (Proc.devRef .tc main_arg8) = x8)
    (ha9 : U (Proc.devRef .tc main_arg9) = x9) :
    after ((OPS.drop 118).take 32) U (Proc.devRef .tc main_v119) = val_main_v119 (F := Ideal) x0 x1 x2 x3 x4 x5 x6 x7 x8 x9 := by
  list_spine
  after_results_simp
  try simp only [TRef.toBuf, TRef.ofBuf, cast_eq]
  rw [h_v92, ha7, ha8, ha9]
  simp only [val_main_v93, val_main_v94, val_main_v95, val_main_cst_19, val_main_v96, val_main_v97, val_main_cst_20, val_main_v98, val_main_v99, val_main_v100, val_main_v101, val_main_v102, val_main_cst_21, val_main_v103, val_main_v104, val_main_cst_22, val_main_v105, val_main_v106, val_main_v107, val_main_v108, val_main_cst_23, val_main_v109, val_main_v110, val_main_v111, val_main_v112, val_main_v113, val_main_v114, val_main_v115, val_main_v116, val_main_v117, val_main_v118, val_main_v119] <;> rfl

theorem p12_v120 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))
    (h_v119 : U (Proc.devRef .tc main_v119) = val_main_v119 (F := Ideal) x0 x1 x2 x3 x4 x5 x6 x7 x8 x9) :
    after ((OPS.drop 150).take 3) U (Proc.devRef .tc main_v120) = val_main_v120 (F := Ideal) x0 x1 x2 x3 x4 x5 x6 x7 x8 x9 := by
  list_spine
  after_results_simp
  try simp only [TRef.toBuf, TRef.ofBuf, cast_eq]
  rw [h_v119]
  simp only [val_main_call2_cst, val_main_call2_v0, val_main_v120] <;> rfl

theorem p13_v125 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal))
    (h_v120 : U (Proc.devRef .tc main_v120) = val_main_v120 (F := Ideal) x0 x1 x2 x3 x4 x5 x6 x7 x8 x9)
    (h_v36 : U (Proc.devRef .tc main_v36) = val_main_v36 (F := Ideal) x0 x10 x11)
    (ha12 : U (Proc.devRef .tc main_arg12) = x12)
    (ha13 : U (Proc.devRef .tc main_arg13) = x13) :
    after ((OPS.drop 153).take 5) U (Proc.devRef .tc main_v125) = val_main_v125 (F := Ideal) x0 x1 x2 x3 x4 x5 x6 x7 x8 x9 x10 x11 x12 x13 := by
  list_spine
  after_results_simp
  try simp only [TRef.toBuf, TRef.ofBuf, cast_eq]
  rw [h_v120, h_v36, ha12, ha13]
  simp only [val_main_v121, val_main_v122, val_main_v123, val_main_v124, val_main_v125] <;> rfl

theorem p14_v126 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal))
    (h_v125 : U (Proc.devRef .tc main_v125) = val_main_v125 (F := Ideal) x0 x1 x2 x3 x4 x5 x6 x7 x8 x9 x10 x11 x12 x13) :
    after ((OPS.drop 158).take 3) U (Proc.devRef .tc main_v126) = val_main_v126 (F := Ideal) x0 x1 x2 x3 x4 x5 x6 x7 x8 x9 x10 x11 x12 x13 := by
  list_spine
  after_results_simp
  try simp only [TRef.toBuf, TRef.ofBuf, cast_eq]
  rw [h_v125]
  simp only [val_main_call3_cst, val_main_call3_v0, val_main_v126] <;> rfl

theorem p15_v130 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal))
    (h_v126 : U (Proc.devRef .tc main_v126) = val_main_v126 (F := Ideal) x0 x1 x2 x3 x4 x5 x6 x7 x8 x9 x10 x11 x12 x13)
    (ha14 : U (Proc.devRef .tc main_arg14) = x14)
    (ha15 : U (Proc.devRef .tc main_arg15) = x15) :
    after ((OPS.drop 161).take 4) U (Proc.devRef .tc main_v130) = val_main_v130 (F := Ideal) x0 x1 x2 x3 x4 x5 x6 x7 x8 x9 x10 x11 x12 x13 x14 x15 := by
  list_spine
  after_results_simp
  try simp only [TRef.toBuf, TRef.ofBuf, cast_eq]
  rw [h_v126, ha14, ha15]
  simp only [val_main_v127, val_main_v128, val_main_v129, val_main_v130] <;> rfl

theorem p16_v132 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal))
    (h_v130 : U (Proc.devRef .tc main_v130) = val_main_v130 (F := Ideal) x0 x1 x2 x3 x4 x5 x6 x7 x8 x9 x10 x11 x12 x13 x14 x15) :
    after ((OPS.drop 165).take 15) U (Proc.devRef .tc main_v132) = val_main_v132 (F := Ideal) x0 x1 x2 x3 x4 x5 x6 x7 x8 x9 x10 x11 x12 x13 x14 x15 := by
  list_spine
  after_results_simp
  try simp only [TRef.toBuf, TRef.ofBuf, cast_eq]
  rw [h_v130]
  simp only [val_main_call4_cst, val_main_call4_v0, val_main_call4_v1, val_main_call4_v2, val_main_call4_v3, val_main_call4_v4, val_main_call4_v5, val_main_call4_v6, val_main_call4_v7, val_main_call4_v8, val_main_call4_v9, val_main_call4_v10, val_main_call4_v11, val_main_v131, val_main_v132] <;> rfl

/-! ## The whole line -/

theorem W_zero : W V 0 = V := rfl

theorem w_v1 : W V 4 (Proc.devRef .tc main_v1) = val_main_v1 (F := Ideal) (V (Proc.devRef .tc main_arg1)) := by
  rw [show (4 : ℕ) = 0 + 4 from rfl, W_add]
  exact p1_v1 _ _ (W_arg1 V 0)
theorem w_v3 : W V 4 (Proc.devRef .tc main_v3) = val_main_v3 (F := Ideal) (V (Proc.devRef .tc main_arg1)) := by
  rw [show (4 : ℕ) = 0 + 4 from rfl, W_add]
  exact p1_v3 _ _ (W_arg1 V 0)
theorem w_v9 : W V 23 (Proc.devRef .tc main_v9) = val_main_v9 (F := Ideal) (V (Proc.devRef .tc main_arg1)) := by
  rw [show (23 : ℕ) = 4 + 19 from rfl, W_add]
  exact p2_v9 _ _ (w_v3 V)
theorem w_v16 : W V 23 (Proc.devRef .tc main_v16) = val_main_v16 (F := Ideal) (V (Proc.devRef .tc main_arg1)) := by
  rw [show (23 : ℕ) = 4 + 19 from rfl, W_add]
  exact p2_v16 _ _ (w_v3 V)
theorem w_cst_4 : W V 23 (Proc.devRef .tc main_cst_4) = val_main_cst_4 (F := Ideal) := by
  rw [show (23 : ℕ) = 4 + 19 from rfl, W_add]
  exact p2_cst_4 _
theorem w_v17 : W V 26 (Proc.devRef .tc main_v17) = val_main_v17 (F := Ideal) (V (Proc.devRef .tc main_arg1)) := by
  rw [show (26 : ℕ) = 23 + 3 from rfl, W_add]
  exact p3_v17 _ _ (w_v9 V) (w_v16 V) (w_cst_4 V)
theorem w_v32 : W V 45 (Proc.devRef .tc main_v32) = val_main_v32 (F := Ideal) (V (Proc.devRef .tc main_arg1)) := by
  rw [show (45 : ℕ) = 26 + 19 from rfl, W_add]
  exact p4_v32 _ _ ((keep_main_v1_4_26 V).trans (w_v1 V)) ((keep_main_v3_4_26 V).trans (w_v3 V)) (w_v17 V)
theorem w_v36 : W V 50 (Proc.devRef .tc main_v36) = val_main_v36 (F := Ideal) (V (Proc.devRef .tc main_arg0)) (V (Proc.devRef .tc main_arg10)) (V (Proc.devRef .tc main_arg11)) := by
  rw [show (50 : ℕ) = 45 + 5 from rfl, W_add]
  exact p5_v36 _ _ _ _ (W_arg0 V 45) (W_arg10 V 45) (W_arg11 V 45)
theorem w_v37 : W V 50 (Proc.devRef .tc main_v37) = val_main_v37 (F := Ideal) (V (Proc.devRef .tc main_arg0)) (V (Proc.devRef .tc main_arg2)) := by
  rw [show (50 : ℕ) = 45 + 5 from rfl, W_add]
  exact p5_v37 _ _ _ (W_arg0 V 45) (W_arg2 V 45)
theorem w_v50 : W V 66 (Proc.devRef .tc main_v50) = val_main_v50 (F := Ideal) (V (Proc.devRef .tc main_arg0)) (V (Proc.devRef .tc main_arg1)) (V (Proc.devRef .tc main_arg2)) := by
  rw [show (66 : ℕ) = 50 + 16 from rfl, W_add]
  exact p6_v50 _ _ _ _ ((keep_main_v1_4_50 V).trans (w_v1 V)) ((keep_main_v3_4_50 V).trans (w_v3 V)) ((keep_main_v32_45_50 V).trans (w_v32 V)) (w_v37 V)
theorem w_v77 : W V 98 (Proc.devRef .tc main_v77) = val_main_v77 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [show (98 : ℕ) = 66 + 32 from rfl, W_add]
  exact p7_v77 _ _ _ _ _ _ _ (w_v50 V) (W_arg3 V 66) (W_arg4 V 66) (W_arg5 V 66)
theorem w_v78 : W V 101 (Proc.devRef .tc main_v78) = val_main_v78 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [show (101 : ℕ) = 98 + 3 from rfl, W_add]
  exact p8_v78 _ _ _ _ _ _ _ (w_v77 V)
theorem w_v79 : W V 102 (Proc.devRef .tc main_v79) = val_main_v79 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [show (102 : ℕ) = 101 + 1 from rfl, W_add]
  exact p9_v79 _ _ _ _ _ _ _ _ (w_v78 V) (W_arg6 V 101)
theorem w_v92 : W V 118 (Proc.devRef .tc main_v92) = val_main_v92 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [show (118 : ℕ) = 102 + 16 from rfl, W_add]
  exact p10_v92 _ _ _ _ _ _ _ _ ((keep_main_v1_4_102 V).trans (w_v1 V)) ((keep_main_v3_4_102 V).trans (w_v3 V)) ((keep_main_v32_45_102 V).trans (w_v32 V)) (w_v79 V)
theorem w_v119 : W V 150 (Proc.devRef .tc main_v119) = val_main_v119 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [show (150 : ℕ) = 118 + 32 from rfl, W_add]
  exact p11_v119 _ _ _ _ _ _ _ _ _ _ _ (w_v92 V) (W_arg7 V 118) (W_arg8 V 118) (W_arg9 V 118)
theorem w_v120 : W V 153 (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [show (153 : ℕ) = 150 + 3 from rfl, W_add]
  exact p12_v120 _ _ _ _ _ _ _ _ _ _ _ (w_v119 V)
theorem w_v125 : W V 158 (Proc.devRef .tc main_v125) = val_main_v125 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [show (158 : ℕ) = 153 + 5 from rfl, W_add]
  exact p13_v125 _ _ _ _ _ _ _ _ _ _ _ _ _ _ _ (w_v120 V) ((keep_main_v36_50_153 V).trans (w_v36 V)) (W_arg12 V 153) (W_arg13 V 153)
theorem w_v126 : W V 161 (Proc.devRef .tc main_v126) = val_main_v126 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [show (161 : ℕ) = 158 + 3 from rfl, W_add]
  exact p14_v126 _ _ _ _ _ _ _ _ _ _ _ _ _ _ _ (w_v125 V)
theorem w_v130 : W V 165 (Proc.devRef .tc main_v130) = val_main_v130 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [show (165 : ℕ) = 161 + 4 from rfl, W_add]
  exact p15_v130 _ _ _ _ _ _ _ _ _ _ _ _ _ _ _ _ _ (w_v126 V) (W_arg14 V 161) (W_arg15 V 161)
theorem w_v132 : W V 180 (Proc.devRef .tc main_v132) = val_main_v132 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [show (180 : ℕ) = 165 + 15 from rfl, W_add]
  exact p16_v132 _ _ _ _ _ _ _ _ _ _ _ _ _ _ _ _ _ (w_v130 V)

/-- The result buffer after the whole line is the generated stage list's last stage of the buffers' contents at
    the start. -/
theorem result_eq : after OPS V (Proc.devRef .tc main_v132) = val_main_v132 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [← W_all]; exact w_v132 V

theorem kept_arg0 : after OPS V (Proc.devRef .tc main_arg0) = V (Proc.devRef .tc main_arg0) := by
  rw [← W_all]; exact W_arg0 V 180
theorem kept_arg1 : after OPS V (Proc.devRef .tc main_arg1) = V (Proc.devRef .tc main_arg1) := by
  rw [← W_all]; exact W_arg1 V 180
theorem kept_arg2 : after OPS V (Proc.devRef .tc main_arg2) = V (Proc.devRef .tc main_arg2) := by
  rw [← W_all]; exact W_arg2 V 180
theorem kept_arg3 : after OPS V (Proc.devRef .tc main_arg3) = V (Proc.devRef .tc main_arg3) := by
  rw [← W_all]; exact W_arg3 V 180
theorem kept_arg4 : after OPS V (Proc.devRef .tc main_arg4) = V (Proc.devRef .tc main_arg4) := by
  rw [← W_all]; exact W_arg4 V 180
theorem kept_arg5 : after OPS V (Proc.devRef .tc main_arg5) = V (Proc.devRef .tc main_arg5) := by
  rw [← W_all]; exact W_arg5 V 180
theorem kept_arg6 : after OPS V (Proc.devRef .tc main_arg6) = V (Proc.devRef .tc main_arg6) := by
  rw [← W_all]; exact W_arg6 V 180
theorem kept_arg7 : after OPS V (Proc.devRef .tc main_arg7) = V (Proc.devRef .tc main_arg7) := by
  rw [← W_all]; exact W_arg7 V 180
theorem kept_arg8 : after OPS V (Proc.devRef .tc main_arg8) = V (Proc.devRef .tc main_arg8) := by
  rw [← W_all]; exact W_arg8 V 180
theorem kept_arg9 : after OPS V (Proc.devRef .tc main_arg9) = V (Proc.devRef .tc main_arg9) := by
  rw [← W_all]; exact W_arg9 V 180
theorem kept_arg10 : after OPS V (Proc.devRef .tc main_arg10) = V (Proc.devRef .tc main_arg10) := by
  rw [← W_all]; exact W_arg10 V 180
theorem kept_arg11 : after OPS V (Proc.devRef .tc main_arg11) = V (Proc.devRef .tc main_arg11) := by
  rw [← W_all]; exact W_arg11 V 180
theorem kept_arg12 : after OPS V (Proc.devRef .tc main_arg12) = V (Proc.devRef .tc main_arg12) := by
  rw [← W_all]; exact W_arg12 V 180
theorem kept_arg13 : after OPS V (Proc.devRef .tc main_arg13) = V (Proc.devRef .tc main_arg13) := by
  rw [← W_all]; exact W_arg13 V 180
theorem kept_arg14 : after OPS V (Proc.devRef .tc main_arg14) = V (Proc.devRef .tc main_arg14) := by
  rw [← W_all]; exact W_arg14 V 180
theorem kept_arg15 : after OPS V (Proc.devRef .tc main_arg15) = V (Proc.devRef .tc main_arg15) := by
  rw [← W_all]; exact W_arg15 V 180

/-- The reference's run, read: every weakly fair execution terminates with the result at the last stage of the
    launch arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132)
        = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v132).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _)⟩)
    (ValueP.run_after (F := Ideal) m ρ)

end Cert.ReferenceIdeal.Pieces

end
-- ==== Proof.lean ====
/-
  A two-layer graph convolution network with a residual projection and a small head, as four tiled kernels among
  host stretches, against its plain jnp reference.

  The two programs compute the same thing in the same arrangement.  On the host both count in-degrees by a
  scatter-add of ones, take reciprocal square roots where the degree is positive, and scale the edges by the
  product of the two ends' factors; both aggregate a dense array along the edges by gather, scale and
  scatter-add.  Between the aggregations the kernel program computes the dense stages — projections, LayerNorm
  with a clip at zero, the head with its soft-plus — on blocks of 4000 node rows, the reference on all 100000
  rows at once.  Every dense stage acts on each row independently, so a block's rows are the array's rows and the
  25 blocks tile the array: `Spec` writes each stage as a function of one row, `Pays` reads the kernel bodies as
  those functions, `Fin0`–`Fin3` assemble the blocks into the whole arrays, `RefStages` reads the reference's
  stages as the same functions, and `KChain` walks the kernel program's buffers from the launch to the result,
  naming each as the reference's stage of the launch arguments.  No arithmetic law is needed beyond `x · 1 = x`
  (the reference multiplies the reciprocal root by the 0/1 value of the very condition it then selects on) and
  `0 - y = -y` (the kernel negates by subtracting from zero); finiteness of the inputs is not used.
  The changes of float format in the kernel's matrix products are the identity on the extended reals, and the
  kernel's idealization rewrote nothing, so `preserves` is trivial.
-/
import proofs.«111997_j21251498181391_1_alg».proof.Defs
import proofs.«111997_j21251498181391_1_alg».proof.Proof.Gen.Kernel
import proofs.«111997_j21251498181391_1_alg».proof.Proof.Gen.Kernel.Skeleton
import proofs.«111997_j21251498181391_1_alg».proof.Proof.Gen.Kernel.Launch
import proofs.«111997_j21251498181391_1_alg».proof.Proof.Gen.Kernel.Points
import proofs.«111997_j21251498181391_1_alg».proof.Proof.Gen.Kernel.Frame
import proofs.«111997_j21251498181391_1_alg».proof.Proof.Gen.KernelIdeal
import proofs.«111997_j21251498181391_1_alg».proof.Proof.Gen.KernelIdeal.Skeleton
import proofs.«111997_j21251498181391_1_alg».proof.Proof.Gen.KernelIdeal.Launch
import proofs.«111997_j21251498181391_1_alg».proof.Proof.Gen.KernelIdeal.Points
import proofs.«111997_j21251498181391_1_alg».proof.Proof.Gen.KernelIdeal.Frame
import proofs.«111997_j21251498181391_1_alg».proof.Proof.Gen.ReferenceIdeal
import proofs.«111997_j21251498181391_1_alg».proof.Proof.Gen.Pre_finite_inputs
import proofs.«111997_j21251498181391_1_alg».proof.Proof.RunAll
import proofs.«111997_j21251498181391_1_alg».proof.Proof.KChain
import proofs.«111997_j21251498181391_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Pieces.run m ρ)

/-- The idealization rewrote no operation. -/
theorem preserves : Cert.preserves_Kernel_KernelIdeal := trivial

/-- Both programs end with the result at the reference's last stage of the launch arguments. -/
theorem algebraic : Cert.algebraic_KernelIdeal_ReferenceIdeal := by
  intro m ρ m' ρ' _ hagree
  refine ⟨fun c => Cert.ReferenceIdeal.ReadP.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c Cert.KernelIdeal.main_v59 (by decide)).trans (Cert.KernelIdeal.Chain.W10_v59 m ρ c),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c),
      (h c Cert.KernelIdeal.main_arg8 (by decide)).trans (Cert.KernelIdeal.Gen.W10_main_arg8 m ρ c),
      (h c Cert.KernelIdeal.main_arg9 (by decide)).trans (Cert.KernelIdeal.Gen.W10_main_arg9 m ρ c),
      (h c Cert.KernelIdeal.main_arg10 (by decide)).trans (Cert.KernelIdeal.Gen.W10_main_arg10 m ρ c),
      (h c Cert.KernelIdeal.main_arg11 (by decide)).trans (Cert.KernelIdeal.Gen.W10_main_arg11 m ρ c),
      (h c Cert.KernelIdeal.main_arg12 (by decide)).trans (Cert.KernelIdeal.Gen.W10_main_arg12 m ρ c),
      (h c Cert.KernelIdeal.main_arg13 (by decide)).trans (Cert.KernelIdeal.Gen.W10_main_arg13 m ρ c),
      (h c Cert.KernelIdeal.main_arg14 (by decide)).trans (Cert.KernelIdeal.Gen.W10_main_arg14 m ρ c),
      (h c Cert.KernelIdeal.main_arg15 (by decide)).trans (Cert.KernelIdeal.Gen.W10_main_arg15 m ρ c)⟩)
      (Cert.KernelIdeal.Whole.run_all m ρ)
  · refine (θ_run Cert.ReferenceIdeal.defs _ _).mono (fun r h c => ⟨(h c).1.trans ?_, (h c).2⟩) (Cert.ReferenceIdeal.Pieces.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
